-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64 : Shape := ⟨1, ![64]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x3x512x512 .f32) (main_arg1 : FVec F S64 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S64x3x512x512 : Shape := ⟨4, ![64, 3, 512, 512]⟩
abbrev S64 : Shape := ⟨1, ![64]⟩
abbrev S63 : Shape := ⟨1, ![63]⟩
abbrev S_ : Shape := ⟨0, ![]⟩
abbrev S1 : Shape := ⟨1, ![1]⟩
abbrev S2 : Shape := ⟨1, ![2]⟩
abbrev S67 : Shape := ⟨1, ![67]⟩
abbrev S66 : Shape := ⟨1, ![66]⟩
abbrev S1x64 : Shape := ⟨2, ![1, 64]⟩
abbrev S4x64 : Shape := ⟨2, ![4, 64]⟩
abbrev S192x512x512 : Shape := ⟨3, ![192, 512, 512]⟩
abbrev S8x512x512 : Shape := ⟨3, ![8, 512, 512]⟩
abbrev S32x512x64 : Shape := ⟨3, ![32, 512, 64]⟩
abbrev S1x32x512 : Shape := ⟨3, ![1, 32, 512]⟩
abbrev S32x512 : Shape := ⟨2, ![32, 512]⟩
abbrev S32x512x1 : Shape := ⟨3, ![32, 512, 1]⟩
abbrev S1x1x64 : Shape := ⟨3, ![1, 1, 64]⟩

abbrev nBuf : Space → Nat
  | .hbm => 120
  | .vmem => 5
  | .smem => 0
  | _ => 0

abbrev bufTy : (tb : Table) → Fin (tcTables nBuf tb) → BufTy
  | .hbm, ⟨0, _⟩ => ⟨S64x3x512x512, .f32⟩
  | .hbm, ⟨1, _⟩ => ⟨S64, .f32⟩
  | .hbm, ⟨2, _⟩ => ⟨S63, .f32⟩
  | .hbm, ⟨3, _⟩ => ⟨S63, .f32⟩
  | .hbm, ⟨4, _⟩ => ⟨S63, .f32⟩
  | .hbm, ⟨5, _⟩ => ⟨S_, .f32⟩
  | .hbm, ⟨6, _⟩ => ⟨S63, .f32⟩
  | .hbm, ⟨7, _⟩ => ⟨S63, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S2, .f32⟩
  | .hbm, ⟨27, _⟩ => ⟨S1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S2, .f32⟩
  | .hbm, ⟨46, _⟩ => ⟨S67, .f32⟩
  | .hbm, ⟨47, _⟩ => ⟨S66, .f32⟩
  | .hbm, ⟨48, _⟩ => ⟨S66, .f32⟩
  | .hbm, ⟨49, _⟩ => ⟨S66, .f32⟩
  | .hbm, ⟨50, _⟩ => ⟨S66, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .i1⟩
  | .hbm, ⟨57, _⟩ => ⟨S_, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .i1⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S63, .f32⟩
  | .hbm, ⟨76, _⟩ => ⟨S63, .f32⟩
  | .hbm, ⟨77, _⟩ => ⟨S_, .f32⟩
  | .hbm, ⟨78, _⟩ => ⟨S63, .f32⟩
  | .hbm, ⟨79, _⟩ => ⟨S63, .f32⟩
  | .hbm, ⟨80, _⟩ => ⟨S63, .f32⟩
  | .hbm, ⟨81, _⟩ => ⟨S_, .f32⟩
  | .hbm, ⟨82, _⟩ => ⟨S63, .f32⟩
  | .hbm, ⟨83, _⟩ => ⟨S63, .f32⟩
  | .hbm, ⟨84, _⟩ => ⟨S63, .f32⟩
  | .hbm, ⟨85, _⟩ => ⟨S63, .f32⟩
  | .hbm, ⟨86, _⟩ => ⟨S63, .f32⟩
  | .hbm, ⟨87, _⟩ => ⟨S_, .f32⟩
  | .hbm, ⟨88, _⟩ => ⟨S63, .f32⟩
  | .hbm, ⟨89, _⟩ => ⟨S63, .f32⟩
  | .hbm, ⟨90, _⟩ => ⟨S63, .f32⟩
  | .hbm, ⟨91, _⟩ => ⟨S63, .f32⟩
  | .hbm, ⟨92, _⟩ => ⟨S63, .f32⟩
  | .hbm, ⟨93, _⟩ => ⟨S_, .f32⟩
  | .hbm, ⟨94, _⟩ => ⟨S63, .f32⟩
  | .hbm, ⟨95, _⟩ => ⟨S63, .f32⟩
  | .hbm, ⟨96, _⟩ => ⟨S63, .f32⟩
  | .hbm, ⟨97, _⟩ => ⟨S_, .f32⟩
  | .hbm, ⟨98, _⟩ => ⟨S63, .f32⟩
  | .hbm, ⟨99, _⟩ => ⟨S63, .f32⟩
  | .hbm, ⟨100, _⟩ => ⟨S_, .f32⟩
  | .hbm, ⟨101, _⟩ => ⟨S1, .f32⟩
  | .hbm, ⟨102, _⟩ => ⟨S64, .f32⟩
  | .hbm, ⟨103, _⟩ => ⟨S_, .f32⟩
  | .hbm, ⟨104, _⟩ => ⟨S1, .f32⟩
  | .hbm, ⟨105, _⟩ => ⟨S64, .f32⟩
  | .hbm, ⟨106, _⟩ => ⟨S_, .f32⟩
  | .hbm, ⟨107, _⟩ => ⟨S1, .f32⟩
  | .hbm, ⟨108, _⟩ => ⟨S64, .f32⟩
  | .hbm, ⟨109, _⟩ => ⟨S_, .f32⟩
  | .hbm, ⟨110, _⟩ => ⟨S1, .f32⟩
  | .hbm, ⟨111, _⟩ => ⟨S64, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S4x64, .f32⟩
  | .hbm, ⟨117, _⟩ => ⟨S192x512x512, .f32⟩
  | .hbm, ⟨118, _⟩ => ⟨S192x512x512, .f32⟩
  | .hbm, ⟨119, _⟩ => ⟨S64x3x512x512, .f32⟩
  | .local _ .vmem, ⟨0, _⟩ => ⟨S8x512x512, .f32⟩
  | .local _ .vmem, ⟨1, _⟩ => ⟨S8x512x512, .f32⟩
  | .local _ .vmem, ⟨2, _⟩ => ⟨S4x64, .f32⟩
  | .local _ .vmem, ⟨3, _⟩ => ⟨S8x512x512, .f32⟩
  | .local _ .vmem, ⟨4, _⟩ => ⟨S8x512x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call1_v0 : Ref sig .tc := ⟨.hbm, 47, rfl⟩
abbrev main_call1_v1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_call2_v0 : Ref sig .tc := ⟨.hbm, 58, rfl⟩
abbrev main_call2_v1 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_14 : Ref sig .tc := ⟨.hbm, 97, rfl⟩
abbrev main_v74 : Ref sig .tc := ⟨.hbm, 98, rfl⟩
abbrev main_v75 : Ref sig .tc := ⟨.hbm, 99, rfl⟩
abbrev main_cst_15 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_cst_17 : Ref sig .tc := ⟨.hbm, 106, rfl⟩
abbrev main_v80 : Ref sig .tc := ⟨.hbm, 107, rfl⟩
abbrev main_v81 : Ref sig .tc := ⟨.hbm, 108, rfl⟩
abbrev main_cst_18 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32 : BitVec 32 := 32#32
  let v11 : BitVec 32 := Scalar.muli arg4 c32_i32
  v11
def k0_off1 (k0_t1 : Fin k0_t1_loop.trips) : Fin 3 → Nat :=
  let c0_30 : Index := 0#32
  let c0_i32 : BitVec 32 := 0#32
  let c1_i32 : BitVec 32 := 1#32
  let arg4 : BitVec 32 := Scf.iv c0_i32 c1_i32 k0_t1
  let c32_i32 : BitVec 32 := 32#32
  let v11 : BitVec 32 := Scalar.muli arg4 c32_i32
  let v12 : BitVec 32 := v11
  let v13 : Index := Scalar.indexCast v12
  let c0_31 : Index := 0#32
  ![0, v13.toNat, 0]
@[reducible] def k0_t2_loop : Scf.Loop 32 :=
  let c0_i32_2 : BitVec 32 := 0#32
  let c16_i32_3 : BitVec 32 := 16#32
  let v4 : BitVec 32 := Scalar.addi c0_i32_2 c16_i32_3
  let c1_i32_4 : BitVec 32 := 1#32
  ⟨c0_i32_2, v4, c1_i32_4⟩
def k0_mult2 (k0_t2 : Fin k0_t2_loop.trips) : BitVec 32 :=
  let c0_i32_2 : BitVec 32 := 0#32
  let c1_i32_4 : BitVec 32 := 1#32
  let arg4 : BitVec 32 := Scf.iv c0_i32_2 c1_i32_4 k0_t2
  let c32_i32 : BitVec 32 := 32#32
  let v11 : BitVec 32 := Scalar.muli arg4 c32_i32
  v11
def k0_off2 (k0_t2 : Fin k0_t2_loop.trips) : Fin 3 → Nat :=
  let c1 : Index := 1#32
  let c0_i32_2 : BitVec 32 := 0#32
  let c1_i32_4 : BitVec 32 := 1#32
  let arg4 : BitVec 32 := Scf.iv c0_i32_2 c1_i32_4 k0_t2
  let c32_i32 : BitVec 32 := 32#32
  let v11 : BitVec 32 := Scalar.muli arg4 c32_i32
  let v12 : BitVec 32 := v11
  let v13 : Index := Scalar.indexCast v12
  let c0_30 : Index := 0#32
  ![1, v13.toNat, 0]
@[reducible] def k0_t3_loop : Scf.Loop 32 :=
  let c0_i32_6 : BitVec 32 := 0#32
  let c16_i32_7 : BitVec 32 := 16#32
  let v5 : BitVec 32 := Scalar.addi c0_i32_6 c16_i32_7
  let c1_i32_8 : BitVec 32 := 1#32
  ⟨c0_i32_6, v5, c1_i32_8⟩
def k0_mult3 (k0_t3 : Fin k0_t3_loop.trips) : BitVec 32 :=
  let c0_i32_6 : BitVec 32 := 0#32
  let c1_i32_8 : BitVec 32 := 1#32
  let arg4 : BitVec 32 := Scf.iv c0_i32_6 c1_i32_8 k0_t3
  let c32_i32 : BitVec 32 := 32#32
  let v11 : BitVec 32 := Scalar.muli arg4 c32_i32
  v11
def k0_off3 (k0_t3 : Fin k0_t3_loop.trips) : Fin 3 → Nat :=
  let c2 : Index := 2#32
  let c0_i32_6 : BitVec 32 := 0#32
  let c1_i32_8 : BitVec 32 := 1#32
  let arg4 : BitVec 32 := Scf.iv c0_i32_6 c1_i32_8 k0_t3
  let c32_i32 : BitVec 32 := 32#32
  let v11 : BitVec 32 := Scalar.muli arg4 c32_i32
  let v12 : BitVec 32 := v11
  let v13 : Index := Scalar.indexCast v12
  let c0_30 : Index := 0#32
  ![2, v13.toNat, 0]
@[reducible] def k0_t4_loop : Scf.Loop 32 :=
  let c0_i32_10 : BitVec 32 := 0#32
  let c16_i32_11 : BitVec 32 := 16#32
  let v6 : BitVec 32 := Scalar.addi c0_i32_10 c16_i32_11
  let c1_i32_12 : BitVec 32 := 1#32
  ⟨c0_i32_10, v6, c1_i32_12⟩
def k0_mult4 (k0_t4 : Fin k0_t4_loop.trips) : BitVec 32 :=
  let c0_i32_10 : BitVec 32 := 0#32
  let c1_i32_12 : BitVec 32 := 1#32
  let arg4 : BitVec 32 := Scf.iv c0_i32_10 c1_i32_12 k0_t4
  let c32_i32 : BitVec 32 := 32#32
  let v11 : BitVec 32 := Scalar.muli arg4 c32_i32
  v11
def k0_off4 (k0_t4 : Fin k0_t4_loop.trips) : Fin 3 → Nat :=
  let c3 : Index := 3#32
  let c0_i32_10 : BitVec 32 := 0#32
  let c1_i32_12 : BitVec 32 := 1#32
  let arg4 : BitVec 32 := Scf.iv c0_i32_10 c1_i32_12 k0_t4
  let c32_i32 : BitVec 32 := 32#32
  let v11 : BitVec 32 := Scalar.muli arg4 c32_i32
  let v12 : BitVec 32 := v11
  let v13 : Index := Scalar.indexCast v12
  let c0_30 : Index := 0#32
  ![3, v13.toNat, 0]
@[reducible] def k0_t5_loop : Scf.Loop 32 :=
  let c0_i32_14 : BitVec 32 := 0#32
  let c16_i32_15 : BitVec 32 := 16#32
  let v7 : BitVec 32 := Scalar.addi c0_i32_14 c16_i32_15
  let c1_i32_16 : BitVec 32 := 1#32
  ⟨c0_i32_14, v7, c1_i32_16⟩
def k0_mult5 (k0_t5 : Fin k0_t5_loop.trips) : BitVec 32 :=
  let c0_i32_14 : BitVec 32 := 0#32
  let c1_i32_16 : BitVec 32 := 1#32
  let arg4 : BitVec 32 := Scf.iv c0_i32_14 c1_i32_16 k0_t5
  let c32_i32 : BitVec 32 := 32#32
  let v11 : BitVec 32 := Scalar.muli arg4 c32_i32
  v11
def k0_off5 (k0_t5 : Fin k0_t5_loop.trips) : Fin 3 → Nat :=
  let c4 : Index := 4#32
  let c0_i32_14 : BitVec 32 := 0#32
  let c1_i32_16 : BitVec 32 := 1#32
  let arg4 : BitVec 32 := Scf.iv c0_i32_14 c1_i32_16 k0_t5
  let c32_i32 : BitVec 32 := 32#32
  let v11 : BitVec 32 := Scalar.muli arg4 c32_i32
  let v12 : BitVec 32 := v11
  let v13 : Index := Scalar.indexCast v12
  let c0_30 : Index := 0#32
  ![4, v13.toNat, 0]
@[reducible] def k0_t6_loop : Scf.Loop 32 :=
  let c0_i32_18 : BitVec 32 := 0#32
  let c16_i32_19 : BitVec 32 := 16#32
  let v8 : BitVec 32 := Scalar.addi c0_i32_18 c16_i32_19
  let c1_i32_20 : BitVec 32 := 1#32
  ⟨c0_i32_18, v8, c1_i32_20⟩
def k0_mult6 (k0_t6 : Fin k0_t6_loop.trips) : BitVec 32 :=
  let c0_i32_18 : BitVec 32 := 0#32
  let c1_i32_20 : BitVec 32 := 1#32
  let arg4 : BitVec 32 := Scf.iv c0_i32_18 c1_i32_20 k0_t6
  let c32_i32 : BitVec 32 := 32#32
  let v11 : BitVec 32 := Scalar.muli arg4 c32_i32
  v11
def k0_off6 (k0_t6 : Fin k0_t6_loop.trips) : Fin 3 → Nat :=
  let c5 : Index := 5#32
  let c0_i32_18 : BitVec 32 := 0#32
  let c1_i32_20 : BitVec 32 := 1#32
  let arg4 : BitVec 32 := Scf.iv c0_i32_18 c1_i32_20 k0_t6
  let c32_i32 : BitVec 32 := 32#32
  let v11 : BitVec 32 := Scalar.muli arg4 c32_i32
  let v12 : BitVec 32 := v11
  let v13 : Index := Scalar.indexCast v12
  let c0_30 : Index := 0#32
  ![5, v13.toNat, 0]
@[reducible] def k0_t7_loop : Scf.Loop 32 :=
  let c0_i32_22 : BitVec 32 := 0#32
  let c16_i32_23 : BitVec 32 := 16#32
  let v9 : BitVec 32 := Scalar.addi c0_i32_22 c16_i32_23
  let c1_i32_24 : BitVec 32 := 1#32
  ⟨c0_i32_22, v9, c1_i32_24⟩
def k0_mult7 (k0_t7 : Fin k0_t7_loop.trips) : BitVec 32 :=
  let c0_i32_22 : BitVec 32 := 0#32
  let c1_i32_24 : BitVec 32 := 1#32
  let arg4 : BitVec 32 := Scf.iv c0_i32_22 c1_i32_24 k0_t7
  let c32_i32 : BitVec 32 := 32#32
  let v11 : BitVec 32 := Scalar.muli arg4 c32_i32
  v11
def k0_off7 (k0_t7 : Fin k0_t7_loop.trips) : Fin 3 → Nat :=
  let c6 : Index := 6#32
  let c0_i32_22 : BitVec 32 := 0#32
  let c1_i32_24 : BitVec 32 := 1#32
  let arg4 : BitVec 32 := Scf.iv c0_i32_22 c1_i32_24 k0_t7
  let c32_i32 : BitVec 32 := 32#32
  let v11 : BitVec 32 := Scalar.muli arg4 c32_i32
  let v12 : BitVec 32 := v11
  let v13 : Index := Scalar.indexCast v12
  let c0_30 : Index := 0#32
  ![6, v13.toNat, 0]
@[reducible] def k0_t8_loop : Scf.Loop 32 :=
  let c0_i32_26 : BitVec 32 := 0#32
  let c16_i32_27 : BitVec 32 := 16#32
  let v10 : BitVec 32 := Scalar.addi c0_i32_26 c16_i32_27
  let c1_i32_28 : BitVec 32 := 1#32
  ⟨c0_i32_26, v10, c1_i32_28⟩
def k0_mult8 (k0_t8 : Fin k0_t8_loop.trips) : BitVec 32 :=
  let c0_i32_26 : BitVec 32 := 0#32
  let c1_i32_28 : BitVec 32 := 1#32
  let arg4 : BitVec 32 := Scf.iv c0_i32_26 c1_i32_28 k0_t8
  let c32_i32 : BitVec 32 := 32#32
  let v11 : BitVec 32 := Scalar.muli arg4 c32_i32
  v11
def k0_off8 (k0_t8 : Fin k0_t8_loop.trips) : Fin 3 → Nat :=
  let c7 : Index := 7#32
  let c0_i32_26 : BitVec 32 := 0#32
  let c1_i32_28 : BitVec 32 := 1#32
  let arg4 : BitVec 32 := Scf.iv c0_i32_26 c1_i32_28 k0_t8
  let c32_i32 : BitVec 32 := 32#32
  let v11 : BitVec 32 := Scalar.muli arg4 c32_i32
  let v12 : BitVec 32 := v11
  let v13 : Index := Scalar.indexCast v12
  let c0_30 : Index := 0#32
  ![7, v13.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S64_S63_1 : S64.Slices ![1] S63
  slices_S64_S63_0 : S64.Slices ![0] S63
  bcast_S_S63 : S_.BroadcastsInDim S63 (![] : Fin 0 → Fin S63.rank)
  slices_S63_S1_0 : S63.Slices ![0] S1
  shapeCasts_S1_S_ : S1.ShapeCasts S_
  slices_S63_S1_1 : S63.Slices ![1] S1
  bcast_S_S1 : S_.BroadcastsInDim S1 (![] : Fin 0 → Fin S1.rank)
  concatenates_S1_S1_S2_d0 : Shape.Concatenates [S1, S1] S2 0
  slices_S63_S1_62 : S63.Slices ![62] S1
  slices_S63_S1_61 : S63.Slices ![61] S1
  concatenates_S2_S63_S2_S67_d0 : Shape.Concatenates [S2, S63, S2] S67 0
  slices_S67_S66_1 : S67.Slices ![1] S66
  slices_S67_S66_0 : S67.Slices ![0] S66
  slices_S66_S64_2 : S66.Slices ![2] S64
  slices_S66_S64_0 : S66.Slices ![0] S64
  bcast_S_S64 : S_.BroadcastsInDim S64 (![] : Fin 0 → Fin S64.rank)
  slices_S67_S64_1 : S67.Slices ![1] S64
  slices_S67_S64_2 : S67.Slices ![2] S64
  concatenates_S63_S1_S64_d0 : Shape.Concatenates [S63, S1] S64 0
  bcast_S64_S1x64_1 : S64.BroadcastsInDim S1x64 (![1] : Fin 1 → Fin S1x64.rank)
  concatenates_S1x64_S1x64_S1x64_S1x64_S4x64_d0 : Shape.Concatenates [S1x64, S1x64, S1x64, S1x64] S4x64 0
  shapeCasts_S64x3x512x512_S192x512x512 : S64x3x512x512.ShapeCasts S192x512x512
  inb_S4x64_S4x64_0_0 : ∀ a, (![0, 0] : Fin 2 → Nat) a + S4x64.size a ≤ S4x64.size a
  h_S4x64 : 0 < S4x64.numel
  shapeCasts_S4x64_S4x64 : S4x64.ShapeCasts S4x64
  iota_S32x512x64_d2_w32 : S32x512x64.Iotas .tc 32 [2]
  h_S1x32x512 : 0 < S1x32x512.numel
  shapeCasts_S1x32x512_S32x512 : S1x32x512.ShapeCasts S32x512
  shapeCasts_S32x512_S32x512x1 : S32x512.ShapeCasts S32x512x1
  broadcasts_S32x512x1_S32x512x64 : S32x512x1.Broadcasts S32x512x64
  natLt_1_32 : 1 < 32
  slices_S4x64_o0_0_S1x64 : S4x64.Slices ![0, 0] S1x64
  shapeCasts_S1x64_S64 : S1x64.ShapeCasts S64
  shapeCasts_S64_S1x1x64 : S64.ShapeCasts S1x1x64
  broadcasts_S1x1x64_S32x512x64 : S1x1x64.Broadcasts S32x512x64
  reduces_S32x512x64_S32x512 : S32x512x64.Reduces [2] S32x512
  slices_S4x64_o1_0_S1x64 : S4x64.Slices ![1, 0] S1x64
  slices_S4x64_o2_0_S1x64 : S4x64.Slices ![2, 0] S1x64
  slices_S4x64_o3_0_S1x64 : S4x64.Slices ![3, 0] S1x64
  shapeCasts_S32x512_S1x32x512 : S32x512.ShapeCasts S1x32x512
  shapeCasts_S192x512x512_S64x3x512x512 : S192x512x512.ShapeCasts S64x3x512x512
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S1x32x512.size a ≤ S8x512x512.size a
  k0_t2_ok : k0_t2_loop.OK
  k0_mult2_dvd : ∀ k0_t2 : Fin k0_t2_loop.trips, 32 ∣ (k0_mult2 k0_t2).toNat
  k0_off2_inb : ∀ k0_t2 : Fin k0_t2_loop.trips, ∀ a, (k0_off2 k0_t2) a + S1x32x512.size a ≤ S8x512x512.size a
  k0_t3_ok : k0_t3_loop.OK
  k0_mult3_dvd : ∀ k0_t3 : Fin k0_t3_loop.trips, 32 ∣ (k0_mult3 k0_t3).toNat
  k0_off3_inb : ∀ k0_t3 : Fin k0_t3_loop.trips, ∀ a, (k0_off3 k0_t3) a + S1x32x512.size a ≤ S8x512x512.size a
  k0_t4_ok : k0_t4_loop.OK
  k0_mult4_dvd : ∀ k0_t4 : Fin k0_t4_loop.trips, 32 ∣ (k0_mult4 k0_t4).toNat
  k0_off4_inb : ∀ k0_t4 : Fin k0_t4_loop.trips, ∀ a, (k0_off4 k0_t4) a + S1x32x512.size a ≤ S8x512x512.size a
  k0_t5_ok : k0_t5_loop.OK
  k0_mult5_dvd : ∀ k0_t5 : Fin k0_t5_loop.trips, 32 ∣ (k0_mult5 k0_t5).toNat
  k0_off5_inb : ∀ k0_t5 : Fin k0_t5_loop.trips, ∀ a, (k0_off5 k0_t5) a + S1x32x512.size a ≤ S8x512x512.size a
  k0_t6_ok : k0_t6_loop.OK
  k0_mult6_dvd : ∀ k0_t6 : Fin k0_t6_loop.trips, 32 ∣ (k0_mult6 k0_t6).toNat
  k0_off6_inb : ∀ k0_t6 : Fin k0_t6_loop.trips, ∀ a, (k0_off6 k0_t6) a + S1x32x512.size a ≤ S8x512x512.size a
  k0_t7_ok : k0_t7_loop.OK
  k0_mult7_dvd : ∀ k0_t7 : Fin k0_t7_loop.trips, 32 ∣ (k0_mult7 k0_t7).toNat
  k0_off7_inb : ∀ k0_t7 : Fin k0_t7_loop.trips, ∀ a, (k0_off7 k0_t7) a + S1x32x512.size a ≤ S8x512x512.size a
  k0_t8_ok : k0_t8_loop.OK
  k0_mult8_dvd : ∀ k0_t8 : Fin k0_t8_loop.trips, 32 ∣ (k0_mult8 k0_t8).toNat
  k0_off8_inb : ∀ k0_t8 : Fin k0_t8_loop.trips, ∀ a, (k0_off8 k0_t8) a + S1x32x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S192x512x512.size a
  hwx0_0 : ∀ i : grid0.Coords, EltTy.bits .f32 = 32 ∨ (Rect.block (s := S192x512x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S192x512x512.size a
  hwx0_2 : ∀ i : grid0.Coords, EltTy.bits .f32 = 32 ∨ (Rect.block (s := S192x512x512) S8x512x512.size (cc0_transform_2 i) (hinb0_2 i)).WholeWords (EltTy.packing .f32)

variable [Facts₀]

abbrev win0_0 : Pipeline.Window sig grid0 :=
  Pipeline.Window.ofSpec (Memref.whole main_v89) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v88) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v90) S8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S64 : Shape := ⟨1, ![64]⟩
abbrev S63 : Shape := ⟨1, ![63]⟩
abbrev S_ : Shape := ⟨0, ![]⟩
abbrev S1 : Shape := ⟨1, ![1]⟩
abbrev S2 : Shape := ⟨1, ![2]⟩
abbrev S67 : Shape := ⟨1, ![67]⟩
abbrev S66 : Shape := ⟨1, ![66]⟩
abbrev S64x3x512x512x1 : Shape := ⟨5, ![64, 3, 512, 512, 1]⟩

abbrev nBuf : Space → Nat
  | .hbm => 171
  | .vmem => 0
  | .smem => 0
  | _ => 0

abbrev hbmTy0_0 (i : Nat) : BufTy := match i % 128 with
  | 0 => ⟨S64x3x512x512, .f32⟩
  | 1 => ⟨S64, .f32⟩
  | 2 => ⟨S63, .f32⟩
  | 3 => ⟨S63, .f32⟩
  | 4 => ⟨S63, .f32⟩
  | 5 => ⟨S_, .f32⟩
  | 6 => ⟨S63, .f32⟩
  | 7 => ⟨S63, .f32⟩
  | 8 => ⟨S1, .f32⟩
  | 9 => ⟨S_, .f32⟩
  | 10 => ⟨S_, .f32⟩
  | 11 => ⟨S_, .f32⟩
  | 12 => ⟨S1, .f32⟩
  | 13 => ⟨S_, .f32⟩
  | 14 => ⟨S_, .f32⟩
  | 15 => ⟨S_, .f32⟩
  | 16 => ⟨S_, .f32⟩
  | 17 => ⟨S1, .f32⟩
  | 18 => ⟨S_, .f32⟩
  | 19 => ⟨S_, .f32⟩
  | 20 => ⟨S_, .f32⟩
  | 21 => ⟨S1, .f32⟩
  | 22 => ⟨S_, .f32⟩
  | 23 => ⟨S_, .f32⟩
  | 24 => ⟨S1, .f32⟩
  | 25 => ⟨S1, .f32⟩
  | 26 => ⟨S2, .f32⟩
  | 27 => ⟨S1, .f32⟩
  | 28 => ⟨S_, .f32⟩
  | 29 => ⟨S_, .f32⟩
  | 30 => ⟨S_, .f32⟩
  | 31 => ⟨S1, .f32⟩
  | 32 => ⟨S_, .f32⟩
  | 33 => ⟨S_, .f32⟩
  | 34 => ⟨S1, .f32⟩
  | 35 => ⟨S_, .f32⟩
  | 36 => ⟨S_, .f32⟩
  | 37 => ⟨S_, .f32⟩
  | 38 => ⟨S1, .f32⟩
  | 39 => ⟨S_, .f32⟩
  | 40 => ⟨S_, .f32⟩
  | 41 => ⟨S_, .f32⟩
  | 42 => ⟨S_, .f32⟩
  | 43 => ⟨S1, .f32⟩
  | 44 => ⟨S1, .f32⟩
  | 45 => ⟨S2, .f32⟩
  | 46 => ⟨S67, .f32⟩
  | 47 => ⟨S66, .f32⟩
  | 48 => ⟨S66, .f32⟩
  | 49 => ⟨S66, .f32⟩
  | 50 => ⟨S66, .f32⟩
  | 51 => ⟨S64, .f32⟩
  | 52 => ⟨S64, .f32⟩
  | 53 => ⟨S64, .f32⟩
  | 54 => ⟨S_, .f32⟩
  | 55 => ⟨S64, .f32⟩
  | 56 => ⟨S64, .i1⟩
  | 57 => ⟨S_, .f32⟩
  | 58 => ⟨S_, .f32⟩
  | 59 => ⟨S64, .f32⟩
  | 60 => ⟨S64, .f32⟩
  | 61 => ⟨S64, .f32⟩
  | 62 => ⟨S64, .f32⟩
  | 63 => ⟨S_, .f32⟩
  | 64 => ⟨S64, .f32⟩
  | 65 => ⟨S64, .i1⟩
  | 66 => ⟨S64, .f32⟩
  | 67 => ⟨S64, .f32⟩
  | 68 => ⟨S64, .f32⟩
  | 69 => ⟨S64, .f32⟩
  | 70 => ⟨S64, .f32⟩
  | 71 => ⟨S_, .f32⟩
  | 72 => ⟨S64, .f32⟩
  | 73 => ⟨S64, .f32⟩
  | 74 => ⟨S64, .f32⟩
  | 75 => ⟨S_, .f32⟩
  | 76 => ⟨S_, .f32⟩
  | 77 => ⟨S_, .f32⟩
  | 78 => ⟨S64x3x512x512, .f32⟩
  | 79 => ⟨S64x3x512x512, .f32⟩
  | 80 => ⟨S_, .f32⟩
  | 81 => ⟨S64x3x512x512, .f32⟩
  | 82 => ⟨S64x3x512x512, .f32⟩
  | 83 => ⟨S_, .f32⟩
  | 84 => ⟨S64x3x512x512, .f32⟩
  | 85 => ⟨S64x3x512x512, .f32⟩
  | 86 => ⟨S_, .f32⟩
  | 87 => ⟨S64x3x512x512, .f32⟩
  | 88 => ⟨S64x3x512x512, .f32⟩
  | 89 => ⟨S64x3x512x512, .f32⟩
  | 90 => ⟨S64x3x512x512, .i32⟩
  | 91 => ⟨S_, .i32⟩
  | 92 => ⟨S_, .i32⟩
  | 93 => ⟨S_, .i32⟩
  | 94 => ⟨S64x3x512x512, .i32⟩
  | 95 => ⟨S64x3x512x512, .i32⟩
  | 96 => ⟨S_, .i32⟩
  | 97 => ⟨S64x3x512x512, .i32⟩
  | 98 => ⟨S64x3x512x512, .i32⟩
  | 99 => ⟨S64x3x512x512, .f32⟩
  | 100 => ⟨S_, .f32⟩
  | 101 => ⟨S64x3x512x512, .f32⟩
  | 102 => ⟨S64x3x512x512, .f32⟩
  | 103 => ⟨S_, .f32⟩
  | 104 => ⟨S64x3x512x512, .f32⟩
  | 105 => ⟨S64x3x512x512, .f32⟩
  | 106 => ⟨S64x3x512x512, .f32⟩
  | 107 => ⟨S_, .i32⟩
  | 108 => ⟨S64x3x512x512, .i32⟩
  | 109 => ⟨S64x3x512x512, .i1⟩
  | 110 => ⟨S_, .i32⟩
  | 111 => ⟨S64x3x512x512, .i32⟩
  | 112 => ⟨S64x3x512x512, .i32⟩
  | 113 => ⟨S64x3x512x512, .i32⟩
  | 114 => ⟨S64x3x512x512x1, .i32⟩
  | 115 => ⟨S64x3x512x512, .f32⟩
  | 116 => ⟨S_, .i32⟩
  | 117 => ⟨S64x3x512x512, .i32⟩
  | 118 => ⟨S64x3x512x512, .i1⟩
  | 119 => ⟨S_, .i32⟩
  | 120 => ⟨S64x3x512x512, .i32⟩
  | 121 => ⟨S64x3x512x512, .i32⟩
  | 122 => ⟨S64x3x512x512, .i32⟩
  | 123 => ⟨S64x3x512x512x1, .i32⟩
  | 124 => ⟨S64x3x512x512, .f32⟩
  | 125 => ⟨S_, .i32⟩
  | 126 => ⟨S64x3x512x512, .i32⟩
  | 127 => ⟨S64x3x512x512, .i32⟩
  | _ => ⟨S64x3x512x512, .f32⟩

abbrev hbmTy0_1 (i : Nat) : BufTy := match i % 128 with
  | 0 => ⟨S_, .i32⟩
  | 1 => ⟨S64x3x512x512, .i32⟩
  | 2 => ⟨S64x3x512x512, .i1⟩
  | 3 => ⟨S_, .i32⟩
  | 4 => ⟨S64x3x512x512, .i32⟩
  | 5 => ⟨S64x3x512x512, .i32⟩
  | 6 => ⟨S64x3x512x512, .i32⟩
  | 7 => ⟨S64x3x512x512x1, .i32⟩
  | 8 => ⟨S64x3x512x512, .f32⟩
  | 9 => ⟨S_, .i32⟩
  | 10 => ⟨S64x3x512x512, .i32⟩
  | 11 => ⟨S64x3x512x512, .i1⟩
  | 12 => ⟨S_, .i32⟩
  | 13 => ⟨S64x3x512x512, .i32⟩
  | 14 => ⟨S64x3x512x512, .i32⟩
  | 15 => ⟨S64x3x512x512, .i32⟩
  | 16 => ⟨S64x3x512x512x1, .i32⟩
  | 17 => ⟨S64x3x512x512, .f32⟩
  | 18 => ⟨S_, .f32⟩
  | 19 => ⟨S64x3x512x512, .f32⟩
  | 20 => ⟨S64x3x512x512, .f32⟩
  | 21 => ⟨S_, .f32⟩
  | 22 => ⟨S64x3x512x512, .f32⟩
  | 23 => ⟨S64x3x512x512, .f32⟩
  | 24 => ⟨S64x3x512x512, .f32⟩
  | 25 => ⟨S64x3x512x512, .f32⟩
  | 26 => ⟨S_, .f32⟩
  | 27 => ⟨S64x3x512x512, .f32⟩
  | 28 => ⟨S64x3x512x512, .f32⟩
  | 29 => ⟨S64x3x512x512, .f32⟩
  | 30 => ⟨S_, .f32⟩
  | 31 => ⟨S64x3x512x512, .f32⟩
  | 32 => ⟨S64x3x512x512, .f32⟩
  | 33 => ⟨S64x3x512x512, .f32⟩
  | 34 => ⟨S_, .f32⟩
  | 35 => ⟨S64x3x512x512, .f32⟩
  | 36 => ⟨S64x3x512x512, .f32⟩
  | 37 => ⟨S64x3x512x512, .f32⟩
  | 38 => ⟨S64x3x512x512, .f32⟩
  | 39 => ⟨S64x3x512x512, .f32⟩
  | 40 => ⟨S64x3x512x512, .f32⟩
  | 41 => ⟨S64x3x512x512, .f32⟩
  | 42 => ⟨S64x3x512x512, .f32⟩
  | _ => ⟨S64x3x512x512, .f32⟩

abbrev hbmTy (i : Nat) : BufTy := match i / 128 with
  | 0 => hbmTy0_0 i
  | 1 => hbmTy0_1 i
  | _ => ⟨S64x3x512x512, .f32⟩

abbrev bufTy : (tb : Table) → Fin (tcTables nBuf tb) → BufTy
  | .hbm, ⟨i, _⟩ => hbmTy i
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call1_v0 : Ref sig .tc := ⟨.hbm, 47, rfl⟩
abbrev main_call1_v1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_call2_v0 : Ref sig .tc := ⟨.hbm, 58, rfl⟩
abbrev main_call2_v1 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_cst_11 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c : Ref sig .tc := ⟨.hbm, 91, rfl⟩
abbrev main_c_14 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_v63 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_c_18 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_19 : Ref sig .tc := ⟨.hbm, 116, rfl⟩
abbrev main_v77 : Ref sig .tc := ⟨.hbm, 117, rfl⟩
abbrev main_v78 : Ref sig .tc := ⟨.hbm, 118, rfl⟩
abbrev main_c_20 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_21 : Ref sig .tc := ⟨.hbm, 125, rfl⟩
abbrev main_v84 : Ref sig .tc := ⟨.hbm, 126, rfl⟩
abbrev main_v85 : Ref sig .tc := ⟨.hbm, 127, rfl⟩
abbrev main_c_22 : Ref sig .tc := ⟨.hbm, 128, rfl⟩
abbrev main_v86 : Ref sig .tc := ⟨.hbm, 129, rfl⟩
abbrev main_v87 : Ref sig .tc := ⟨.hbm, 130, rfl⟩
abbrev main_c_23 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_24 : Ref sig .tc := ⟨.hbm, 137, rfl⟩
abbrev main_v93 : Ref sig .tc := ⟨.hbm, 138, rfl⟩
abbrev main_v94 : Ref sig .tc := ⟨.hbm, 139, rfl⟩
abbrev main_c_25 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_26 : Ref sig .tc := ⟨.hbm, 146, rfl⟩
abbrev main_v100 : Ref sig .tc := ⟨.hbm, 147, rfl⟩
abbrev main_v101 : Ref sig .tc := ⟨.hbm, 148, rfl⟩
abbrev main_cst_27 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_28 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_29 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_30 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩

abbrev nD : Nat := 1
abbrev τ : Topo := Topo.v7x

variable {F : FTy → Type} [FloatOps F]

class Facts₀ : Prop where
  slices_S64_S63_1 : S64.Slices ![1] S63
  slices_S64_S63_0 : S64.Slices ![0] S63
  bcast_S_S63 : S_.BroadcastsInDim S63 (![] : Fin 0 → Fin S63.rank)
  slices_S63_S1_0 : S63.Slices ![0] S1
  shapeCasts_S1_S_ : S1.ShapeCasts S_
  slices_S63_S1_1 : S63.Slices ![1] S1
  bcast_S_S1 : S_.BroadcastsInDim S1 (![] : Fin 0 → Fin S1.rank)
  concatenates_S1_S1_S2_d0 : Shape.Concatenates [S1, S1] S2 0
  slices_S63_S1_62 : S63.Slices ![62] S1
  slices_S63_S1_61 : S63.Slices ![61] S1
  concatenates_S2_S63_S2_S67_d0 : Shape.Concatenates [S2, S63, S2] S67 0
  slices_S67_S66_1 : S67.Slices ![1] S66
  slices_S67_S66_0 : S67.Slices ![0] S66
  slices_S66_S64_2 : S66.Slices ![2] S64
  slices_S66_S64_0 : S66.Slices ![0] S64
  bcast_S_S64 : S_.BroadcastsInDim S64 (![] : Fin 0 → Fin S64.rank)
  slices_S67_S64_1 : S67.Slices ![1] S64
  slices_S67_S64_2 : S67.Slices ![2] S64
  bcast_S_S64x3x512x512 : S_.BroadcastsInDim S64x3x512x512 (![] : Fin 0 → Fin S64x3x512x512.rank)
  bcast_S64x3x512x512_S64x3x512x512x1_0_1_2_3 : S64x3x512x512.BroadcastsInDim S64x3x512x512x1 (![0, 1, 2, 3] : Fin 4 → Fin S64x3x512x512x1.rank)
  gather_S64_S64x3x512x512x1_S64x3x512x512_n_0_n_n_0_4_1_wf : GatherDims.WF S64 S64x3x512x512x1 S64x3x512x512 [] [0] [] [0] [] 4 ![1]
  gather_S63_S64x3x512x512x1_S64x3x512x512_n_0_n_n_0_4_1_wf : GatherDims.WF S63 S64x3x512x512x1 S64x3x512x512 [] [0] [] [0] [] 4 ![1]

variable [Facts₀]

def gather_S64_S64x3x512x512x1_S64x3x512x512_n_0_n_n_0_4_1 : GatherDims S64 S64x3x512x512x1 S64x3x512x512 where
  offsetDims := []
  collapsedSliceDims := [0]
  operandBatchingDims := []
  startIndicesBatchingDims := []
  startIndexMap := [0]
  indexVectorDim := 4
  sliceSizes := ![1]
  wf := gather_S64_S64x3x512x512x1_S64x3x512x512_n_0_n_n_0_4_1_wf
def gather_S63_S64x3x512x512x1_S64x3x512x512_n_0_n_n_0_4_1 : GatherDims S63 S64x3x512x512x1 S64x3x512x512 where
  offsetDims := []
  collapsedSliceDims := [0]
  operandBatchingDims := []
  startIndicesBatchingDims := []
  startIndexMap := [0]
  indexVectorDim := 4
  sliceSizes := ![1]
  wf := gather_S63_S64x3x512x512x1_S64x3x512x512_n_0_n_n_0_4_1_wf

class Facts : Prop extends Facts₀ where

variable [Facts]
-- ==== Proof.KernelKit.lean ====
/-
  The frame of the program around its one region: the contents of every array when the region is
  entered (the host lines before it, folded), the host line after it, the blocks the windows stage, and the frame
  claim read off a frame run.
-/
import proofs.«161124_j66623532696299_2_alg».proof.Proof.Gen.Kernel.Launch
import proofs.«161124_j66623532696299_2_alg».proof.Proof.Gen.Kernel.Skeleton
import proofs.«161124_j66623532696299_2_alg».proof.Proof.Gen.Kernel.Loops
import proofs.«161124_j66623532696299_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch. -/
abbrev prefixOps : List (List (HloOp τ sig (Elt F))) := [hostOps0, hostOps0_1, hostOps0_2, hostOps0_3, hostOps0_4, hostOps0_5, hostOps0_6, hostOps0_7]

/-- Every TensorCore buffer's contents when the region is entered: the launch contents after the host lines
    before the region. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The references the host lines before the region write. -/
def prefixWrites : List (Ref sig .tc) := [main_call0_v0, main_call0_v1, main_call1_v0, main_call1_v1, main_call2_v0, main_call2_v1,
  main_cst, main_cst_0, main_cst_1, main_cst_2, main_cst_3, main_cst_4, main_cst_5, main_cst_6, main_cst_7, main_cst_8, main_cst_9,
  main_cst_10, main_cst_11, main_cst_12, main_cst_13, main_cst_14, main_cst_15, main_cst_16, main_cst_17, main_cst_18,
  main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89]

theorem prefix_writes : (List.flatten (prefixOps (F := F))).Forall fun op => op.writes ⊆ (prefixWrites.map (Proc.devRef (τ := τ) .tc)).toFinset := by
  simp only [prefixOps, hostOps0, hostOps0_1, hostOps0_2, hostOps0_3, hostOps0_4, hostOps0_5, hostOps0_6, hostOps0_7, List.flatten_cons, List.flatten_nil, List.append_nil, List.cons_append,
    List.nil_append, List.Forall]
  repeat' apply And.intro
  all_goals (first | exact Finset.singleton_subset_iff.mpr (List.mem_toFinset.mpr (List.mem_map.mpr ⟨_, by decide, rfl⟩)))

/-- No host line before the region writes an argument: the region finds both as launched. -/
theorem V_main_arg0 (c : Dev nD) : V m c main_arg0 = m ((c : Thread nD τ).loc main_arg0) :=
  StableHlo.after_of_writes_sub (r := main_arg0) _ _ prefix_writes (by decide)
theorem V_main_arg1 (c : Dev nD) : V m c main_arg1 = m ((c : Thread nD τ).loc main_arg1) :=
  StableHlo.after_of_writes_sub (r := main_arg1) _ _ prefix_writes (by decide)

/-- Nor does the line after it: both arguments end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post, read at the two argument arrays (no window stages either: both bypass the
    region and the line after it), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The staging memrefs at a point -/

/-- One staging buffer of the output window, through which its contents are stated. -/
abbrev VO0_2 : View sig .tc .vmem S8x512x512 .f32 := (Memref.whole cc0_stg2_0 : Memref sig .tc .vmem S8x512x512 .f32).view
/-- Each window's current staging memref at point `t`, as the pipeline passes it, and its wholeness. -/
abbrev ms0_0 (t : Fin cfg0.N) : Memref sig .tc .vmem S8x512x512 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S4x64 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S8x512x512 .f32 := win0_2.stage (cfg0.slots t 2)
abbrev hs0_2 (t : Fin cfg0.N) : (ms0_2 t).IsWhole := Facts₀.hstage0_2 ((cfg0.slots t 2).cast Facts₀.nbuf0_2)

end Cert.Kernel.Hand

end
-- ==== Proof.KernelRun.lean ====
/-
  The kernel body run once on whole staging buffers: the table and the input block are read and left as they
  were; the output buffer ends with the pieces the eight row loops store, sixteen strips of 32 rows each.
-/
import proofs.«161124_j66623532696299_2_alg».proof.Proof.KernelKit

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref (last first), with the proof that on whole
    staging memrefs — the two inputs' at their contents, the output's at anything — the body runs to the
    continuation holding the inputs' as they were and the output's buffer with those pieces written. -/
noncomputable def kernelRun0_A (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (x0 : Vec F S8x512x512 .f32) (x1 : Vec F S4x64 .f32) :
    { L2 : List (View.Piece (Elt F) S8x512x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__akima_kernel i arg1 harg1 arg2 harg2 arg3 harg3) K } := by
  refine ⟨?_, fun E K => ?run⟩
  case run =>
    simp only [cc0__akima_kernel_eq_skeleton]; unfold cc0__akima_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KernelFrame.lean ====
/-
  The frame of the program: what the output's staging buffer holds after the body at each grid point, the
  pipeline's proof data, the body obligation at a generic point, the run of @main and the frame claim's post.
-/
import proofs.«161124_j66623532696299_2_alg».proof.Proof.KernelRun

set_option maxRecDepth 16384

noncomputable section

namespace Cert.Kernel.Hand

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's 128 stores are strips of 32 rows that tile the output block, so they cover it. -/
theorem cover0_A_2 (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (x0 : Vec F S8x512x512 .f32) (x1 : Vec F S4x64 .f32) (y : S8x512x512.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S1x32x512.size (by sl_kernel_rfl) y

/-- What the body leaves in the output's staging buffer: its pieces read back (over anything: they cover it). -/
def out0_A_2 (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (x0 : Vec F S8x512x512 .f32) (x1 : Vec F S4x64 .f32) : Vec F S8x512x512 .f32 :=
  VO0_2.read (Elt F) (VO0_2.writes (Elt F) VO0_2.junk (kernelRun0_A c i arg1 harg1 arg2 harg2 arg3 harg3 x0 x1).1)

/-- The output's staging buffer after the body at point `t`: the run's contents at the point's memrefs and blocks. -/
def outsAt0 (c : Dev nD) (t : Fin cfg0.N) : Vec F S8x512x512 .f32 :=
  out0_A_2 c (grid0.coords t) (ms0_0 t) (hs0_0 t) (ms0_1 t) (hs0_1 t) (ms0_2 t) (hs0_2 t) (iblk m c 0 t) (iblk m c 1 t)

/-! ## The pipeline's proof data -/

/-- The arrays as the region finds them; after the body at point `t` each input's buffer at its block and the
    output's at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the pipeline at what the
    proof data computes and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KernelIdealKit.lean ====
/-
  The frame of the program around its one region: the contents of every array when the region is
  entered (the host lines before it, folded), the host line after it, the blocks the windows stage, and the frame
  claim read off a frame run.
-/
import proofs.«161124_j66623532696299_2_alg».proof.Proof.Gen.KernelIdeal.Launch
import proofs.«161124_j66623532696299_2_alg».proof.Proof.Gen.KernelIdeal.Skeleton
import proofs.«161124_j66623532696299_2_alg».proof.Proof.Gen.KernelIdeal.Loops
import proofs.«161124_j66623532696299_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch. -/
abbrev prefixOps : List (List (HloOp τ sig (Elt F))) := [hostOps0, hostOps0_1, hostOps0_2, hostOps0_3, hostOps0_4, hostOps0_5, hostOps0_6, hostOps0_7]

/-- Every TensorCore buffer's contents when the region is entered: the launch contents after the host lines
    before the region. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The references the host lines before the region write. -/
def prefixWrites : List (Ref sig .tc) := [main_call0_v0, main_call0_v1, main_call1_v0, main_call1_v1, main_call2_v0, main_call2_v1,
  main_cst, main_cst_0, main_cst_1, main_cst_2, main_cst_3, main_cst_4, main_cst_5, main_cst_6, main_cst_7, main_cst_8, main_cst_9,
  main_cst_10, main_cst_11, main_cst_12, main_cst_13, main_cst_14, main_cst_15, main_cst_16, main_cst_17, main_cst_18,
  main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89]

theorem prefix_writes : (List.flatten (prefixOps (F := F))).Forall fun op => op.writes ⊆ (prefixWrites.map (Proc.devRef (τ := τ) .tc)).toFinset := by
  simp only [prefixOps, hostOps0, hostOps0_1, hostOps0_2, hostOps0_3, hostOps0_4, hostOps0_5, hostOps0_6, hostOps0_7, List.flatten_cons, List.flatten_nil, List.append_nil, List.cons_append,
    List.nil_append, List.Forall]
  repeat' apply And.intro
  all_goals (first | exact Finset.singleton_subset_iff.mpr (List.mem_toFinset.mpr (List.mem_map.mpr ⟨_, by decide, rfl⟩)))

/-- No host line before the region writes an argument: the region finds both as launched. -/
theorem V_main_arg0 (c : Dev nD) : V m c main_arg0 = m ((c : Thread nD τ).loc main_arg0) :=
  StableHlo.after_of_writes_sub (r := main_arg0) _ _ prefix_writes (by decide)
theorem V_main_arg1 (c : Dev nD) : V m c main_arg1 = m ((c : Thread nD τ).loc main_arg1) :=
  StableHlo.after_of_writes_sub (r := main_arg1) _ _ prefix_writes (by decide)

/-- Nor does the line after it: both arguments end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the library's frame post, read at the two argument arrays (no window stages either: both bypass the
    region and the line after it), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The staging memrefs at a point -/

/-- One staging buffer of the output window, through which its contents are stated. -/
abbrev VO0_2 : View sig .tc .vmem S8x512x512 .f32 := (Memref.whole cc0_stg2_0 : Memref sig .tc .vmem S8x512x512 .f32).view
/-- Each window's current staging memref at point `t`, as the pipeline passes it, and its wholeness. -/
abbrev ms0_0 (t : Fin cfg0.N) : Memref sig .tc .vmem S8x512x512 .f32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S4x64 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S8x512x512 .f32 := win0_2.stage (cfg0.slots t 2)
abbrev hs0_2 (t : Fin cfg0.N) : (ms0_2 t).IsWhole := Facts₀.hstage0_2 ((cfg0.slots t 2).cast Facts₀.nbuf0_2)

end Cert.KernelIdeal.Hand

end
-- ==== Proof.KernelIdealRun.lean ====
/-
  The kernel body run once on whole staging buffers: the table and the input block are read and left as they
  were; the output buffer ends with the pieces the eight row loops store, sixteen strips of 32 rows each.
-/
import proofs.«161124_j66623532696299_2_alg».proof.Proof.KernelIdealKit

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref (last first), with the proof that on whole
    staging memrefs — the two inputs' at their contents, the output's at anything — the body runs to the
    continuation holding the inputs' as they were and the output's buffer with those pieces written. -/
noncomputable def kernelRun0_A (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (x0 : Vec F S8x512x512 .f32) (x1 : Vec F S4x64 .f32) :
    { L2 : List (View.Piece (Elt F) S8x512x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__akima_kernel i arg1 harg1 arg2 harg2 arg3 harg3) K } := by
  refine ⟨?_, fun E K => ?run⟩
  case run =>
    simp only [cc0__akima_kernel_eq_skeleton]; unfold cc0__akima_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KernelIdealFrame.lean ====
/-
  The frame of the program: what the output's staging buffer holds after the body at each grid point, the
  pipeline's proof data, the body obligation at a generic point, the run of @main and the frame claim's post.
-/
import proofs.«161124_j66623532696299_2_alg».proof.Proof.KernelIdealRun

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's 128 stores are strips of 32 rows that tile the output block, so they cover it. -/
theorem cover0_A_2 (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (x0 : Vec F S8x512x512 .f32) (x1 : Vec F S4x64 .f32) (y : S8x512x512.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S1x32x512.size (by sl_kernel_rfl) y

/-- What the body leaves in the output's staging buffer: its pieces read back (over anything: they cover it). -/
def out0_A_2 (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (x0 : Vec F S8x512x512 .f32) (x1 : Vec F S4x64 .f32) : Vec F S8x512x512 .f32 :=
  VO0_2.read (Elt F) (VO0_2.writes (Elt F) VO0_2.junk (kernelRun0_A c i arg1 harg1 arg2 harg2 arg3 harg3 x0 x1).1)

/-- The output's staging buffer after the body at point `t`: the run's contents at the point's memrefs and blocks. -/
def outsAt0 (c : Dev nD) (t : Fin cfg0.N) : Vec F S8x512x512 .f32 :=
  out0_A_2 c (grid0.coords t) (ms0_0 t) (hs0_0 t) (ms0_1 t) (hs0_1 t) (ms0_2 t) (hs0_2 t) (iblk m c 0 t) (iblk m c 1 t)

/-! ## The pipeline's proof data -/

/-- The arrays as the region finds them; after the body at point `t` each input's buffer at its block and the
    output's at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks, so the run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has each array of the pipeline at what the
    proof data computes and every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.Spec.lean ====
/-
  The Akima spline evaluated at one abscissa, as both programs compute it over the extended reals.

  Nodes are equispaced on [0, 1] with spacing `hh` (the single-precision value nearest 1/63, read as the exact
  binary fraction it is). For an abscissa `x`: clip it to [0, 1]; the segment number is the floor of the clipped
  abscissa over the spacing, kept inside 0 … 62; the local coordinate `loc` is the clipped abscissa minus the
  segment's left node. With node values `v`, node derivatives `t` and segment slopes `mm`, the value is the cubic
  Hermite polynomial  v n + s (t n + s (c2 + s c3)),  c2 = (3 m n − 2 t n − t (n+1)) / h,  c3 = (t n + t (n+1) − 2 m n) / h².
  The literals stay as their binary words: the same word stands on both sides and is never evaluated.
-/
import Idealize.ShloMosaic.PureOps.Ideal
import Idealize.ShloMosaic.PureOps.Ideal.Laws
import Idealize.ShloMosaic.Lib.ValueIdx

noncomputable section

namespace Cert.Akima

open Idealize.ShloMosaic

/-- The float literals of the two programs, at the extended reals. -/
abbrev zero : EReal := Ideal.ofBits .f32 0x00000000#32
abbrev one : EReal := Ideal.ofBits .f32 0x3F800000#32
abbrev two : EReal := Ideal.ofBits .f32 0x40000000#32
abbrev three : EReal := Ideal.ofBits .f32 0x40400000#32
/-- The node spacing and its square, as the programs spell them. -/
abbrev hh : EReal := Ideal.ofBits .f32 0x3C820821#32
abbrev hh2 : EReal := Ideal.ofBits .f32 0x39841883#32

/-- The abscissa clipped to [0, 1]. -/
def xc (x : EReal) : EReal := min one (max zero x)

/-- The floor of the clipped abscissa over the spacing. -/
def quo (x : EReal) : EReal := Ideal.liftRound Int.floor (Ideal.div (xc x - zero) hh)

/-- The segment number as a 32-bit word: the quotient kept inside 0 … 62, then converted. -/
def seg (x : EReal) : BitVec 32 :=
  Ideal.fptosi 32 (min (((62#32 : BitVec 32).toInt : ℝ) : EReal) (max (((0#32 : BitVec 32).toInt : ℝ) : EReal) (quo x)))

/-- The local coordinate inside the segment. -/
def loc (x : EReal) : EReal := xc x - (zero + (((seg x).toInt : ℝ) : EReal) * hh)

/-- The cubic on segment `n` at local coordinate `s`, from the four coefficients. -/
def cubic (s a0 a1 a2 a3 : EReal) : EReal := a0 + s * (a1 + s * (a2 + s * a3))

/-- The quadratic and cubic coefficients of a segment from its slope and its two end derivatives. -/
def coef2 (mn tn tn1 : EReal) : EReal := Ideal.div (three * mn - two * tn - tn1) hh
def coef3 (mn tn tn1 : EReal) : EReal := Ideal.div (tn + tn1 - two * mn) hh2

/-- A vector of `N + 1` entries read at entry `k`, the entry number kept at most `N`. -/
def rd (N : ℕ) (f : (⟨1, ![N + 1]⟩ : Shape).Idx → EReal) (k : ℕ) : EReal := f (ValueIdx.ix1 ⟨min k N, by omega⟩)

/-- THE SPLINE at `x`: with 64 node values `v`, 64 node derivatives `t` and 63 segment slopes `mm`, the cubic of
    segment `n` (the segment number of `x`) at the local coordinate of `x`. -/
def spline (v t : (⟨1, ![64]⟩ : Shape).Idx → EReal) (mm : (⟨1, ![63]⟩ : Shape).Idx → EReal) (x : EReal) : EReal :=
  cubic (loc x) (rd 63 v (seg x).toNat) (rd 63 t (seg x).toNat)
    (coef2 (rd 62 mm (seg x).toNat) (rd 63 t (seg x).toNat) (rd 63 t ((seg x).toNat + 1)))
    (coef3 (rd 62 mm (seg x).toNat) (rd 63 t (seg x).toNat) (rd 63 t ((seg x).toNat + 1)))

end Cert.Akima

end
-- ==== Proof.KernelIdealValue.lean ====
/-
  The kernel's result as one function of its arguments, at the extended reals.
  Each of the eight row loops stores strips of 32 rows; every strip is the SAME element function of the input
  strip it loads and of the 4×64 coefficient table: clip the abscissa, take its segment word, set the word
  beside the column counter to get a 0/1 indicator, contract each table row with the indicator, and evaluate the
  cubic at the local coordinate. So the strips are pieces of one function of the input block; the 128 strips
  tile the block, the 24 blocks tile the array, and the host's regrouping of the axes carries that function over.
-/
import proofs.«161124_j66623532696299_2_alg».proof.Proof.KernelIdealFrame
import proofs.«161124_j66623532696299_2_alg».proof.Proof.Spec
import Idealize.ShloMosaic.Lib.ValueLayout
import Idealize.ShloMosaic.Lib.Pipeline.Value
import Idealize.ShloMosaic.Lib.Pipeline.CanonAppend
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Akima

/-! ## One output element from one input element and the table -/

/-- The 0/1 indicator that table column `p` is the segment of `x`. -/
def oh (x : EReal) (p : Fin 64) : EReal := ((((IntOp.cmpi .eq (seg x) (BitVec.ofNat 32 p.val)).setWidth 32).toInt : ℝ) : EReal)
/-- Row `ρ` of the table contracted with the indicator over the 64 columns. -/
def row (T : S4x64.Idx → EReal) (ρ : Fin 4) (x : EReal) : EReal := ∑ p : Fin 64, oh x p * T (ix2 ρ p)
/-- One output element from one input element and the table: the cubic of the four contracted rows. -/
def elt (T : S4x64.Idx → EReal) (x : EReal) : EReal := cubic (loc x) (row T 0 x) (row T 1 x) (row T 2 x) (row T 3 x)

/-- The column counter along the last axis. -/
abbrev iotaV : IVec S32x512x64 32 := iota .tc S32x512x64 32 [2] iota_S32x512x64_d2_w32

theorem iotaV_apply (r : Fin 32) (col : Fin 512) (p : Fin 64) : iotaV (ix3 r col p) = BitVec.ofNat 32 p.val := by
  show BitVec.ofNat 32 (0 * 64 + p.val) = _
  rw [Nat.zero_mul, Nat.zero_add]

/-! ## The body's arithmetic on one strip of 32 rows, element by element -/

section Strip
variable (L : Vec Ideal S1x32x512 .f32) (T : Vec Ideal S4x64 .f32) (r : Fin 32) (col : Fin 512)

/-- The clipped abscissa. -/
theorem pay10_apply : k0_pay10 L (ix2 r col) = xc (L (ix3 0 r col)) := by
  unfold k0_pay10
  show min _ (max _ (shapeCast S32x512 L _ (ix2 r col))) = _
  rw [shapeCast_1ab_ab_apply]
  rfl

/-- The segment word. -/
theorem pay11_apply : k0_pay11 L (ix2 r col) = seg (L (ix3 0 r col)) := by
  unfold k0_pay11
  show Ideal.fptosi 32 (min _ (max _ (Ideal.liftRound Int.floor (Ideal.div (k0_pay10 L (ix2 r col) - _) _)))) = _
  rw [pay10_apply]; rfl

/-- The local coordinate. -/
theorem pay12_apply : k0_pay12 L (ix2 r col) = loc (L (ix3 0 r col)) := by
  unfold k0_pay12
  show k0_pay10 L (ix2 r col) - (_ + ((((k0_pay11 L (ix2 r col)).toInt : ℝ) : EReal)) * _) = _
  rw [pay10_apply, pay11_apply]; rfl

/-- The indicator: the segment word set beside the column counter. -/
theorem pay13_apply (p : Fin 64) : k0_pay13 iotaV L (ix3 r col p) = oh (L (ix3 0 r col)) p := by
  unfold k0_pay13
  show ((((IntOp.cmpi .eq (broadcastTo S32x512x64 (shapeCast S32x512x1 (k0_pay11 L) shapeCasts_S32x512_S32x512x1) broadcasts_S32x512x1_S32x512x64 (ix3 r col p)) (iotaV (ix3 r col p))).setWidth 32).toInt : ℝ) : EReal) = _
  rw [broadcastTo_apply _ _ (ix3 r col p) (ix3 r col (0 : Fin 1)) (fun a => by
        match a with
        | ⟨0, _⟩ => rfl
        | ⟨1, _⟩ => rfl
        | ⟨2, _⟩ => rfl),
    shapeCast_apply _ _ (ix3 r col (0 : Fin 1)) (ix2 r col) (by
        rw [Shape.rowMajor_val_three, Shape.rowMajor_val_two]
        show r.val * 512 + col.val = (r.val * 512 + col.val) * 1 + 0
        omega),
    pay11_apply, iotaV_apply]
  rfl

/-- A row of the table, laid along the last axis and repeated over the strip. -/
theorem tableRow_apply (ρ : Fin 4) (hs : S4x64.Slices ![ρ.val, 0] S1x64) (p : Fin 64) :
    broadcastTo S32x512x64 (shapeCast S1x1x64 (shapeCast S64 (extractStridedSlice S1x64 ![ρ.val, 0] T hs) shapeCasts_S1x64_S64) shapeCasts_S64_S1x1x64) broadcasts_S1x1x64_S32x512x64 (ix3 r col p)
      = T (ix2 ρ p) := by
  rw [broadcastTo_apply _ _ (ix3 r col p) (ix3 (0 : Fin 1) (0 : Fin 1) p) (fun a => by
        match a with
        | ⟨0, _⟩ => rfl
        | ⟨1, _⟩ => rfl
        | ⟨2, _⟩ => rfl),
    shapeCast_apply _ _ (ix3 (0 : Fin 1) (0 : Fin 1) p) (ix1 p) (by
        rw [Shape.rowMajor_val_three, Shape.rowMajor_val_one]
        show p.val = (0 * 1 + 0) * 64 + p.val
        omega),
    shapeCast_1a_a_apply,
    extractStridedSlice_apply _ _ _ (ix2 (0 : Fin 1) p) (ix2 ρ p) (fun a => by
        match a with
        | ⟨0, _⟩ => show ρ.val = ρ.val + 0; omega
        | ⟨1, _⟩ => show p.val = 0 + p.val; omega)]

end Strip

section Strip2
variable (L : Vec Ideal S1x32x512 .f32) (T : Vec Ideal S4x64 .f32) (r : Fin 32) (col : Fin 512)

/-- One contracted row: the indicator times the row, summed over the 64 columns. -/
theorem rowSum_apply (ρ : Fin 4) (hs : S4x64.Slices ![ρ.val, 0] S1x64) (hφ : FKind.Formats .f32)
    (hacc : (0x00000000#32 : BitVec 32) = FKind.add.neutral .f32 hφ) :
    multiReduction .add [2] S32x512 (mulf (k0_pay13 iotaV L) (broadcastTo S32x512x64 (shapeCast S1x1x64 (shapeCast S64 (extractStridedSlice S1x64 ![ρ.val, 0] T hs) shapeCasts_S1x64_S64) shapeCasts_S64_S1x1x64) broadcasts_S1x1x64_S32x512x64))
      0x00000000#32 reduces_S32x512x64_S32x512 hφ hacc (ix2 r col) = row T ρ (L (ix3 0 r col)) := by
  refine (Ideal.multiReduction_add_single _ 0x00000000#32 reduces_S32x512x64_S32x512 hφ hacc (ix2 r col)).trans ?_
  unfold row
  show ∑ p : Fin 64, _ = _
  refine Finset.sum_congr rfl fun p _ => ?_
  have hl : reduces_S32x512x64_S32x512.lift (ix2 r col) p = ix3 r col p := by
    funext a; apply Fin.ext
    match a with
    | ⟨0, _⟩ => rfl
    | ⟨1, _⟩ => rfl
    | ⟨2, _⟩ => rfl
  rw [hl]
  show k0_pay13 iotaV L (ix3 r col p) * broadcastTo S32x512x64 _ broadcasts_S1x1x64_S32x512x64 (ix3 r col p) = _
  rw [pay13_apply, tableRow_apply]

end Strip2

section Strip3
variable (L : Vec Ideal S1x32x512 .f32) (v0 : Vec Ideal S4x64 .f32) (r : Fin 32) (col : Fin 512)

theorem pay1_eq : k0_pay1 v0 = v0 := by unfold k0_pay1; exact shapeCast_self _ _

theorem pay14_apply : k0_pay14 v0 iotaV L (ix2 r col) = row v0 0 (L (ix3 0 r col)) := by
  unfold k0_pay14
  exact rowSum_apply L v0 r col 0 slices_S4x64_o0_0_S1x64 (.inl rfl) rfl

theorem pay15_apply : k0_pay15 v0 iotaV L (ix2 r col) = row v0 1 (L (ix3 0 r col)) := by
  unfold k0_pay15
  exact rowSum_apply L v0 r col 1 slices_S4x64_o1_0_S1x64 (.inl rfl) rfl

/-- THE STORED STRIP, element by element: the cubic of the four contracted rows at the local coordinate. -/
theorem pay2_apply (u : Fin 1) :
    k0_pay2 v0 (k0_pay12 L) (k0_pay13 iotaV L) (k0_pay14 (k0_pay1 v0) iotaV L) (k0_pay15 (k0_pay1 v0) iotaV L) (k0_pay16 (k0_pay1 v0)) (ix3 u r col)
      = elt v0 (L (ix3 0 r col)) := by
  rw [pay1_eq]
  unfold k0_pay2 k0_pay16
  rw [pay1_eq]
  refine (shapeCast_ab_1ab_apply _ _ u r col).trans ?_
  show k0_pay14 v0 iotaV L (ix2 r col) + k0_pay12 L (ix2 r col) * (k0_pay15 v0 iotaV L (ix2 r col) + k0_pay12 L (ix2 r col) * (multiReduction .add [2] S32x512 _ 0x00000000#32 reduces_S32x512x64_S32x512 (.inl rfl) rfl (ix2 r col) + k0_pay12 L (ix2 r col) * multiReduction .add [2] S32x512 _ 0x00000000#32 reduces_S32x512x64_S32x512 (.inl rfl) rfl (ix2 r col))) = _
  rw [pay14_apply, pay15_apply, pay12_apply]
  have hA := rowSum_apply L v0 r col 2 slices_S4x64_o2_0_S1x64 (.inl rfl) rfl
  have hB := rowSum_apply L v0 r col 3 slices_S4x64_o3_0_S1x64 (.inl rfl) rfl
  unfold elt cubic
  exact congrArg₂ (· + ·) rfl (congrArg₂ (· * ·) rfl (congrArg₂ (· + ·) rfl (congrArg₂ (· * ·) rfl (congrArg₂ (· + ·) hA (congrArg₂ (· * ·) rfl hB)))))

end Strip3

/-! ## The eight row loops store the same arithmetic -/

theorem payS2_eq : k0_pay3 (F := Ideal) = k0_pay2 (F := Ideal) := rfl
theorem payP2_0_eq : k0_pay17 (F := Ideal) = k0_pay10 (F := Ideal) := rfl
theorem payP2_1_eq : k0_pay18 (F := Ideal) = k0_pay11 (F := Ideal) := rfl
theorem payP2_2_eq : k0_pay19 (F := Ideal) = k0_pay12 (F := Ideal) := rfl
theorem payP2_3_eq : k0_pay20 (F := Ideal) = k0_pay13 (F := Ideal) := rfl
theorem payP2_4_eq : k0_pay21 (F := Ideal) = k0_pay14 (F := Ideal) := rfl
theorem payP2_5_eq : k0_pay22 (F := Ideal) = k0_pay15 (F := Ideal) := rfl
theorem payP2_6_eq : k0_pay23 (F := Ideal) = k0_pay16 (F := Ideal) := rfl
theorem payS3_eq : k0_pay4 (F := Ideal) = k0_pay2 (F := Ideal) := rfl
theorem payP3_0_eq : k0_pay24 (F := Ideal) = k0_pay10 (F := Ideal) := rfl
theorem payP3_1_eq : k0_pay25 (F := Ideal) = k0_pay11 (F := Ideal) := rfl
theorem payP3_2_eq : k0_pay26 (F := Ideal) = k0_pay12 (F := Ideal) := rfl
theorem payP3_3_eq : k0_pay27 (F := Ideal) = k0_pay13 (F := Ideal) := rfl
theorem payP3_4_eq : k0_pay28 (F := Ideal) = k0_pay14 (F := Ideal) := rfl
theorem payP3_5_eq : k0_pay29 (F := Ideal) = k0_pay15 (F := Ideal) := rfl
theorem payP3_6_eq : k0_pay30 (F := Ideal) = k0_pay16 (F := Ideal) := rfl
theorem payS4_eq : k0_pay5 (F := Ideal) = k0_pay2 (F := Ideal) := rfl
theorem payP4_0_eq : k0_pay31 (F := Ideal) = k0_pay10 (F := Ideal) := rfl
theorem payP4_1_eq : k0_pay32 (F := Ideal) = k0_pay11 (F := Ideal) := rfl
theorem payP4_2_eq : k0_pay33 (F := Ideal) = k0_pay12 (F := Ideal) := rfl
theorem payP4_3_eq : k0_pay34 (F := Ideal) = k0_pay13 (F := Ideal) := rfl
theorem payP4_4_eq : k0_pay35 (F := Ideal) = k0_pay14 (F := Ideal) := rfl
theorem payP4_5_eq : k0_pay36 (F := Ideal) = k0_pay15 (F := Ideal) := rfl
theorem payP4_6_eq : k0_pay37 (F := Ideal) = k0_pay16 (F := Ideal) := rfl
theorem payS5_eq : k0_pay6 (F := Ideal) = k0_pay2 (F := Ideal) := rfl
theorem payP5_0_eq : k0_pay38 (F := Ideal) = k0_pay10 (F := Ideal) := rfl
theorem payP5_1_eq : k0_pay39 (F := Ideal) = k0_pay11 (F := Ideal) := rfl
theorem payP5_2_eq : k0_pay40 (F := Ideal) = k0_pay12 (F := Ideal) := rfl
theorem payP5_3_eq : k0_pay41 (F := Ideal) = k0_pay13 (F := Ideal) := rfl
theorem payP5_4_eq : k0_pay42 (F := Ideal) = k0_pay14 (F := Ideal) := rfl
theorem payP5_5_eq : k0_pay43 (F := Ideal) = k0_pay15 (F := Ideal) := rfl
theorem payP5_6_eq : k0_pay44 (F := Ideal) = k0_pay16 (F := Ideal) := rfl
theorem payS6_eq : k0_pay7 (F := Ideal) = k0_pay2 (F := Ideal) := rfl
theorem payP6_0_eq : k0_pay45 (F := Ideal) = k0_pay10 (F := Ideal) := rfl
theorem payP6_1_eq : k0_pay46 (F := Ideal) = k0_pay11 (F := Ideal) := rfl
theorem payP6_2_eq : k0_pay47 (F := Ideal) = k0_pay12 (F := Ideal) := rfl
theorem payP6_3_eq : k0_pay48 (F := Ideal) = k0_pay13 (F := Ideal) := rfl
theorem payP6_4_eq : k0_pay49 (F := Ideal) = k0_pay14 (F := Ideal) := rfl
theorem payP6_5_eq : k0_pay50 (F := Ideal) = k0_pay15 (F := Ideal) := rfl
theorem payP6_6_eq : k0_pay51 (F := Ideal) = k0_pay16 (F := Ideal) := rfl
theorem payS7_eq : k0_pay8 (F := Ideal) = k0_pay2 (F := Ideal) := rfl
theorem payP7_0_eq : k0_pay52 (F := Ideal) = k0_pay10 (F := Ideal) := rfl
theorem payP7_1_eq : k0_pay53 (F := Ideal) = k0_pay11 (F := Ideal) := rfl
theorem payP7_2_eq : k0_pay54 (F := Ideal) = k0_pay12 (F := Ideal) := rfl
theorem payP7_3_eq : k0_pay55 (F := Ideal) = k0_pay13 (F := Ideal) := rfl
theorem payP7_4_eq : k0_pay56 (F := Ideal) = k0_pay14 (F := Ideal) := rfl
theorem payP7_5_eq : k0_pay57 (F := Ideal) = k0_pay15 (F := Ideal) := rfl
theorem payP7_6_eq : k0_pay58 (F := Ideal) = k0_pay16 (F := Ideal) := rfl
theorem payS8_eq : k0_pay9 (F := Ideal) = k0_pay2 (F := Ideal) := rfl
theorem payP8_0_eq : k0_pay59 (F := Ideal) = k0_pay10 (F := Ideal) := rfl
theorem payP8_1_eq : k0_pay60 (F := Ideal) = k0_pay11 (F := Ideal) := rfl
theorem payP8_2_eq : k0_pay61 (F := Ideal) = k0_pay12 (F := Ideal) := rfl
theorem payP8_3_eq : k0_pay62 (F := Ideal) = k0_pay13 (F := Ideal) := rfl
theorem payP8_4_eq : k0_pay63 (F := Ideal) = k0_pay14 (F := Ideal) := rfl
theorem payP8_5_eq : k0_pay64 (F := Ideal) = k0_pay15 (F := Ideal) := rfl
theorem payP8_6_eq : k0_pay65 (F := Ideal) = k0_pay16 (F := Ideal) := rfl

/-! ## Every piece the body stores is a strip of ONE element function of the input block -/

/-- Row loop 1: the strip one trip stores is the element function of the input strip it loads. -/
theorem trip1_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) (k : Fin k0_t1_loop.trips) :
    ∀ p ∈ tripL_k0_t1 (F := Ideal) Variants.none c none i arg1 harg1 arg2 harg2 arg3 harg3 v0 iotaV X k,
      ∀ x : p.1.shape.Idx, p.2 x = elt v0 (arg1.view.read (Elt Ideal) X (p.1.emb x)) := by
  intro p hp
  unfold tripL_k0_t1 trip_k0_t1 at hp
  dsimp only at hp
  rw [List.mem_singleton] at hp
  subst hp
  intro x
  obtain ⟨u, r, col, rfl⟩ : ∃ (u : Fin 1) (r : Fin 32) (col : Fin 512), x = ix3 u r col := ⟨x 0, x 1, x 2, eq_ix3 x⟩
  show k0_pay2 v0 (trip_k0_t1.sl.r arg1 X k) (trip_k0_t1.sl.r_1 arg1 iotaV X k) (trip_k0_t1.sl.r_2 arg1 v0 iotaV X k) (trip_k0_t1.sl.r_3 arg1 v0 iotaV X k) (trip_k0_t1.sl.r_4 v0) (ix3 u r col) = _
  unfold trip_k0_t1.sl.r trip_k0_t1.sl.r_1 trip_k0_t1.sl.r_2 trip_k0_t1.sl.r_3 trip_k0_t1.sl.r_4
  refine (pay2_apply _ v0 r col u).trans ?_
  have hu : u = 0 := Subsingleton.elim _ _
  subst hu
  rfl

theorem pb1_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) :
    ∀ (k : ℕ), ∀ p ∈ pb_k0_t1 (F := Ideal) Variants.none c none i arg1 harg1 arg2 harg2 arg3 harg3 v0 iotaV X k,
      ∀ x : p.1.shape.Idx, p.2 x = elt v0 (arg1.view.read (Elt Ideal) X (p.1.emb x))
  | 0 => by
    intro p hp
    rw [pb_k0_t1.eq_1] at hp
    exact absurd hp (List.not_mem_nil)
  | k + 1 => by
    intro p hp
    rw [pb_k0_t1.eq_2] at hp
    unfold pb_k0_t1Step at hp
    split at hp
    · rcases List.mem_append.mp hp with h1 | h2
      · exact trip1_pieces c i arg1 harg1 arg2 harg2 arg3 harg3 v0 X _ p h1
      · exact pb1_pieces c i arg1 harg1 arg2 harg2 arg3 harg3 v0 X k p h2
    · exact pb1_pieces c i arg1 harg1 arg2 harg2 arg3 harg3 v0 X k p hp

/-- Row loop 2: the strip one trip stores is the element function of the input strip it loads. -/
theorem trip2_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) (k : Fin k0_t2_loop.trips) :
    ∀ p ∈ tripL_k0_t2 (F := Ideal) Variants.none c none i arg1 harg1 arg2 harg2 arg3 harg3 v0 iotaV X k,
      ∀ x : p.1.shape.Idx, p.2 x = elt v0 (arg1.view.read (Elt Ideal) X (p.1.emb x)) := by
  intro p hp
  unfold tripL_k0_t2 trip_k0_t2 at hp
  dsimp only at hp
  rw [List.mem_singleton] at hp
  subst hp
  intro x
  obtain ⟨u, r, col, rfl⟩ : ∃ (u : Fin 1) (r : Fin 32) (col : Fin 512), x = ix3 u r col := ⟨x 0, x 1, x 2, eq_ix3 x⟩
  show k0_pay3 v0 (trip_k0_t2.sl.r arg1 X k) (trip_k0_t2.sl.r_1 arg1 iotaV X k) (trip_k0_t2.sl.r_2 arg1 v0 iotaV X k) (trip_k0_t2.sl.r_3 arg1 v0 iotaV X k) (trip_k0_t2.sl.r_4 v0) (ix3 u r col) = _
  unfold trip_k0_t2.sl.r trip_k0_t2.sl.r_1 trip_k0_t2.sl.r_2 trip_k0_t2.sl.r_3 trip_k0_t2.sl.r_4
  rw [payS2_eq, payP2_2_eq, payP2_3_eq, payP2_4_eq, payP2_5_eq, payP2_6_eq]
  refine (pay2_apply _ v0 r col u).trans ?_
  have hu : u = 0 := Subsingleton.elim _ _
  subst hu
  rfl

theorem pb2_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) :
    ∀ (k : ℕ), ∀ p ∈ pb_k0_t2 (F := Ideal) Variants.none c none i arg1 harg1 arg2 harg2 arg3 harg3 v0 iotaV X k,
      ∀ x : p.1.shape.Idx, p.2 x = elt v0 (arg1.view.read (Elt Ideal) X (p.1.emb x))
  | 0 => by
    intro p hp
    rw [pb_k0_t2.eq_1] at hp
    exact absurd hp (List.not_mem_nil)
  | k + 1 => by
    intro p hp
    rw [pb_k0_t2.eq_2] at hp
    unfold pb_k0_t2Step at hp
    split at hp
    · rcases List.mem_append.mp hp with h1 | h2
      · exact trip2_pieces c i arg1 harg1 arg2 harg2 arg3 harg3 v0 X _ p h1
      · exact pb2_pieces c i arg1 harg1 arg2 harg2 arg3 harg3 v0 X k p h2
    · exact pb2_pieces c i arg1 harg1 arg2 harg2 arg3 harg3 v0 X k p hp

/-- Row loop 3: the strip one trip stores is the element function of the input strip it loads. -/
theorem trip3_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) (k : Fin k0_t3_loop.trips) :
    ∀ p ∈ tripL_k0_t3 (F := Ideal) Variants.none c none i arg1 harg1 arg2 harg2 arg3 harg3 v0 iotaV X k,
      ∀ x : p.1.shape.Idx, p.2 x = elt v0 (arg1.view.read (Elt Ideal) X (p.1.emb x)) := by
  intro p hp
  unfold tripL_k0_t3 trip_k0_t3 at hp
  dsimp only at hp
  rw [List.mem_singleton] at hp
  subst hp
  intro x
  obtain ⟨u, r, col, rfl⟩ : ∃ (u : Fin 1) (r : Fin 32) (col : Fin 512), x = ix3 u r col := ⟨x 0, x 1, x 2, eq_ix3 x⟩
  show k0_pay4 v0 (trip_k0_t3.sl.r arg1 X k) (trip_k0_t3.sl.r_1 arg1 iotaV X k) (trip_k0_t3.sl.r_2 arg1 v0 iotaV X k) (trip_k0_t3.sl.r_3 arg1 v0 iotaV X k) (trip_k0_t3.sl.r_4 v0) (ix3 u r col) = _
  unfold trip_k0_t3.sl.r trip_k0_t3.sl.r_1 trip_k0_t3.sl.r_2 trip_k0_t3.sl.r_3 trip_k0_t3.sl.r_4
  rw [payS3_eq, payP3_2_eq, payP3_3_eq, payP3_4_eq, payP3_5_eq, payP3_6_eq]
  refine (pay2_apply _ v0 r col u).trans ?_
  have hu : u = 0 := Subsingleton.elim _ _
  subst hu
  rfl

theorem pb3_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) :
    ∀ (k : ℕ), ∀ p ∈ pb_k0_t3 (F := Ideal) Variants.none c none i arg1 harg1 arg2 harg2 arg3 harg3 v0 iotaV X k,
      ∀ x : p.1.shape.Idx, p.2 x = elt v0 (arg1.view.read (Elt Ideal) X (p.1.emb x))
  | 0 => by
    intro p hp
    rw [pb_k0_t3.eq_1] at hp
    exact absurd hp (List.not_mem_nil)
  | k + 1 => by
    intro p hp
    rw [pb_k0_t3.eq_2] at hp
    unfold pb_k0_t3Step at hp
    split at hp
    · rcases List.mem_append.mp hp with h1 | h2
      · exact trip3_pieces c i arg1 harg1 arg2 harg2 arg3 harg3 v0 X _ p h1
      · exact pb3_pieces c i arg1 harg1 arg2 harg2 arg3 harg3 v0 X k p h2
    · exact pb3_pieces c i arg1 harg1 arg2 harg2 arg3 harg3 v0 X k p hp

/-- Row loop 4: the strip one trip stores is the element function of the input strip it loads. -/
theorem trip4_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) (k : Fin k0_t4_loop.trips) :
    ∀ p ∈ tripL_k0_t4 (F := Ideal) Variants.none c none i arg1 harg1 arg2 harg2 arg3 harg3 v0 iotaV X k,
      ∀ x : p.1.shape.Idx, p.2 x = elt v0 (arg1.view.read (Elt Ideal) X (p.1.emb x)) := by
  intro p hp
  unfold tripL_k0_t4 trip_k0_t4 at hp
  dsimp only at hp
  rw [List.mem_singleton] at hp
  subst hp
  intro x
  obtain ⟨u, r, col, rfl⟩ : ∃ (u : Fin 1) (r : Fin 32) (col : Fin 512), x = ix3 u r col := ⟨x 0, x 1, x 2, eq_ix3 x⟩
  show k0_pay5 v0 (trip_k0_t4.sl.r arg1 X k) (trip_k0_t4.sl.r_1 arg1 iotaV X k) (trip_k0_t4.sl.r_2 arg1 v0 iotaV X k) (trip_k0_t4.sl.r_3 arg1 v0 iotaV X k) (trip_k0_t4.sl.r_4 v0) (ix3 u r col) = _
  unfold trip_k0_t4.sl.r trip_k0_t4.sl.r_1 trip_k0_t4.sl.r_2 trip_k0_t4.sl.r_3 trip_k0_t4.sl.r_4
  rw [payS4_eq, payP4_2_eq, payP4_3_eq, payP4_4_eq, payP4_5_eq, payP4_6_eq]
  refine (pay2_apply _ v0 r col u).trans ?_
  have hu : u = 0 := Subsingleton.elim _ _
  subst hu
  rfl

theorem pb4_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) :
    ∀ (k : ℕ), ∀ p ∈ pb_k0_t4 (F := Ideal) Variants.none c none i arg1 harg1 arg2 harg2 arg3 harg3 v0 iotaV X k,
      ∀ x : p.1.shape.Idx, p.2 x = elt v0 (arg1.view.read (Elt Ideal) X (p.1.emb x))
  | 0 => by
    intro p hp
    rw [pb_k0_t4.eq_1] at hp
    exact absurd hp (List.not_mem_nil)
  | k + 1 => by
    intro p hp
    rw [pb_k0_t4.eq_2] at hp
    unfold pb_k0_t4Step at hp
    split at hp
    · rcases List.mem_append.mp hp with h1 | h2
      · exact trip4_pieces c i arg1 harg1 arg2 harg2 arg3 harg3 v0 X _ p h1
      · exact pb4_pieces c i arg1 harg1 arg2 harg2 arg3 harg3 v0 X k p h2
    · exact pb4_pieces c i arg1 harg1 arg2 harg2 arg3 harg3 v0 X k p hp

/-- Row loop 5: the strip one trip stores is the element function of the input strip it loads. -/
theorem trip5_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) (k : Fin k0_t5_loop.trips) :
    ∀ p ∈ tripL_k0_t5 (F := Ideal) Variants.none c none i arg1 harg1 arg2 harg2 arg3 harg3 v0 iotaV X k,
      ∀ x : p.1.shape.Idx, p.2 x = elt v0 (arg1.view.read (Elt Ideal) X (p.1.emb x)) := by
  intro p hp
  unfold tripL_k0_t5 trip_k0_t5 at hp
  dsimp only at hp
  rw [List.mem_singleton] at hp
  subst hp
  intro x
  obtain ⟨u, r, col, rfl⟩ : ∃ (u : Fin 1) (r : Fin 32) (col : Fin 512), x = ix3 u r col := ⟨x 0, x 1, x 2, eq_ix3 x⟩
  show k0_pay6 v0 (trip_k0_t5.sl.r arg1 X k) (trip_k0_t5.sl.r_1 arg1 iotaV X k) (trip_k0_t5.sl.r_2 arg1 v0 iotaV X k) (trip_k0_t5.sl.r_3 arg1 v0 iotaV X k) (trip_k0_t5.sl.r_4 v0) (ix3 u r col) = _
  unfold trip_k0_t5.sl.r trip_k0_t5.sl.r_1 trip_k0_t5.sl.r_2 trip_k0_t5.sl.r_3 trip_k0_t5.sl.r_4
  rw [payS5_eq, payP5_2_eq, payP5_3_eq, payP5_4_eq, payP5_5_eq, payP5_6_eq]
  refine (pay2_apply _ v0 r col u).trans ?_
  have hu : u = 0 := Subsingleton.elim _ _
  subst hu
  rfl

theorem pb5_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) :
    ∀ (k : ℕ), ∀ p ∈ pb_k0_t5 (F := Ideal) Variants.none c none i arg1 harg1 arg2 harg2 arg3 harg3 v0 iotaV X k,
      ∀ x : p.1.shape.Idx, p.2 x = elt v0 (arg1.view.read (Elt Ideal) X (p.1.emb x))
  | 0 => by
    intro p hp
    rw [pb_k0_t5.eq_1] at hp
    exact absurd hp (List.not_mem_nil)
  | k + 1 => by
    intro p hp
    rw [pb_k0_t5.eq_2] at hp
    unfold pb_k0_t5Step at hp
    split at hp
    · rcases List.mem_append.mp hp with h1 | h2
      · exact trip5_pieces c i arg1 harg1 arg2 harg2 arg3 harg3 v0 X _ p h1
      · exact pb5_pieces c i arg1 harg1 arg2 harg2 arg3 harg3 v0 X k p h2
    · exact pb5_pieces c i arg1 harg1 arg2 harg2 arg3 harg3 v0 X k p hp

/-- Row loop 6: the strip one trip stores is the element function of the input strip it loads. -/
theorem trip6_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) (k : Fin k0_t6_loop.trips) :
    ∀ p ∈ tripL_k0_t6 (F := Ideal) Variants.none c none i arg1 harg1 arg2 harg2 arg3 harg3 v0 iotaV X k,
      ∀ x : p.1.shape.Idx, p.2 x = elt v0 (arg1.view.read (Elt Ideal) X (p.1.emb x)) := by
  intro p hp
  unfold tripL_k0_t6 trip_k0_t6 at hp
  dsimp only at hp
  rw [List.mem_singleton] at hp
  subst hp
  intro x
  obtain ⟨u, r, col, rfl⟩ : ∃ (u : Fin 1) (r : Fin 32) (col : Fin 512), x = ix3 u r col := ⟨x 0, x 1, x 2, eq_ix3 x⟩
  show k0_pay7 v0 (trip_k0_t6.sl.r arg1 X k) (trip_k0_t6.sl.r_1 arg1 iotaV X k) (trip_k0_t6.sl.r_2 arg1 v0 iotaV X k) (trip_k0_t6.sl.r_3 arg1 v0 iotaV X k) (trip_k0_t6.sl.r_4 v0) (ix3 u r col) = _
  unfold trip_k0_t6.sl.r trip_k0_t6.sl.r_1 trip_k0_t6.sl.r_2 trip_k0_t6.sl.r_3 trip_k0_t6.sl.r_4
  rw [payS6_eq, payP6_2_eq, payP6_3_eq, payP6_4_eq, payP6_5_eq, payP6_6_eq]
  refine (pay2_apply _ v0 r col u).trans ?_
  have hu : u = 0 := Subsingleton.elim _ _
  subst hu
  rfl

theorem pb6_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) :
    ∀ (k : ℕ), ∀ p ∈ pb_k0_t6 (F := Ideal) Variants.none c none i arg1 harg1 arg2 harg2 arg3 harg3 v0 iotaV X k,
      ∀ x : p.1.shape.Idx, p.2 x = elt v0 (arg1.view.read (Elt Ideal) X (p.1.emb x))
  | 0 => by
    intro p hp
    rw [pb_k0_t6.eq_1] at hp
    exact absurd hp (List.not_mem_nil)
  | k + 1 => by
    intro p hp
    rw [pb_k0_t6.eq_2] at hp
    unfold pb_k0_t6Step at hp
    split at hp
    · rcases List.mem_append.mp hp with h1 | h2
      · exact trip6_pieces c i arg1 harg1 arg2 harg2 arg3 harg3 v0 X _ p h1
      · exact pb6_pieces c i arg1 harg1 arg2 harg2 arg3 harg3 v0 X k p h2
    · exact pb6_pieces c i arg1 harg1 arg2 harg2 arg3 harg3 v0 X k p hp

/-- Row loop 7: the strip one trip stores is the element function of the input strip it loads. -/
theorem trip7_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) (k : Fin k0_t7_loop.trips) :
    ∀ p ∈ tripL_k0_t7 (F := Ideal) Variants.none c none i arg1 harg1 arg2 harg2 arg3 harg3 v0 iotaV X k,
      ∀ x : p.1.shape.Idx, p.2 x = elt v0 (arg1.view.read (Elt Ideal) X (p.1.emb x)) := by
  intro p hp
  unfold tripL_k0_t7 trip_k0_t7 at hp
  dsimp only at hp
  rw [List.mem_singleton] at hp
  subst hp
  intro x
  obtain ⟨u, r, col, rfl⟩ : ∃ (u : Fin 1) (r : Fin 32) (col : Fin 512), x = ix3 u r col := ⟨x 0, x 1, x 2, eq_ix3 x⟩
  show k0_pay8 v0 (trip_k0_t7.sl.r arg1 X k) (trip_k0_t7.sl.r_1 arg1 iotaV X k) (trip_k0_t7.sl.r_2 arg1 v0 iotaV X k) (trip_k0_t7.sl.r_3 arg1 v0 iotaV X k) (trip_k0_t7.sl.r_4 v0) (ix3 u r col) = _
  unfold trip_k0_t7.sl.r trip_k0_t7.sl.r_1 trip_k0_t7.sl.r_2 trip_k0_t7.sl.r_3 trip_k0_t7.sl.r_4
  rw [payS7_eq, payP7_2_eq, payP7_3_eq, payP7_4_eq, payP7_5_eq, payP7_6_eq]
  refine (pay2_apply _ v0 r col u).trans ?_
  have hu : u = 0 := Subsingleton.elim _ _
  subst hu
  rfl

theorem pb7_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) :
    ∀ (k : ℕ), ∀ p ∈ pb_k0_t7 (F := Ideal) Variants.none c none i arg1 harg1 arg2 harg2 arg3 harg3 v0 iotaV X k,
      ∀ x : p.1.shape.Idx, p.2 x = elt v0 (arg1.view.read (Elt Ideal) X (p.1.emb x))
  | 0 => by
    intro p hp
    rw [pb_k0_t7.eq_1] at hp
    exact absurd hp (List.not_mem_nil)
  | k + 1 => by
    intro p hp
    rw [pb_k0_t7.eq_2] at hp
    unfold pb_k0_t7Step at hp
    split at hp
    · rcases List.mem_append.mp hp with h1 | h2
      · exact trip7_pieces c i arg1 harg1 arg2 harg2 arg3 harg3 v0 X _ p h1
      · exact pb7_pieces c i arg1 harg1 arg2 harg2 arg3 harg3 v0 X k p h2
    · exact pb7_pieces c i arg1 harg1 arg2 harg2 arg3 harg3 v0 X k p hp

/-- Row loop 8: the strip one trip stores is the element function of the input strip it loads. -/
theorem trip8_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) (k : Fin k0_t8_loop.trips) :
    ∀ p ∈ tripL_k0_t8 (F := Ideal) Variants.none c none i arg1 harg1 arg2 harg2 arg3 harg3 v0 iotaV X k,
      ∀ x : p.1.shape.Idx, p.2 x = elt v0 (arg1.view.read (Elt Ideal) X (p.1.emb x)) := by
  intro p hp
  unfold tripL_k0_t8 trip_k0_t8 at hp
  dsimp only at hp
  rw [List.mem_singleton] at hp
  subst hp
  intro x
  obtain ⟨u, r, col, rfl⟩ : ∃ (u : Fin 1) (r : Fin 32) (col : Fin 512), x = ix3 u r col := ⟨x 0, x 1, x 2, eq_ix3 x⟩
  show k0_pay9 v0 (trip_k0_t8.sl.r arg1 X k) (trip_k0_t8.sl.r_1 arg1 iotaV X k) (trip_k0_t8.sl.r_2 arg1 v0 iotaV X k) (trip_k0_t8.sl.r_3 arg1 v0 iotaV X k) (trip_k0_t8.sl.r_4 v0) (ix3 u r col) = _
  unfold trip_k0_t8.sl.r trip_k0_t8.sl.r_1 trip_k0_t8.sl.r_2 trip_k0_t8.sl.r_3 trip_k0_t8.sl.r_4
  rw [payS8_eq, payP8_2_eq, payP8_3_eq, payP8_4_eq, payP8_5_eq, payP8_6_eq]
  refine (pay2_apply _ v0 r col u).trans ?_
  have hu : u = 0 := Subsingleton.elim _ _
  subst hu
  rfl

theorem pb8_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (v0 : Vec Ideal S4x64 .f32) (X : BufTy.Contents (Elt Ideal) arg1.view.ty) :
    ∀ (k : ℕ), ∀ p ∈ pb_k0_t8 (F := Ideal) Variants.none c none i arg1 harg1 arg2 harg2 arg3 harg3 v0 iotaV X k,
      ∀ x : p.1.shape.Idx, p.2 x = elt v0 (arg1.view.read (Elt Ideal) X (p.1.emb x))
  | 0 => by
    intro p hp
    rw [pb_k0_t8.eq_1] at hp
    exact absurd hp (List.not_mem_nil)
  | k + 1 => by
    intro p hp
    rw [pb_k0_t8.eq_2] at hp
    unfold pb_k0_t8Step at hp
    split at hp
    · rcases List.mem_append.mp hp with h1 | h2
      · exact trip8_pieces c i arg1 harg1 arg2 harg2 arg3 harg3 v0 X _ p h1
      · exact pb8_pieces c i arg1 harg1 arg2 harg2 arg3 harg3 v0 X k p h2
    · exact pb8_pieces c i arg1 harg1 arg2 harg2 arg3 harg3 v0 X k p hp

/-! ## The body's pieces, all of them -/

theorem hz2 : (![0, 0] : Fin 2 → Nat) = fun _ => 0 := funext fun a => by fin_cases a <;> rfl

/-- Every piece the body stores is a strip of the element function of the input block and the table. -/
theorem run_pieces (c : Dev nD) (i : grid0.Coords) (arg1 : Memref sig .tc .vmem S8x512x512 .f32) (harg1 : arg1.IsWhole) (arg2 : Memref sig .tc .vmem S4x64 .f32) (harg2 : arg2.IsWhole) (arg3 : Memref sig .tc .vmem S8x512x512 .f32) (harg3 : arg3.IsWhole)
    (x0 : Vec Ideal S8x512x512 .f32) (x1 : Vec Ideal S4x64 .f32) :
    ∀ p ∈ (kernelRun0_A (F := Ideal) c i arg1 harg1 arg2 harg2 arg3 harg3 x0 x1).1,
      ∀ x : p.1.shape.Idx, p.2 x = (fun y => elt x1 (x0 y)) (p.1.emb x) := by
  intro p hp x
  have hv0 : View.readAt (Elt Ideal) arg2.view (Rect.unit (s := S4x64) ![0, 0] S4x64.size inb_S4x64_S4x64_0_0).toLoadRect (harg2.unread x1) = x1 := by
    rw [View.readAt_eq_ld, harg2.read_unread]; exact View.ld_unit_zero hz2 _ _
  have hx0 : arg1.view.read (Elt Ideal) (harg1.unread x0) = x0 := harg1.read_unread x0
  unfold kernelRun0_A at hp
  dsimp only at hp
  simp only [List.mem_append] at hp
  show p.2 x = elt x1 (x0 (p.1.emb x))
  rw [← hv0, ← hx0]
  rcases hp with h | h | h | h | h | h | h | h
  · exact pb8_pieces c i arg1 harg1 arg2 harg2 arg3 harg3 _ _ _ p h x
  · exact pb7_pieces c i arg1 harg1 arg2 harg2 arg3 harg3 _ _ _ p h x
  · exact pb6_pieces c i arg1 harg1 arg2 harg2 arg3 harg3 _ _ _ p h x
  · exact pb5_pieces c i arg1 harg1 arg2 harg2 arg3 harg3 _ _ _ p h x
  · exact pb4_pieces c i arg1 harg1 arg2 harg2 arg3 harg3 _ _ _ p h x
  · exact pb3_pieces c i arg1 harg1 arg2 harg2 arg3 harg3 _ _ _ p h x
  · exact pb2_pieces c i arg1 harg1 arg2 harg2 arg3 harg3 _ _ _ p h x
  · exact pb1_pieces c i arg1 harg1 arg2 harg2 arg3 harg3 _ _ _ p h x

/-! ## From blocks to the array -/

section Arr
variable (m : (ℓ : Loc nD τ sig) → Buf (Elt Ideal) ℓ) (ρ : Dev nD → PrngReg)

/-- The output array after the run: the element function of the staged input array and the table, index by index. -/
def Gout (c : Dev nD) : S192x512x512.Idx → EReal := fun y => elt (V m c main_v88) (V m c main_v89 y)

/-- The printed index maps, decided over the grid: the input and the output move together along the first axis,
    one block per point; the table's one block is the whole table. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The table's block at any point is the whole table as the region finds it. -/
theorem iblk1_eq (c : Dev nD) (t : Fin cfg0.N) : iblk m c 1 t = V m c main_v88 := by
  obtain ⟨_, _, _, e3, e4, _, _, _⟩ := idx_facts t
  funext j
  show V m c main_v88 (((cfg0.win 1).blk t).view.emb j) = V m c main_v88 j
  congr 1
  funext a; apply Fin.ext
  match a with
  | ⟨0, _⟩ => show win0_1.index t (0 : Fin 2) * 4 + 1 * (j 0).val = (j 0).val; omega
  | ⟨1, _⟩ => show win0_1.index t (1 : Fin 2) * 64 + 1 * (j 1).val = (j 1).val; omega

/-- The input's block at a point, read where the output's block sits. -/
theorem iblk0_eq (c : Dev nD) (t : Fin cfg0.N) (j : S8x512x512.Idx) :
    iblk m c 0 t j = V m c main_v89 (((cfg0.win 2).blk t).view.emb j) := by
  obtain ⟨e0, e1, e2, _, _, e5, e6, e7⟩ := idx_facts t
  show V m c main_v89 (((cfg0.win 0).blk t).view.emb j) = _
  congr 1

set_option maxHeartbeats 1000000 in
/-- WHAT POINT `t` WRITES BACK is block `t` of `Gout`. -/
theorem flushed2_eq (c : Dev nD) (t : Fin cfg0.N) :
    (dats m 0 c).flushed 2 t = ((cfg0.win 2).blk t).view.read (Elt Ideal) (Gout m c) := by
  show (cfg0.win 2).cut (grid0.coords t) ((dats m 0 c).after 2 t) = _
  rw [after0_2]
  unfold outsAt0 out0_A_2
  rw [View.read_writes_eq_canon _ _ _ (cover0_A_2 c _ _ _ _ _ _ _ _ _)]
  have hc : View.canon (Val := Elt Ideal) (kernelRun0_A (F := Ideal) c (grid0.coords t) (ms0_0 t) (hs0_0 t) (ms0_1 t) (hs0_1 t) (ms0_2 t) (hs0_2 t) (iblk m c 0 t) (iblk m c 1 t)).1
      = fun y => elt (iblk m c 1 t) (iblk m c 0 t y) :=
    funext fun y => View.canon_apply_of_pieces (fun y => elt (iblk m c 1 t) (iblk m c 0 t y)) _
      (run_pieces c (grid0.coords t) (ms0_0 t) (hs0_0 t) (ms0_1 t) (hs0_1 t) (ms0_2 t) (hs0_2 t) (iblk m c 0 t) (iblk m c 1 t)) y
      (cover0_A_2 c (grid0.coords t) (ms0_0 t) (hs0_0 t) (ms0_1 t) (hs0_1 t) (ms0_2 t) (hs0_2 t) (iblk m c 0 t) (iblk m c 1 t) y)
  rw [hc]
  funext j
  show elt (iblk m c 1 t) (iblk m c 0 t j) = Gout m c (((cfg0.win 2).blk t).view.emb j)
  rw [iblk1_eq, iblk0_eq]
  rfl

/-- An index of the array is in point `t`'s block iff each coordinate is in the block's range on its axis. -/
theorem mem_blk2 (t : Fin cfg0.N) (i : S192x512x512.Idx) :
    i ∈ ((cfg0.win 2).blk t).view.set ↔ ∀ a : Fin 3, win0_2.index t a * S8x512x512.size a ≤ (i a).val ∧ (i a).val < win0_2.index t a * S8x512x512.size a + S8x512x512.size a := by
  show i ∈ ((View.whole main_v90).slice (win0_2.rect t)).set ↔ _
  rw [View.set_slice_whole, Rect.mem_set_unit]
  exact Iff.rfl

/-- The 24 blocks of 8 leading rows fill the array. -/
theorem cover2 (i : S192x512x512.Idx) : ∃ t : Fin cfg0.N, (cfg0.win 2).flush t = true ∧ i ∈ ((cfg0.win 2).blk t).view.set := by
  have hi0 : (i 0).val < 192 := (i 0).isLt
  have hi1 : (i 1).val < 512 := (i 1).isLt
  have hi2 : (i 2).val < 512 := (i 2).isLt
  let t : Fin cfg0.N := ⟨(i 0).val / 8, by show (i 0).val / 8 < 24; omega⟩
  obtain ⟨_, _, _, _, _, e5, e6, e7⟩ := idx_facts t
  refine ⟨t, flush0_2 t, ?_⟩
  rw [mem_blk2]
  intro a
  match a with
  | ⟨0, _⟩ => show win0_2.index t (0 : Fin 3) * 8 ≤ (i 0).val ∧ (i 0).val < win0_2.index t (0 : Fin 3) * 8 + 8; rw [e5]; show (i 0).val / 8 * 8 ≤ _ ∧ _ < (i 0).val / 8 * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- THE OUTPUT ARRAY after the run. -/
theorem final2 (c : Dev nD) : (dats m 0 c).arrAt 2 cfg0.N = Gout m c :=
  (dats m 0 c).arrAt_eq_of_cover 2 (Gout m c) (fun t _ => flushed2_eq m c t) cover2

end Arr

section Tail
variable (m : (ℓ : Loc nD τ sig) → Buf (Elt Ideal) ℓ) (ρ : Dev nD → PrngReg)

/-- The program's result: the output array regrouped back into batch, channel, row, column. -/
theorem tail_v91 (c : Dev nD) :
    Pipeline.afterTail₀ cfgs (dats m) 0 (V0 m) [hostOps1] c main_v91
      = shapeCast S64x3x512x512 (Gout m c) shapeCasts_S192x512x512_S64x3x512x512 := by
  unfold Pipeline.afterTail₀
  show StableHlo.after hostOps1 _ (Proc.devRef .tc main_v91) = _
  after_results
  rw [(Pipeline.withArrays_arr spec0 launch0.win.arr_inj c _ _ 2).trans (final2 m c)]
  rfl

end Tail

end Cert.KernelIdeal.Hand
end
-- ==== Proof.LibSegment.lean ====
/-
  General facts about the segment number of the equispaced spline. For every extended-real abscissa it is a 32-bit word
  between 0 and 62; clamping before or after the conversion to a word agrees; the index normalisation (add the length
  when below zero) leaves it alone; and a sum against the 0/1 indicator of a word picks out one term.
-/
import proofs.«161124_j66623532696299_2_alg».proof.Proof.Spec

noncomputable section

namespace Cert.Akima

open Idealize.ShloMosaic

/-- A value clamped into [0, 62] in the extended reals is a real number between 0 and 62, whatever was clamped:
    the two infinities go to the ends. -/
theorem clamp_real (q : EReal) :
    ∃ r : ℝ, 0 ≤ r ∧ r ≤ 62 ∧ min (((62 : ℝ)) : EReal) (max (((0 : ℝ)) : EReal) q) = (r : EReal) := by
  induction q using EReal.rec with
  | bot => exact ⟨0, le_refl _, by norm_num, by simp⟩
  | top => exact ⟨62, by norm_num, le_refl _, by simp⟩
  | coe r =>
    refine ⟨min 62 (max 0 r), le_min (by norm_num) (le_max_left _ _), min_le_left _ _, ?_⟩
    rw [EReal.coe_strictMono.monotone.map_min, EReal.coe_strictMono.monotone.map_max]

/-- A 32-bit word made from an integer inside the signed range reads back, signed, as that integer. -/
theorem toInt_ofInt_of_range (j : ℤ) (h1 : -2147483648 ≤ j) (h2 : j ≤ 2147483647) : (BitVec.ofInt 32 j).toInt = j := by
  rw [BitVec.toInt_ofInt]
  exact Int.bmod_eq_of_le_mul_two (by norm_num; omega) (by norm_num; omega)

/-- Converting a real number between 0 and 62 to a 32-bit word gives the word of its floor, a natural number at most 62. -/
theorem fptosi_of_mem (r : ℝ) (h0 : 0 ≤ r) (h1 : r ≤ 62) :
    ∃ n : ℕ, n ≤ 62 ∧ Ideal.fptosi 32 (r : EReal) = BitVec.ofNat 32 n := by
  have hf0 : 0 ≤ ⌊r⌋ := Int.floor_nonneg.mpr h0
  have hf1 : ⌊r⌋ ≤ 62 := by
    have : ⌊r⌋ ≤ ⌊(62 : ℝ)⌋ := Int.floor_le_floor h1
    simpa using this
  refine ⟨⌊r⌋.toNat, by omega, ?_⟩
  unfold Ideal.fptosi
  rw [Ideal.toIntClamped_coe, if_pos h0]
  have : max (-((2 ^ (32 - 1) : ℕ) : ℤ)) (min (((2 ^ (32 - 1) : ℕ) : ℤ) - 1) ⌊r⌋) = ((⌊r⌋.toNat : ℕ) : ℤ) := by
    norm_num; omega
  rw [this]
  exact BitVec.ofInt_natCast _ _

/-- The segment number is the word of a natural number at most 62, for every extended-real abscissa: the quotient is
    clamped into [0, 62] before it is converted, so it is never an infinity when converted. -/
theorem seg_eq_ofNat (x : EReal) : ∃ n : ℕ, n ≤ 62 ∧ seg x = BitVec.ofNat 32 n := by
  have e62 : (((62#32 : BitVec 32).toInt : ℝ) : EReal) = ((62 : ℝ) : EReal) := by
    have : (62#32 : BitVec 32).toInt = 62 := by decide
    rw [this]; norm_num
  have e0 : (((0#32 : BitVec 32).toInt : ℝ) : EReal) = ((0 : ℝ) : EReal) := by
    have : (0#32 : BitVec 32).toInt = 0 := by decide
    rw [this]; norm_num
  obtain ⟨r, h0, h1, hr⟩ := clamp_real (quo x)
  unfold seg
  rw [e62, e0, hr]
  exact fptosi_of_mem r h0 h1

/-- The word of a natural number at most 62 reads back, unsigned, as that number. -/
theorem toNat_ofNat_small (n : ℕ) (hn : n ≤ 62) : (BitVec.ofNat 32 n).toNat = n := by
  rw [BitVec.toNat_ofNat]; omega

/-- The word of a natural number at most 62 reads back, signed, as that number. -/
theorem toInt_ofNat_small (n : ℕ) (hn : n ≤ 62) : (BitVec.ofNat 32 n).toInt = (n : ℤ) := by
  rw [BitVec.toInt_eq_toNat_cond, toNat_ofNat_small n hn]
  rw [if_pos (by omega)]

/-- The segment number, read signed, is not negative. -/
theorem seg_toInt_nonneg (x : EReal) : 0 ≤ (seg x).toInt := by
  obtain ⟨n, hn, h⟩ := seg_eq_ofNat x
  rw [h, toInt_ofNat_small n hn]; omega

/-- The segment number, read signed, is at most 62. -/
theorem seg_toInt_le (x : EReal) : (seg x).toInt ≤ 62 := by
  obtain ⟨n, hn, h⟩ := seg_eq_ofNat x
  rw [h, toInt_ofNat_small n hn]; omega

/-- The segment number, read unsigned, is at most 62. -/
theorem seg_toNat_le (x : EReal) : (seg x).toNat ≤ 62 := by
  obtain ⟨n, hn, h⟩ := seg_eq_ofNat x
  rw [h, toNat_ofNat_small n hn]; exact hn

/-- The signed and the unsigned readings of the segment number agree. -/
theorem seg_toInt_eq (x : EReal) : (seg x).toInt = ((seg x).toNat : ℤ) := by
  obtain ⟨n, hn, h⟩ := seg_eq_ofNat x
  rw [h, toInt_ofNat_small n hn, toNat_ofNat_small n hn]

/-- The segment number is not below zero in the signed order. -/
theorem seg_not_neg (x : EReal) : IntOp.cmpi .slt (seg x) (0#32) = 0#1 := by
  have h := seg_toInt_nonneg x
  have h0 : (0#32 : BitVec 32).toInt = 0 := by decide
  simp only [IntOp.cmpi, BitVec.slt, h0]
  rw [decide_eq_false (by omega)]; rfl

/-- The next word after the segment number, read unsigned, is the segment number plus one: no wrap-around. -/
theorem seg_succ_toNat (x : EReal) : (seg x + 1#32).toNat = (seg x).toNat + 1 := by
  have h := seg_toNat_le x
  rw [BitVec.toNat_add]
  have h1 : (1#32 : BitVec 32).toNat = 1 := by decide
  rw [h1]; omega

/-- The next word after the segment number is not below zero in the signed order. -/
theorem seg_succ_not_neg (x : EReal) : IntOp.cmpi .slt (seg x + 1#32) (0#32) = 0#1 := by
  have h := seg_toNat_le x
  have hs := seg_succ_toNat x
  have h0 : (0#32 : BitVec 32).toInt = 0 := by decide
  have hi : 0 ≤ (seg x + 1#32).toInt := by
    rw [BitVec.toInt_eq_toNat_cond, hs, if_pos (by omega)]; omega
  simp only [IntOp.cmpi, BitVec.slt, h0]
  rw [decide_eq_false (by omega)]; rfl

/-- The normalisation of a possibly negative index (add the length when below zero) leaves the segment number alone. -/
theorem norm_seg (x : EReal) (N : BitVec 32) :
    Scalar.select (IntOp.cmpi .slt (seg x) 0#32) (IntOp.addi (seg x) N) (seg x) = seg x := by
  rw [seg_not_neg x]; exact ValueIdx.select_zero _ _

/-- The same normalisation spelled with a conditional. -/
theorem norm_seg_if (x : EReal) (N : BitVec 32) :
    (if IntOp.cmpi .slt (seg x) 0#32 = 1#1 then seg x + N else seg x) = seg x := by
  rw [seg_not_neg x]; exact if_neg (by decide)

/-- The same normalisation of the next word after the segment number. -/
theorem norm_seg_succ (x : EReal) (N : BitVec 32) :
    Scalar.select (IntOp.cmpi .slt (seg x + 1#32) 0#32) (IntOp.addi (seg x + 1#32) N) (seg x + 1#32) = seg x + 1#32 := by
  rw [seg_succ_not_neg x]; exact ValueIdx.select_zero _ _

/-- Converting an integer-valued real to a 32-bit word: the integer, kept inside the signed 32-bit range. -/
theorem fptosi_intCast (k : ℤ) :
    Ideal.fptosi 32 (((k : ℝ)) : EReal) = BitVec.ofInt 32 (max (-2147483648) (min 2147483647 k)) := by
  unfold Ideal.fptosi
  rw [Ideal.toIntClamped_coe, Int.floor_intCast, Int.ceil_intCast, ite_self]
  norm_num

/-- On integers: keeping k inside the signed 32-bit range, making the word, and then clamping the word into [0, 62] in
    the signed order gives the word of k clamped into [0, 62]. -/
theorem clamp_word_of_int (k : ℤ) :
    IntOp.minsi (62#32) (IntOp.maxsi (0#32) (BitVec.ofInt 32 (max (-2147483648) (min 2147483647 k))))
      = BitVec.ofInt 32 (min 62 (max 0 k)) := by
  have hj := toInt_ofInt_of_range (max (-2147483648) (min 2147483647 k)) (le_max_left _ _) (by omega)
  have h0 : (0#32 : BitVec 32).toInt = 0 := by decide
  have h62 : (62#32 : BitVec 32).toInt = 62 := by decide
  by_cases hneg : k < 0
  · have e1 : IntOp.maxsi (0#32) (BitVec.ofInt 32 (max (-2147483648) (min 2147483647 k))) = 0#32 := by
      simp only [IntOp.maxsi, BitVec.slt, hj, h0]
      rw [if_pos (by simp only [decide_eq_true_eq]; omega)]
    have e2 : min 62 (max 0 k) = 0 := by omega
    rw [e1, e2]; decide
  · have e1 : IntOp.maxsi (0#32) (BitVec.ofInt 32 (max (-2147483648) (min 2147483647 k)))
        = BitVec.ofInt 32 (max (-2147483648) (min 2147483647 k)) := by
      simp only [IntOp.maxsi, BitVec.slt, hj, h0]
      rw [if_neg (by simp only [decide_eq_true_eq]; omega)]
    rw [e1]
    by_cases hbig : 62 < k
    · have e2 : min 62 (max 0 k) = 62 := by omega
      rw [e2]
      simp only [IntOp.minsi, BitVec.slt, hj, h62]
      rw [if_pos (by simp only [decide_eq_true_eq]; omega)]; decide
    · have e2 : min 62 (max 0 k) = k := by omega
      have e3 : max (-2147483648) (min 2147483647 k) = k := by omega
      rw [e2]
      simp only [IntOp.minsi, BitVec.slt, hj, h62]
      rw [if_neg (by simp only [decide_eq_true_eq]; omega), e3]

/-- Converting first (truncation toward zero, saturating at the 32-bit ends) and then clamping the signed word into
    [0, 62] is clamping the extended real into [0, 62] and then converting: the segment number. -/
theorem seg_eq_convert_clamp (x : EReal) :
    IntOp.minsi (62#32) (IntOp.maxsi (0#32) (Ideal.fptosi 32 (quo x))) = seg x := by
  have e62 : (((62#32 : BitVec 32).toInt : ℝ) : EReal) = ((62 : ℝ) : EReal) := by
    have : (62#32 : BitVec 32).toInt = 62 := by decide
    rw [this]; norm_num
  have e0 : (((0#32 : BitVec 32).toInt : ℝ) : EReal) = ((0 : ℝ) : EReal) := by
    have : (0#32 : BitVec 32).toInt = 0 := by decide
    rw [this]; norm_num
  unfold seg quo
  rw [e62, e0]
  generalize Ideal.div (xc x - zero) hh = y
  induction y using EReal.rec with
  | bot =>
    rw [Ideal.liftRound_bot, max_eq_left bot_le]
    have : min (((62 : ℝ)) : EReal) (((0 : ℝ)) : EReal) = (((0 : ℤ) : ℝ) : EReal) := by
      rw [min_eq_right (by exact_mod_cast (by norm_num : (0 : ℝ) ≤ 62))]; norm_num
    rw [this, fptosi_intCast]
    unfold Ideal.fptosi
    rw [Ideal.toIntClamped_bot]
    decide
  | top =>
    rw [Ideal.liftRound_top, max_eq_right le_top, min_eq_left le_top]
    have : (((62 : ℝ)) : EReal) = (((62 : ℤ) : ℝ) : EReal) := by norm_num
    rw [this, fptosi_intCast]
    unfold Ideal.fptosi
    rw [Ideal.toIntClamped_top]
    decide
  | coe r =>
    rw [Ideal.liftRound_coe, fptosi_intCast, clamp_word_of_int]
    have : min (((62 : ℝ)) : EReal) (max (((0 : ℝ)) : EReal) (((⌊r⌋ : ℝ)) : EReal))
        = ((((min 62 (max 0 ⌊r⌋) : ℤ)) : ℝ) : EReal) := by
      rw [Int.cast_min, Int.cast_max, EReal.coe_strictMono.monotone.map_min, EReal.coe_strictMono.monotone.map_max]
      norm_num
    rw [this, fptosi_intCast]
    congr 1
    omega

/-- The sum over the 64 positions of the 0/1 indicator of "position p is the word w" (a one-bit comparison widened to
    32 bits, read signed, as a real) times T p is T at w. In the extended reals 0 * a = 0 and 1 * a = a for every a,
    infinite or not, so T may take any values. -/
theorem onehot_sum (w : BitVec 32) (hw : w.toNat < 64) (T : Fin 64 → EReal) :
    ∑ p : Fin 64, ((((IntOp.cmpi .eq w (BitVec.ofNat 32 p.val)).setWidth 32).toInt : ℝ) : EReal) * T p
      = T ⟨w.toNat, hw⟩ := by
  rw [Finset.sum_eq_single (⟨w.toNat, hw⟩ : Fin 64)]
  · have hww : w = BitVec.ofNat 32 w.toNat := by
      apply BitVec.eq_of_toNat_eq
      rw [BitVec.toNat_ofNat]
      omega
    have : IntOp.cmpi .eq w (BitVec.ofNat 32 w.toNat) = 1#1 := by
      simp only [IntOp.cmpi]
      rw [← hww, beq_self_eq_true]; rfl
    rw [this]
    have h1 : (((1#1 : BitVec 1).setWidth 32).toInt : ℝ) = 1 := by
      have : ((1#1 : BitVec 1).setWidth 32).toInt = 1 := by decide
      rw [this]; norm_num
    rw [h1, EReal.coe_one, one_mul]
  · intro p _ hp
    have hne : ¬ (w = BitVec.ofNat 32 p.val) := by
      intro h
      apply hp
      apply Fin.ext
      have := congrArg BitVec.toNat h
      rw [BitVec.toNat_ofNat] at this
      have hp64 := p.isLt
      show p.val = w.toNat
      omega
    have : IntOp.cmpi .eq w (BitVec.ofNat 32 p.val) = 0#1 := by
      simp only [IntOp.cmpi]
      rw [beq_eq_false_iff_ne.mpr hne]; rfl
    rw [this]
    have h0 : (((0#1 : BitVec 1).setWidth 32).toInt : ℝ) = 0 := by
      have : ((0#1 : BitVec 1).setWidth 32).toInt = 0 := by decide
      rw [this]; norm_num
    rw [h0, EReal.coe_zero, zero_mul]
  · intro h; exact absurd (Finset.mem_univ _) h

end Cert.Akima

end
-- ==== Proof.KernelTable.lean ====
/-
  The 4 × 64 coefficient table the host operations before the region build: row 0 the node values, row 1 the node
  derivatives, row 2 and row 3 the quadratic and cubic coefficients of the 63 segments, each row padded with one zero.
  Read at a row and a column below 63, each entry is the spline specification's quantity for that segment.
-/
import proofs.«161124_j66623532696299_2_alg».proof.Proof.KernelIdealKit
import proofs.«161124_j66623532696299_2_alg».proof.Proof.Spec
import proofs.«161124_j66623532696299_2_alg».proof.Proof.LibSegment
import proofs.«161124_j66623532696299_2_alg».proof.Proof.RefReadP
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe
open Idealize.ShloMosaic.Pipeline

/-- A 63-entry vector followed by one zero entry. -/
def padZero (a : FVec Ideal S63 .f32) : FVec Ideal S64 .f32 :=
  concatenate S64 0 [⟨S63, a⟩, ⟨S1, broadcastInDim S1 ![] Gen.bcast_S_S1 (constant (F := Ideal) S_ .f32 0x00000000#32)⟩] Gen.concatenates_S63_S1_S64_d0

/-- The quadratic coefficients of the 63 segments, from the slopes and the node derivatives. -/
def row2 (mm : FVec Ideal S63 .f32) (t : FVec Ideal S64 .f32) : FVec Ideal S63 .f32 :=
  Host.divf
    (subf (subf (mulf (broadcastInDim S63 ![] Gen.bcast_S_S63 (constant (F := Ideal) S_ .f32 0x40400000#32)) mm)
                (mulf (broadcastInDim S63 ![] Gen.bcast_S_S63 (constant (F := Ideal) S_ .f32 0x40000000#32)) (extractStridedSlice S63 ![0] t Gen.slices_S64_S63_0)))
          (extractStridedSlice S63 ![1] t Gen.slices_S64_S63_1))
    (broadcastInDim S63 ![] Gen.bcast_S_S63 (constant (F := Ideal) S_ .f32 0x3C820821#32))

/-- The cubic coefficients of the 63 segments. -/
def row3 (mm : FVec Ideal S63 .f32) (t : FVec Ideal S64 .f32) : FVec Ideal S63 .f32 :=
  Host.divf
    (subf (addf (extractStridedSlice S63 ![0] t Gen.slices_S64_S63_0) (extractStridedSlice S63 ![1] t Gen.slices_S64_S63_1))
          (mulf (broadcastInDim S63 ![] Gen.bcast_S_S63 (constant (F := Ideal) S_ .f32 0x40000000#32)) mm))
    (broadcastInDim S63 ![] Gen.bcast_S_S63 (constant (F := Ideal) S_ .f32 0x39841883#32))

/-- The 4 × 64 coefficient table: node values, node derivatives, quadratic and cubic coefficients, each row the 63
    segments' entries followed by a zero. -/
def tableOf (x1 : FVec Ideal S64 .f32) (mm : FVec Ideal S63 .f32) (t : FVec Ideal S64 .f32) : FVec Ideal S4x64 .f32 :=
  concatenate S4x64 0
    [⟨S1x64, broadcastInDim S1x64 ![1] Gen.bcast_S64_S1x64_1 (padZero (extractStridedSlice S63 ![0] x1 Gen.slices_S64_S63_0))⟩,
     ⟨S1x64, broadcastInDim S1x64 ![1] Gen.bcast_S64_S1x64_1 (padZero (extractStridedSlice S63 ![0] t Gen.slices_S64_S63_0))⟩,
     ⟨S1x64, broadcastInDim S1x64 ![1] Gen.bcast_S64_S1x64_1 (padZero (row2 mm t))⟩,
     ⟨S1x64, broadcastInDim S1x64 ![1] Gen.bcast_S64_S1x64_1 (padZero (row3 mm t))⟩]
    Gen.concatenates_S1x64_S1x64_S1x64_S1x64_S4x64_d0

/-- Row 0 of a stack of four 1 × 64 rows is the first row. -/
theorem stack4_row0 (A B C D : FVec Ideal S1x64 .f32) (n : Fin 64) :
    concatenate S4x64 0 [⟨S1x64, A⟩, ⟨S1x64, B⟩, ⟨S1x64, C⟩, ⟨S1x64, D⟩] Gen.concatenates_S1x64_S1x64_S1x64_S1x64_S4x64_d0
        (ValueIdx.ix2 (0 : Fin 4) n)
      = A (ValueIdx.ix2 (0 : Fin 1) n) :=
  concatenate_apply_piece (α := EReal) (0 : Fin S4x64.rank) [⟨S1x64, A⟩, ⟨S1x64, B⟩, ⟨S1x64, C⟩, ⟨S1x64, D⟩]
    Gen.concatenates_S1x64_S1x64_S1x64_S1x64_S4x64_d0
    (ValueIdx.ix2 (0 : Fin 4) n) 0 (by simp) S1x64 A rfl rfl 0 rfl (ValueIdx.ix2 (0 : Fin 1) n)
    (fun b hb => match b with | ⟨0, _⟩ => absurd rfl hb | ⟨1, _⟩ => rfl) rfl

/-- Row 1 of a stack of four 1 × 64 rows is the second row. -/
theorem stack4_row1 (A B C D : FVec Ideal S1x64 .f32) (n : Fin 64) :
    concatenate S4x64 0 [⟨S1x64, A⟩, ⟨S1x64, B⟩, ⟨S1x64, C⟩, ⟨S1x64, D⟩] Gen.concatenates_S1x64_S1x64_S1x64_S1x64_S4x64_d0
        (ValueIdx.ix2 (1 : Fin 4) n)
      = B (ValueIdx.ix2 (0 : Fin 1) n) :=
  concatenate_apply_piece (α := EReal) (0 : Fin S4x64.rank) [⟨S1x64, A⟩, ⟨S1x64, B⟩, ⟨S1x64, C⟩, ⟨S1x64, D⟩]
    Gen.concatenates_S1x64_S1x64_S1x64_S1x64_S4x64_d0
    (ValueIdx.ix2 (1 : Fin 4) n) 1 (by simp) S1x64 B rfl rfl 1 rfl (ValueIdx.ix2 (0 : Fin 1) n)
    (fun b hb => match b with | ⟨0, _⟩ => absurd rfl hb | ⟨1, _⟩ => rfl) rfl

/-- Row 2 of a stack of four 1 × 64 rows is the third row. -/
theorem stack4_row2 (A B C D : FVec Ideal S1x64 .f32) (n : Fin 64) :
    concatenate S4x64 0 [⟨S1x64, A⟩, ⟨S1x64, B⟩, ⟨S1x64, C⟩, ⟨S1x64, D⟩] Gen.concatenates_S1x64_S1x64_S1x64_S1x64_S4x64_d0
        (ValueIdx.ix2 (2 : Fin 4) n)
      = C (ValueIdx.ix2 (0 : Fin 1) n) :=
  concatenate_apply_piece (α := EReal) (0 : Fin S4x64.rank) [⟨S1x64, A⟩, ⟨S1x64, B⟩, ⟨S1x64, C⟩, ⟨S1x64, D⟩]
    Gen.concatenates_S1x64_S1x64_S1x64_S1x64_S4x64_d0
    (ValueIdx.ix2 (2 : Fin 4) n) 2 (by simp) S1x64 C rfl rfl 2 rfl (ValueIdx.ix2 (0 : Fin 1) n)
    (fun b hb => match b with | ⟨0, _⟩ => absurd rfl hb | ⟨1, _⟩ => rfl) rfl

/-- Row 3 of a stack of four 1 × 64 rows is the fourth row. -/
theorem stack4_row3 (A B C D : FVec Ideal S1x64 .f32) (n : Fin 64) :
    concatenate S4x64 0 [⟨S1x64, A⟩, ⟨S1x64, B⟩, ⟨S1x64, C⟩, ⟨S1x64, D⟩] Gen.concatenates_S1x64_S1x64_S1x64_S1x64_S4x64_d0
        (ValueIdx.ix2 (3 : Fin 4) n)
      = D (ValueIdx.ix2 (0 : Fin 1) n) :=
  concatenate_apply_piece (α := EReal) (0 : Fin S4x64.rank) [⟨S1x64, A⟩, ⟨S1x64, B⟩, ⟨S1x64, C⟩, ⟨S1x64, D⟩]
    Gen.concatenates_S1x64_S1x64_S1x64_S1x64_S4x64_d0
    (ValueIdx.ix2 (3 : Fin 4) n) 3 (by simp) S1x64 D rfl rfl 3 rfl (ValueIdx.ix2 (0 : Fin 1) n)
    (fun b hb => match b with | ⟨0, _⟩ => absurd rfl hb | ⟨1, _⟩ => rfl) rfl

/-- A 64-vector laid out as one 1 × 64 row, read at column n. -/
theorem asRow_apply (v : FVec Ideal S64 .f32) (n : Fin 64) :
    broadcastInDim S1x64 ![1] Gen.bcast_S64_S1x64_1 v (ValueIdx.ix2 (0 : Fin 1) n) = v (ValueIdx.ix1 n) :=
  broadcastInDim_apply ![1] Gen.bcast_S64_S1x64_1 v (ValueIdx.ix2 (0 : Fin 1) n) (ValueIdx.ix1 n)
    (fun a => match a with | ⟨0, _⟩ => rfl)

/-- An entry of the padded vector below 63 is the entry of the 63-vector. -/
theorem padZero_apply (a : FVec Ideal S63 .f32) (n : Fin 64) (hn : n.val ≤ 62) :
    padZero a (ValueIdx.ix1 n) = a (ValueIdx.ix1 ⟨n.val, by omega⟩) := by
  unfold padZero
  exact concatenate_pair_apply_left (0 : Fin S64.rank) a _ Gen.concatenates_S63_S1_S64_d0 (ValueIdx.ix1 n) rfl
    (ValueIdx.ix1 ⟨n.val, by omega⟩) (fun b => match b with | ⟨0, _⟩ => rfl)

/-- Row 0 of the table at column n. -/
theorem tableOf_row0 (x1 : FVec Ideal S64 .f32) (mm : FVec Ideal S63 .f32) (t : FVec Ideal S64 .f32) (n : Fin 64) :
    tableOf x1 mm t (ValueIdx.ix2 (0 : Fin 4) n) = padZero (extractStridedSlice S63 ![0] x1 Gen.slices_S64_S63_0) (ValueIdx.ix1 n) := by
  unfold tableOf
  rw [stack4_row0, asRow_apply]

/-- Row 1 of the table at column n. -/
theorem tableOf_row1 (x1 : FVec Ideal S64 .f32) (mm : FVec Ideal S63 .f32) (t : FVec Ideal S64 .f32) (n : Fin 64) :
    tableOf x1 mm t (ValueIdx.ix2 (1 : Fin 4) n) = padZero (extractStridedSlice S63 ![0] t Gen.slices_S64_S63_0) (ValueIdx.ix1 n) := by
  unfold tableOf
  rw [stack4_row1, asRow_apply]

/-- Row 2 of the table at column n. -/
theorem tableOf_row2 (x1 : FVec Ideal S64 .f32) (mm : FVec Ideal S63 .f32) (t : FVec Ideal S64 .f32) (n : Fin 64) :
    tableOf x1 mm t (ValueIdx.ix2 (2 : Fin 4) n) = padZero (row2 mm t) (ValueIdx.ix1 n) := by
  unfold tableOf
  rw [stack4_row2, asRow_apply]

/-- Row 3 of the table at column n. -/
theorem tableOf_row3 (x1 : FVec Ideal S64 .f32) (mm : FVec Ideal S63 .f32) (t : FVec Ideal S64 .f32) (n : Fin 64) :
    tableOf x1 mm t (ValueIdx.ix2 (3 : Fin 4) n) = padZero (row3 mm t) (ValueIdx.ix1 n) := by
  unfold tableOf
  rw [stack4_row3, asRow_apply]

/-- An entry of the quadratic-coefficient row. -/
theorem row2_apply (mm : FVec Ideal S63 .f32) (t : FVec Ideal S64 .f32) (k : Fin 63) :
    row2 mm t (ValueIdx.ix1 k)
      = Cert.Akima.coef2 (mm (ValueIdx.ix1 k)) (t (ValueIdx.ix1 ⟨k.val, by omega⟩)) (t (ValueIdx.ix1 ⟨k.val + 1, by omega⟩)) := by
  have e0 : extractStridedSlice S63 ![0] t Gen.slices_S64_S63_0 (ValueIdx.ix1 k) = t (ValueIdx.ix1 ⟨k.val, by omega⟩) :=
    extractStridedSlice_apply ![0] t Gen.slices_S64_S63_0 (ValueIdx.ix1 k) (ValueIdx.ix1 ⟨k.val, by omega⟩)
      (fun a => match a with | ⟨0, _⟩ => by show k.val = 0 + k.val; omega)
  have e1 : extractStridedSlice S63 ![1] t Gen.slices_S64_S63_1 (ValueIdx.ix1 k) = t (ValueIdx.ix1 ⟨k.val + 1, by omega⟩) :=
    extractStridedSlice_apply ![1] t Gen.slices_S64_S63_1 (ValueIdx.ix1 k) (ValueIdx.ix1 ⟨k.val + 1, by omega⟩)
      (fun a => match a with | ⟨0, _⟩ => by show k.val + 1 = 1 + k.val; omega)
  show Ideal.div ((Cert.Akima.three * mm (ValueIdx.ix1 k)
      - Cert.Akima.two * extractStridedSlice S63 ![0] t Gen.slices_S64_S63_0 (ValueIdx.ix1 k))
      - extractStridedSlice S63 ![1] t Gen.slices_S64_S63_1 (ValueIdx.ix1 k)) Cert.Akima.hh = _
  rw [e0, e1]
  rfl

/-- An entry of the cubic-coefficient row. -/
theorem row3_apply (mm : FVec Ideal S63 .f32) (t : FVec Ideal S64 .f32) (k : Fin 63) :
    row3 mm t (ValueIdx.ix1 k)
      = Cert.Akima.coef3 (mm (ValueIdx.ix1 k)) (t (ValueIdx.ix1 ⟨k.val, by omega⟩)) (t (ValueIdx.ix1 ⟨k.val + 1, by omega⟩)) := by
  have e0 : extractStridedSlice S63 ![0] t Gen.slices_S64_S63_0 (ValueIdx.ix1 k) = t (ValueIdx.ix1 ⟨k.val, by omega⟩) :=
    extractStridedSlice_apply ![0] t Gen.slices_S64_S63_0 (ValueIdx.ix1 k) (ValueIdx.ix1 ⟨k.val, by omega⟩)
      (fun a => match a with | ⟨0, _⟩ => by show k.val = 0 + k.val; omega)
  have e1 : extractStridedSlice S63 ![1] t Gen.slices_S64_S63_1 (ValueIdx.ix1 k) = t (ValueIdx.ix1 ⟨k.val + 1, by omega⟩) :=
    extractStridedSlice_apply ![1] t Gen.slices_S64_S63_1 (ValueIdx.ix1 k) (ValueIdx.ix1 ⟨k.val + 1, by omega⟩)
      (fun a => match a with | ⟨0, _⟩ => by show k.val + 1 = 1 + k.val; omega)
  show Ideal.div ((extractStridedSlice S63 ![0] t Gen.slices_S64_S63_0 (ValueIdx.ix1 k)
      + extractStridedSlice S63 ![1] t Gen.slices_S64_S63_1 (ValueIdx.ix1 k))
      - Cert.Akima.two * mm (ValueIdx.ix1 k)) Cert.Akima.hh2 = _
  rw [e0, e1]
  rfl

/-- A read of a vector of N + 1 entries at an entry number at most N is the plain read. -/
theorem rd_of_le (N : ℕ) (f : (⟨1, ![N + 1]⟩ : Shape).Idx → EReal) (k : ℕ) (hk : k ≤ N) :
    Cert.Akima.rd N f k = f (ValueIdx.ix1 ⟨k, by omega⟩) := by
  unfold Cert.Akima.rd
  congr 2
  exact Fin.ext (by show min k N = k; omega)

/-- Running two lists of host operations one after the other is running the first, then the second. -/
theorem after_append' {τ' : Topo} {sig' : RefSig} {Val : EltTy → Type}
    (l₁ l₂ : List (HloOp τ' sig' Val)) (W : Valuation τ' sig' Val) :
    StableHlo.after (l₁ ++ l₂) W = StableHlo.after l₂ (StableHlo.after l₁ W) := by
  induction l₁ generalizing W with
  | nil => rfl
  | cons op l ih => simp only [List.cons_append, StableHlo.after_cons, ih]

/-- The host operations before the region: the first seven stretches, then the last. -/
theorem prefixOps_split :
    List.flatten (prefixOps (F := Ideal))
      = List.flatten [hostOps0, hostOps0_1, hostOps0_2, hostOps0_3, hostOps0_4, hostOps0_5, hostOps0_6] ++ hostOps0_7 := by
  simp only [prefixOps, List.flatten_cons, List.flatten_nil, List.append_nil, List.append_assoc]

/-- The table buffer, as the region finds it, is the table of the node values, the slopes and the node derivatives
    the host operations before it computed. -/
theorem V_main_v88_eq (m : (ℓ : Loc nD τ sig) → Buf (Elt Ideal) ℓ) (c : Dev nD) :
    (V m c main_v88 : S4x64.Idx → EReal)
      = tableOf (V m c main_arg1 : S64.Idx → EReal) (V m c main_v2 : S63.Idx → EReal) (V m c main_v55 : S64.Idx → EReal) := by
  dsimp only [V, V0]
  rw [prefixOps_split, after_append']
  generalize StableHlo.after (List.flatten [hostOps0, hostOps0_1, hostOps0_2, hostOps0_3, hostOps0_4, hostOps0_5, hostOps0_6])
    (fun b => m (c, b)) = W
  simp only [hostOps0_7]
  after_results_simp
  rfl

section Rows
variable (m : (ℓ : Loc nD τ sig) → Buf (Elt Ideal) ℓ) (c : Dev nD) (n : Fin 64)

/-- Row 0 of the table, below column 63, holds the node values. -/
theorem table_row0 (hn : n.val ≤ 62) :
    (V m c main_v88 : S4x64.Idx → EReal) (ValueIdx.ix2 (0 : Fin 4) n)
      = Cert.Akima.rd 63 (m ((c : Thread nD τ).loc main_arg1) : S64.Idx → EReal) n.val := by
  rw [V_main_v88_eq, tableOf_row0, padZero_apply _ n hn, V_main_arg1, rd_of_le 63 _ n.val (by omega)]
  exact extractStridedSlice_apply ![0] _ Gen.slices_S64_S63_0 (ValueIdx.ix1 ⟨n.val, by omega⟩) (ValueIdx.ix1 ⟨n.val, by omega⟩)
    (fun a => match a with | ⟨0, _⟩ => by show n.val = 0 + n.val; omega)

/-- Row 1 of the table, below column 63, holds the node derivatives the host computed. -/
theorem table_row1_V (hn : n.val ≤ 62) :
    (V m c main_v88 : S4x64.Idx → EReal) (ValueIdx.ix2 (1 : Fin 4) n)
      = Cert.Akima.rd 63 (V m c main_v55 : S64.Idx → EReal) n.val := by
  rw [V_main_v88_eq, tableOf_row1, padZero_apply _ n hn, rd_of_le 63 _ n.val (by omega)]
  exact extractStridedSlice_apply ![0] _ Gen.slices_S64_S63_0 (ValueIdx.ix1 ⟨n.val, by omega⟩) (ValueIdx.ix1 ⟨n.val, by omega⟩)
    (fun a => match a with | ⟨0, _⟩ => by show n.val = 0 + n.val; omega)

/-- Row 2 of the table, below column 63, holds the quadratic coefficient of the segment from the slopes and node
    derivatives the host computed. -/
theorem table_row2_V (hn : n.val ≤ 62) :
    (V m c main_v88 : S4x64.Idx → EReal) (ValueIdx.ix2 (2 : Fin 4) n)
      = Cert.Akima.coef2 (Cert.Akima.rd 62 (V m c main_v2 : S63.Idx → EReal) n.val)
          (Cert.Akima.rd 63 (V m c main_v55 : S64.Idx → EReal) n.val)
          (Cert.Akima.rd 63 (V m c main_v55 : S64.Idx → EReal) (n.val + 1)) := by
  rw [V_main_v88_eq, tableOf_row2, padZero_apply _ n hn, row2_apply,
    rd_of_le 62 _ n.val hn, rd_of_le 63 _ n.val (by omega), rd_of_le 63 _ (n.val + 1) (by omega)]

/-- Row 3 of the table, below column 63, holds the cubic coefficient of the segment. -/
theorem table_row3_V (hn : n.val ≤ 62) :
    (V m c main_v88 : S4x64.Idx → EReal) (ValueIdx.ix2 (3 : Fin 4) n)
      = Cert.Akima.coef3 (Cert.Akima.rd 62 (V m c main_v2 : S63.Idx → EReal) n.val)
          (Cert.Akima.rd 63 (V m c main_v55 : S64.Idx → EReal) n.val)
          (Cert.Akima.rd 63 (V m c main_v55 : S64.Idx → EReal) (n.val + 1)) := by
  rw [V_main_v88_eq, tableOf_row3, padZero_apply _ n hn, row3_apply,
    rd_of_le 62 _ n.val hn, rd_of_le 63 _ n.val (by omega), rd_of_le 63 _ (n.val + 1) (by omega)]

end Rows

/-- The host operations before the region in three parts: up to the padded slopes, from there to the node derivatives,
    and the table. -/
theorem prefixOps_split3 :
    List.flatten (prefixOps (F := Ideal))
      = (hostOps0 ++ hostOps0_1) ++ ((hostOps0_2 ++ (hostOps0_3 ++ (hostOps0_4 ++ (hostOps0_5 ++ hostOps0_6)))) ++ hostOps0_7) := by
  simp only [prefixOps, List.flatten_cons, List.flatten_nil, List.append_nil, List.append_assoc]

set_option maxHeartbeats 1000000 in
/-- Part one: the slopes are the reference program's slopes of the same node values. -/
theorem part1_v2 (m : (ℓ : Loc nD τ sig) → Buf (Elt Ideal) ℓ) (c : Dev nD) :
    (StableHlo.after ((hostOps0 (F := Ideal)) ++ hostOps0_1) (fun b => m (c, b)) (Proc.devRef .tc main_v2) : S63.Idx → EReal)
      = Cert.ReferenceIdeal.ReadP.val_main_v2 (F := Ideal) (m ((c : Thread nD τ).loc main_arg1)) := by
  simp only [hostOps0, hostOps0_1, List.cons_append, List.nil_append]
  after_results_simp
  rfl

set_option maxHeartbeats 1000000 in
/-- Part one: the slopes padded by two extrapolated slopes at each end are the reference program's. -/
theorem part1_v35 (m : (ℓ : Loc nD τ sig) → Buf (Elt Ideal) ℓ) (c : Dev nD) :
    (StableHlo.after ((hostOps0 (F := Ideal)) ++ hostOps0_1) (fun b => m (c, b)) (Proc.devRef .tc main_v35) : S67.Idx → EReal)
      = Cert.ReferenceIdeal.ReadP.val_main_v35 (F := Ideal) (m ((c : Thread nD τ).loc main_arg1)) := by
  simp only [hostOps0, hostOps0_1, List.cons_append, List.nil_append]
  after_results_simp
  rfl

set_option maxHeartbeats 1000000 in
/-- Part two: from the padded slopes to the node derivatives, the same operations as the reference program's. -/
theorem part2_v55 (W : Valuation τ sig (Elt Ideal)) (x1 : S64.Idx → EReal)
    (h35 : (W (Proc.devRef .tc main_v35) : S67.Idx → EReal) = Cert.ReferenceIdeal.ReadP.val_main_v35 (F := Ideal) x1) :
    (StableHlo.after ((hostOps0_2 (F := Ideal)) ++ (hostOps0_3 ++ (hostOps0_4 ++ (hostOps0_5 ++ hostOps0_6)))) W (Proc.devRef .tc main_v55) : S64.Idx → EReal)
      = Cert.ReferenceIdeal.ReadP.val_main_v55 (F := Ideal) x1 := by
  simp only [hostOps0_2, hostOps0_3, hostOps0_4, hostOps0_5, hostOps0_6, List.cons_append, List.nil_append]
  after_results_simp
  rw [h35]
  rfl

/-- Part two does not write the slopes. -/
theorem part2_keeps_v2 (W : Valuation τ sig (Elt Ideal)) :
    StableHlo.after ((hostOps0_2 (F := Ideal)) ++ (hostOps0_3 ++ (hostOps0_4 ++ (hostOps0_5 ++ hostOps0_6)))) W (Proc.devRef .tc main_v2)
      = W (Proc.devRef .tc main_v2) := by
  simp only [hostOps0_2, hostOps0_3, hostOps0_4, hostOps0_5, hostOps0_6, List.cons_append, List.nil_append]
  after_results_simp

/-- The operations that build the table write neither the slopes … -/
theorem part3_keeps_v2 (W : Valuation τ sig (Elt Ideal)) :
    StableHlo.after (hostOps0_7 (F := Ideal)) W (Proc.devRef .tc main_v2) = W (Proc.devRef .tc main_v2) := by
  simp only [hostOps0_7]
  after_results_simp

/-- … nor the node derivatives. -/
theorem part3_keeps_v55 (W : Valuation τ sig (Elt Ideal)) :
    StableHlo.after (hostOps0_7 (F := Ideal)) W (Proc.devRef .tc main_v55) = W (Proc.devRef .tc main_v55) := by
  simp only [hostOps0_7]
  after_results_simp

/-- The slopes the host operations before the region compute are the reference program's slopes of the same node values. -/
theorem V_main_v2_eq (m : (ℓ : Loc nD τ sig) → Buf (Elt Ideal) ℓ) (c : Dev nD) :
    (V m c main_v2 : S63.Idx → EReal)
      = Cert.ReferenceIdeal.ReadP.val_main_v2 (F := Ideal) (m ((c : Thread nD τ).loc main_arg1)) := by
  dsimp only [V, V0]
  rw [prefixOps_split3, after_append', after_append', part3_keeps_v2, part2_keeps_v2]
  exact part1_v2 m c

/-- The node derivatives the host operations before the region compute are the reference program's node derivatives of
    the same node values. -/
theorem V_main_v55_eq (m : (ℓ : Loc nD τ sig) → Buf (Elt Ideal) ℓ) (c : Dev nD) :
    (V m c main_v55 : S64.Idx → EReal)
      = Cert.ReferenceIdeal.ReadP.val_main_v55 (F := Ideal) (m ((c : Thread nD τ).loc main_arg1)) := by
  dsimp only [V, V0]
  rw [prefixOps_split3, after_append', after_append', part3_keeps_v55]
  exact part2_v55 _ _ (part1_v35 m c)

section FinalRows
variable (m : (ℓ : Loc nD τ sig) → Buf (Elt Ideal) ℓ) (c : Dev nD) (n : Fin 64)

/-- Row 1 of the table, below column 63, holds the reference program's node derivative at that node. -/
theorem table_row1 (hn : n.val ≤ 62) :
    (V m c main_v88 : S4x64.Idx → EReal) (ValueIdx.ix2 (1 : Fin 4) n)
      = Cert.Akima.rd 63 (Cert.ReferenceIdeal.ReadP.val_main_v55 (F := Ideal) (m ((c : Thread nD τ).loc main_arg1))) n.val := by
  rw [table_row1_V m c n hn, V_main_v55_eq]

/-- Row 2 of the table, below column 63, holds the quadratic coefficient of that segment, from the reference program's
    slopes and node derivatives. -/
theorem table_row2 (hn : n.val ≤ 62) :
    (V m c main_v88 : S4x64.Idx → EReal) (ValueIdx.ix2 (2 : Fin 4) n)
      = Cert.Akima.coef2
          (Cert.Akima.rd 62 (Cert.ReferenceIdeal.ReadP.val_main_v2 (F := Ideal) (m ((c : Thread nD τ).loc main_arg1))) n.val)
          (Cert.Akima.rd 63 (Cert.ReferenceIdeal.ReadP.val_main_v55 (F := Ideal) (m ((c : Thread nD τ).loc main_arg1))) n.val)
          (Cert.Akima.rd 63 (Cert.ReferenceIdeal.ReadP.val_main_v55 (F := Ideal) (m ((c : Thread nD τ).loc main_arg1))) (n.val + 1)) := by
  rw [table_row2_V m c n hn, V_main_v55_eq, V_main_v2_eq]

/-- Row 3 of the table, below column 63, holds the cubic coefficient of that segment. -/
theorem table_row3 (hn : n.val ≤ 62) :
    (V m c main_v88 : S4x64.Idx → EReal) (ValueIdx.ix2 (3 : Fin 4) n)
      = Cert.Akima.coef3
          (Cert.Akima.rd 62 (Cert.ReferenceIdeal.ReadP.val_main_v2 (F := Ideal) (m ((c : Thread nD τ).loc main_arg1))) n.val)
          (Cert.Akima.rd 63 (Cert.ReferenceIdeal.ReadP.val_main_v55 (F := Ideal) (m ((c : Thread nD τ).loc main_arg1))) n.val)
          (Cert.Akima.rd 63 (Cert.ReferenceIdeal.ReadP.val_main_v55 (F := Ideal) (m ((c : Thread nD τ).loc main_arg1))) (n.val + 1)) := by
  rw [table_row3_V m c n hn, V_main_v55_eq, V_main_v2_eq]

end FinalRows

end Cert.KernelIdeal.Hand

end
-- ==== Proof.KernelIdealResult.lean ====
/-
  The kernel's result array, element by element, is the spline of the reference: contracting a table row with the
  segment's 0/1 indicator picks the row's entry at the segment number (a product with 0 is 0 and with 1 the entry
  itself, for every extended real, so nothing needs to be finite), and the table's four rows at a segment number
  no larger than 62 are the node value, the node derivative and the two higher coefficients of that segment.
-/
import proofs.«161124_j66623532696299_2_alg».proof.Proof.KernelIdealValue
import proofs.«161124_j66623532696299_2_alg».proof.Proof.LibSegment
import proofs.«161124_j66623532696299_2_alg».proof.Proof.KernelTable

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Akima

variable (m : (ℓ : Loc nD τ sig) → Buf (Elt Ideal) ℓ) (ρ : Dev nD → PrngReg)

/-- A table row contracted with the segment's indicator is the row's entry at the segment number. -/
theorem row_eq (T : S4x64.Idx → EReal) (r : Fin 4) (x : EReal) :
    row T r x = T (ix2 r ⟨(seg x).toNat, Nat.lt_of_le_of_lt (seg_toNat_le x) (by decide)⟩) :=
  onehot_sum (seg x) _ (fun p => T (ix2 r p))

set_option maxHeartbeats 8000000 in
/-- The staged input array is the first argument with batch and channel folded into one axis. -/
theorem V_main_v89 (c : Dev nD) : (V m c main_v89 : S192x512x512.Idx → EReal) = shapeCast S192x512x512 (m ((c : Thread nD τ).loc main_arg0)) shapeCasts_S64x3x512x512_S192x512x512 := by
  dsimp only [V, V0]
  simp only [prefixOps, hostOps0, hostOps0_1, hostOps0_2, hostOps0_3, hostOps0_4, hostOps0_5, hostOps0_6, hostOps0_7, List.flatten_cons, List.flatten_nil, List.append_nil, List.cons_append, List.nil_append]
  after_results_simp
  rfl

/-- One output element from one input element: the reference's spline over the node values, the node derivatives
    and the segment slopes the host computes. -/
theorem elt_spline (c : Dev nD) (x : EReal) :
    elt (V m c main_v88) x
      = spline (m ((c : Thread nD τ).loc main_arg1))
          (Cert.ReferenceIdeal.ReadP.val_main_v55 (F := Ideal) (m ((c : Thread nD τ).loc main_arg1)))
          (Cert.ReferenceIdeal.ReadP.val_main_v2 (F := Ideal) (m ((c : Thread nD τ).loc main_arg1))) x := by
  unfold elt spline
  rw [row_eq, row_eq, row_eq, row_eq,
    table_row0 m c _ (seg_toNat_le x), table_row1 m c _ (seg_toNat_le x), table_row2 m c _ (seg_toNat_le x), table_row3 m c _ (seg_toNat_le x)]

/-- THE KERNEL'S RESULT, element by element. -/
theorem kres_apply (c : Dev nD) (I : S64x3x512x512.Idx) :
    shapeCast S64x3x512x512 (Gout m c) shapeCasts_S192x512x512_S64x3x512x512 I
      = spline (m ((c : Thread nD τ).loc main_arg1))
          (Cert.ReferenceIdeal.ReadP.val_main_v55 (F := Ideal) (m ((c : Thread nD τ).loc main_arg1)))
          (Cert.ReferenceIdeal.ReadP.val_main_v2 (F := Ideal) (m ((c : Thread nD τ).loc main_arg1)))
          (m ((c : Thread nD τ).loc main_arg0) I) := by
  rw [← elt_spline]
  show elt (V m c main_v88) (V m c main_v89 (Shape.reshapeEquiv shapeCasts_S192x512x512_S64x3x512x512 I)) = _
  rw [V_main_v89]
  exact congrArg (elt (V m c main_v88)) (congrFun (shapeCast_shapeCast (m ((c : Thread nD τ).loc main_arg0)) shapeCasts_S64x3x512x512_S192x512x512 shapeCasts_S192x512x512_S64x3x512x512) I)

/-- The kernel's run, read: every weakly fair execution terminates with the result array at the regrouped output
    array and the two arguments unchanged. -/
theorem kernel_run : θ_run defs (onTc (τ := τ) (main (F := Ideal))) ⟨m, fun _ => 0, ρ⟩ (fun r => ∀ c : Dev nD,
      r.2.mem ((c.tc : Thread nD τ).loc main_v91) = shapeCast S64x3x512x512 (Gout m c) shapeCasts_S192x512x512_S64x3x512x512
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v91 (Pipeline.mem_restRefs_of main_v91 (by decide) (by decide))).trans (tail_v91 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.RefRun.lean ====
/-
  The reference's run. Its 169 host operations are run as four stretches, each against the stages of the program read
  one operation at a time: the extended slopes (45 operations), the node derivatives (28), the segment word and the
  local coordinate of every element (32), and the gathers with the cubic (64). After each stretch only a few buffers
  matter — the two arguments, the slopes, then the node derivatives, then the segment words and local coordinates —
  and each is the stage of the same name, so a stretch never re-opens what an earlier one computed.
-/
import proofs.«161124_j66623532696299_2_alg».proof.Defs
import proofs.«161124_j66623532696299_2_alg».proof.Proof.RefReadP
import proofs.«161124_j66623532696299_2_alg».proof.Proof.Gen.Pre_finite_inputs

set_option maxRecDepth 16384

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The operations up to the extended slopes. -/
abbrev w1 : List (HloOp τ sig (Elt F)) :=
  [ TRef.unary (TRef.of (T := ⟨S64, .f32⟩) main_arg1) (TRef.of (T := ⟨S63, .f32⟩) main_call0_v0) (extractStridedSlice S63 ![1] · slices_S64_S63_1),
    TRef.unary (TRef.of (T := ⟨S64, .f32⟩) main_arg1) (TRef.of (T := ⟨S63, .f32⟩) main_call0_v1) (extractStridedSlice S63 ![0] · slices_S64_S63_0),
    TRef.binary (TRef.of (T := ⟨S63, .f32⟩) main_call0_v0) (TRef.of (T := ⟨S63, .f32⟩) main_call0_v1) (TRef.of (T := ⟨S63, .f32⟩) main_v0) subf,
    nullary main_cst (constant S_ .f32 0x3C820821#32),
    unary main_cst main_v1 (broadcastInDim S63 ![] bcast_S_S63 : (⟨S_, .f32⟩ : BufTy).Contents (Elt F) → (⟨S63, .f32⟩ : BufTy).Contents (Elt F)),
    binary main_v0 main_v1 main_v2 (Host.divf : (⟨S63, .f32⟩ : BufTy).Contents (Elt F) → (⟨S63, .f32⟩ : BufTy).Contents (Elt F) → (⟨S63, .f32⟩ : BufTy).Contents (Elt F)),
    unary main_v2 main_v3 ((extractStridedSlice S1 ![0] · slices_S63_S1_0) : (⟨S63, .f32⟩ : BufTy).Contents (Elt F) → (⟨S1, .f32⟩ : BufTy).Contents (Elt F)),
    reshape main_v3 main_v4 rfl shapeCasts_S1_S_,
    nullary main_cst_0 (constant S_ .f32 0x40400000#32),
    binary main_cst_0 main_v4 main_v5 (mulf : (⟨S_, .f32⟩ : BufTy).Contents (Elt F) → (⟨S_, .f32⟩ : BufTy).Contents (Elt F) → (⟨S_, .f32⟩ : BufTy).Contents (Elt F)),
    unary main_v2 main_v6 ((extractStridedSlice S1 ![1] · slices_S63_S1_1) : (⟨S63, .f32⟩ : BufTy).Contents (Elt F) → (⟨S1, .f32⟩ : BufTy).Contents (Elt F)),
    reshape main_v6 main_v7 rfl shapeCasts_S1_S_,
    nullary main_cst_1 (constant S_ .f32 0x40000000#32),
    binary main_cst_1 main_v7 main_v8 (mulf : (⟨S_, .f32⟩ : BufTy).Contents (Elt F) → (⟨S_, .f32⟩ : BufTy).Contents (Elt F) → (⟨S_, .f32⟩ : BufTy).Contents (Elt F)),
    binary main_v5 main_v8 main_v9 (subf : (⟨S_, .f32⟩ : BufTy).Contents (Elt F) → (⟨S_, .f32⟩ : BufTy).Contents (Elt F) → (⟨S_, .f32⟩ : BufTy).Contents (Elt F)),
    unary main_v2 main_v10 ((extractStridedSlice S1 ![0] · slices_S63_S1_0) : (⟨S63, .f32⟩ : BufTy).Contents (Elt F) → (⟨S1, .f32⟩ : BufTy).Contents (Elt F)),
    reshape main_v10 main_v11 rfl shapeCasts_S1_S_,
    nullary main_cst_2 (constant S_ .f32 0x40000000#32),
    binary main_cst_2 main_v11 main_v12 (mulf : (⟨S_, .f32⟩ : BufTy).Contents (Elt F) → (⟨S_, .f32⟩ : BufTy).Contents (Elt F) → (⟨S_, .f32⟩ : BufTy).Contents (Elt F)),
    unary main_v2 main_v13 ((extractStridedSlice S1 ![1] · slices_S63_S1_1) : (⟨S63, .f32⟩ : BufTy).Contents (Elt F) → (⟨S1, .f32⟩ : BufTy).Contents (Elt F)),
    reshape main_v13 main_v14 rfl shapeCasts_S1_S_,
    binary main_v12 main_v14 main_v15 (subf : (⟨S_, .f32⟩ : BufTy).Contents (Elt F) → (⟨S_, .f32⟩ : BufTy).Contents (Elt F) → (⟨S_, .f32⟩ : BufTy).Contents (Elt F)),
    unary main_v9 main_v16 (broadcastInDim S1 ![] bcast_S_S1 : (⟨S_, .f32⟩ : BufTy).Contents (Elt F) → (⟨S1, .f32⟩ : BufTy).Contents (Elt F)),
    unary main_v15 main_v17 (broadcastInDim S1 ![] bcast_S_S1 : (⟨S_, .f32⟩ : BufTy).Contents (Elt F) → (⟨S1, .f32⟩ : BufTy).Contents (Elt F)),
    binary main_v16 main_v17 main_v18 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v2 main_v19 ((extractStridedSlice S1 ![62] · slices_S63_S1_62) : (⟨S63, .f32⟩ : BufTy).Contents (Elt F) → (⟨S1, .f32⟩ : BufTy).Contents (Elt F)),
    reshape main_v19 main_v20 rfl shapeCasts_S1_S_,
    nullary main_cst_3 (constant S_ .f32 0x40000000#32),
    binary main_cst_3 main_v20 main_v21 (mulf : (⟨S_, .f32⟩ : BufTy).Contents (Elt F) → (⟨S_, .f32⟩ : BufTy).Contents (Elt F) → (⟨S_, .f32⟩ : BufTy).Contents (Elt F)),
    unary main_v2 main_v22 ((extractStridedSlice S1 ![61] · slices_S63_S1_61) : (⟨S63, .f32⟩ : BufTy).Contents (Elt F) → (⟨S1, .f32⟩ : BufTy).Contents (Elt F)),
    reshape main_v22 main_v23 rfl shapeCasts_S1_S_,
    binary main_v21 main_v23 main_v24 (subf : (⟨S_, .f32⟩ : BufTy).Contents (Elt F) → (⟨S_, .f32⟩ : BufTy).Contents (Elt F) → (⟨S_, .f32⟩ : BufTy).Contents (Elt F)),
    unary main_v2 main_v25 ((extractStridedSlice S1 ![62] · slices_S63_S1_62) : (⟨S63, .f32⟩ : BufTy).Contents (Elt F) → (⟨S1, .f32⟩ : BufTy).Contents (Elt F)),
    reshape main_v25 main_v26 rfl shapeCasts_S1_S_,
    nullary main_cst_4 (constant S_ .f32 0x40400000#32),
    binary main_cst_4 main_v26 main_v27 (mulf : (⟨S_, .f32⟩ : BufTy).Contents (Elt F) → (⟨S_, .f32⟩ : BufTy).Contents (Elt F) → (⟨S_, .f32⟩ : BufTy).Contents (Elt F)),
    unary main_v2 main_v28 ((extractStridedSlice S1 ![61] · slices_S63_S1_61) : (⟨S63, .f32⟩ : BufTy).Contents (Elt F) → (⟨S1, .f32⟩ : BufTy).Contents (Elt F)),
    reshape main_v28 main_v29 rfl shapeCasts_S1_S_,
    nullary main_cst_5 (constant S_ .f32 0x40000000#32),
    binary main_cst_5 main_v29 main_v30 (mulf : (⟨S_, .f32⟩ : BufTy).Contents (Elt F) → (⟨S_, .f32⟩ : BufTy).Contents (Elt F) → (⟨S_, .f32⟩ : BufTy).Contents (Elt F)),
    binary main_v27 main_v30 main_v31 (subf : (⟨S_, .f32⟩ : BufTy).Contents (Elt F) → (⟨S_, .f32⟩ : BufTy).Contents (Elt F) → (⟨S_, .f32⟩ : BufTy).Contents (Elt F)),
    unary main_v24 main_v32 (broadcastInDim S1 ![] bcast_S_S1 : (⟨S_, .f32⟩ : BufTy).Contents (Elt F) → (⟨S1, .f32⟩ : BufTy).Contents (Elt F)),
    unary main_v31 main_v33 (broadcastInDim S1 ![] bcast_S_S1 : (⟨S_, .f32⟩ : BufTy).Contents (Elt F) → (⟨S1, .f32⟩ : BufTy).Contents (Elt F)),
    binary main_v32 main_v33 main_v34 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    nary ![main_v18, main_v2, main_v34] main_v35 (fun u => concatenate S67 0 [⟨S2, u 0⟩, ⟨S63, u 1⟩, ⟨S2, u 2⟩] concatenates_S2_S63_S2_S67_d0) ]
/-- The operations up to the node derivatives. -/
abbrev w2 : List (HloOp τ sig (Elt F)) :=
  [ TRef.unary (TRef.of (T := ⟨S67, .f32⟩) main_v35) (TRef.of (T := ⟨S66, .f32⟩) main_call1_v0) (extractStridedSlice S66 ![1] · slices_S67_S66_1),
    TRef.unary (TRef.of (T := ⟨S67, .f32⟩) main_v35) (TRef.of (T := ⟨S66, .f32⟩) main_call1_v1) (extractStridedSlice S66 ![0] · slices_S67_S66_0),
    TRef.binary (TRef.of (T := ⟨S66, .f32⟩) main_call1_v0) (TRef.of (T := ⟨S66, .f32⟩) main_call1_v1) (TRef.of (T := ⟨S66, .f32⟩) main_v36) subf,
    unary main_v36 main_v37 (Host.absf : (⟨S66, .f32⟩ : BufTy).Contents (Elt F) → (⟨S66, .f32⟩ : BufTy).Contents (Elt F)),
    unary main_v37 main_v38 ((extractStridedSlice S64 ![2] · slices_S66_S64_2) : (⟨S66, .f32⟩ : BufTy).Contents (Elt F) → (⟨S64, .f32⟩ : BufTy).Contents (Elt F)),
    unary main_v37 main_v39 ((extractStridedSlice S64 ![0] · slices_S66_S64_0) : (⟨S66, .f32⟩ : BufTy).Contents (Elt F) → (⟨S64, .f32⟩ : BufTy).Contents (Elt F)),
    binary main_v38 main_v39 main_v40 (addf : (⟨S64, .f32⟩ : BufTy).Contents (Elt F) → (⟨S64, .f32⟩ : BufTy).Contents (Elt F) → (⟨S64, .f32⟩ : BufTy).Contents (Elt F)),
    nullary main_cst_6 (constant S_ .f32 0x00000000#32),
    unary main_cst_6 main_v41 (broadcastInDim S64 ![] bcast_S_S64 : (⟨S_, .f32⟩ : BufTy).Contents (Elt F) → (⟨S64, .f32⟩ : BufTy).Contents (Elt F)),
    binary main_v40 main_v41 main_v42 (cmpf .ogt : (⟨S64, .f32⟩ : BufTy).Contents (Elt F) → (⟨S64, .f32⟩ : BufTy).Contents (Elt F) → (⟨S64, .i1⟩ : BufTy).Contents (Elt F)),
    nullary main_cst_7 (constant S_ .f32 0x3F800000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S64, .f32⟩) main_call2_v1) (broadcastInDim S64 ![] bcast_S_S64),
    TRef.ternary (TRef.of (T := ⟨S64, .i1⟩) main_v42) (TRef.of (T := ⟨S64, .f32⟩) main_v40) (TRef.of (T := ⟨S64, .f32⟩) main_call2_v1) (TRef.of (T := ⟨S64, .f32⟩) main_v43) select,
    unary main_v35 main_v44 ((extractStridedSlice S64 ![1] · slices_S67_S64_1) : (⟨S67, .f32⟩ : BufTy).Contents (Elt F) → (⟨S64, .f32⟩ : BufTy).Contents (Elt F)),
    unary main_v35 main_v45 ((extractStridedSlice S64 ![2] · slices_S67_S64_2) : (⟨S67, .f32⟩ : BufTy).Contents (Elt F) → (⟨S64, .f32⟩ : BufTy).Contents (Elt F)),
    nullary main_cst_8 (constant S_ .f32 0x00000000#32),
    unary main_cst_8 main_v46 (broadcastInDim S64 ![] bcast_S_S64 : (⟨S_, .f32⟩ : BufTy).Contents (Elt F) → (⟨S64, .f32⟩ : BufTy).Contents (Elt F)),
    binary main_v40 main_v46 main_v47 (cmpf .ogt : (⟨S64, .f32⟩ : BufTy).Contents (Elt F) → (⟨S64, .f32⟩ : BufTy).Contents (Elt F) → (⟨S64, .i1⟩ : BufTy).Contents (Elt F)),
    binary main_v38 main_v44 main_v48 (mulf : (⟨S64, .f32⟩ : BufTy).Contents (Elt F) → (⟨S64, .f32⟩ : BufTy).Contents (Elt F) → (⟨S64, .f32⟩ : BufTy).Contents (Elt F)),
    binary main_v39 main_v45 main_v49 (mulf : (⟨S64, .f32⟩ : BufTy).Contents (Elt F) → (⟨S64, .f32⟩ : BufTy).Contents (Elt F) → (⟨S64, .f32⟩ : BufTy).Contents (Elt F)),
    binary main_v48 main_v49 main_v50 (addf : (⟨S64, .f32⟩ : BufTy).Contents (Elt F) → (⟨S64, .f32⟩ : BufTy).Contents (Elt F) → (⟨S64, .f32⟩ : BufTy).Contents (Elt F)),
    binary main_v50 main_v43 main_v51 (Host.divf : (⟨S64, .f32⟩ : BufTy).Contents (Elt F) → (⟨S64, .f32⟩ : BufTy).Contents (Elt F) → (⟨S64, .f32⟩ : BufTy).Contents (Elt F)),
    binary main_v44 main_v45 main_v52 (addf : (⟨S64, .f32⟩ : BufTy).Contents (Elt F) → (⟨S64, .f32⟩ : BufTy).Contents (Elt F) → (⟨S64, .f32⟩ : BufTy).Contents (Elt F)),
    nullary main_cst_9 (constant S_ .f32 0x3F000000#32),
    unary main_cst_9 main_v53 (broadcastInDim S64 ![] bcast_S_S64 : (⟨S_, .f32⟩ : BufTy).Contents (Elt F) → (⟨S64, .f32⟩ : BufTy).Contents (Elt F)),
    binary main_v53 main_v52 main_v54 (mulf : (⟨S64, .f32⟩ : BufTy).Contents (Elt F) → (⟨S64, .f32⟩ : BufTy).Contents (Elt F) → (⟨S64, .f32⟩ : BufTy).Contents (Elt F)),
    TRef.ternary (TRef.of (T := ⟨S64, .i1⟩) main_v47) (TRef.of (T := ⟨S64, .f32⟩) main_v51) (TRef.of (T := ⟨S64, .f32⟩) main_v54) (TRef.of (T := ⟨S64, .f32⟩) main_v55) select ]
/-- The operations up to the local coordinate. -/
abbrev w3 : List (HloOp τ sig (Elt F)) :=
  [ nullary main_cst_10 (constant S_ .f32 0x00000000#32),
    nullary main_cst_11 (constant S_ .f32 0x3F800000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S64x3x512x512, .f32⟩) main_call4_v1) (broadcastInDim S64x3x512x512 ![] bcast_S_S64x3x512x512),
    TRef.binary (TRef.of (T := ⟨S64x3x512x512, .f32⟩) main_call4_v1) (TRef.of (T := ⟨S64x3x512x512, .f32⟩) main_arg0) (TRef.of (T := ⟨S64x3x512x512, .f32⟩) main_call4_v2) maximumf,
    TRef.unary (TRef.of (T := ⟨S_, .f32⟩) main_cst_11) (TRef.of (T := ⟨S_, .f32⟩) main_call4_v3) id,
    TRef.unary (TRef.of (T := ⟨S_, .f32⟩) main_call4_v3) (TRef.of (T := ⟨S64x3x512x512, .f32⟩) main_call4_v4) (broadcastInDim S64x3x512x512 ![] bcast_S_S64x3x512x512),
    TRef.binary (TRef.of (T := ⟨S64x3x512x512, .f32⟩) main_call4_v4) (TRef.of (T := ⟨S64x3x512x512, .f32⟩) main_call4_v2) (TRef.of (T := ⟨S64x3x512x512, .f32⟩) main_v56) minimumf,
    nullary main_cst_12 (constant S_ .f32 0x00000000#32),
    unary main_cst_12 main_v57 (broadcastInDim S64x3x512x512 ![] bcast_S_S64x3x512x512 : (⟨S_, .f32⟩ : BufTy).Contents (Elt F) → (⟨S64x3x512x512, .f32⟩ : BufTy).Contents (Elt F)),
    binary main_v56 main_v57 main_v58 (subf : (⟨S64x3x512x512, .f32⟩ : BufTy).Contents (Elt F) → (⟨S64x3x512x512, .f32⟩ : BufTy).Contents (Elt F) → (⟨S64x3x512x512, .f32⟩ : BufTy).Contents (Elt F)),
    nullary main_cst_13 (constant S_ .f32 0x3C820821#32),
    unary main_cst_13 main_v59 (broadcastInDim S64x3x512x512 ![] bcast_S_S64x3x512x512 : (⟨S_, .f32⟩ : BufTy).Contents (Elt F) → (⟨S64x3x512x512, .f32⟩ : BufTy).Contents (Elt F)),
    binary main_v58 main_v59 main_v60 (Host.divf : (⟨S64x3x512x512, .f32⟩ : BufTy).Contents (Elt F) → (⟨S64x3x512x512, .f32⟩ : BufTy).Contents (Elt F) → (⟨S64x3x512x512, .f32⟩ : BufTy).Contents (Elt F)),
    unary main_v60 main_v61 (Host.floor : (⟨S64x3x512x512, .f32⟩ : BufTy).Contents (Elt F) → (⟨S64x3x512x512, .f32⟩ : BufTy).Contents (Elt F)),
    unary main_v61 main_v62 (fptosi 32 : (⟨S64x3x512x512, .f32⟩ : BufTy).Contents (Elt F) → (⟨S64x3x512x512, .i32⟩ : BufTy).Contents (Elt F)),
    nullary main_c (constantI S_ 32 0#32),
    nullary main_c_14 (constantI S_ 32 62#32),
    TRef.unary (TRef.of (T := ⟨S_, .i32⟩) main_c) (TRef.of (T := ⟨S_, .i32⟩) main_call5_v0) id,
    TRef.unary (TRef.of (T := ⟨S_, .i32⟩) main_call5_v0) (TRef.of (T := ⟨S64x3x512x512, .i32⟩) main_call5_v1) (broadcastInDim S64x3x512x512 ![] bcast_S_S64x3x512x512),
    TRef.binary (TRef.of (T := ⟨S64x3x512x512, .i32⟩) main_call5_v1) (TRef.of (T := ⟨S64x3x512x512, .i32⟩) main_v62) (TRef.of (T := ⟨S64x3x512x512, .i32⟩) main_call5_v2) maxsi,
    TRef.unary (TRef.of (T := ⟨S_, .i32⟩) main_c_14) (TRef.of (T := ⟨S_, .i32⟩) main_call5_v3) id,
    TRef.unary (TRef.of (T := ⟨S_, .i32⟩) main_call5_v3) (TRef.of (T := ⟨S64x3x512x512, .i32⟩) main_call5_v4) (broadcastInDim S64x3x512x512 ![] bcast_S_S64x3x512x512),
    TRef.binary (TRef.of (T := ⟨S64x3x512x512, .i32⟩) main_call5_v4) (TRef.of (T := ⟨S64x3x512x512, .i32⟩) main_call5_v2) (TRef.of (T := ⟨S64x3x512x512, .i32⟩) main_v63) minsi,
    unary main_v63 main_v64 (sitofp .f32 : (⟨S64x3x512x512, .i32⟩ : BufTy).Contents (Elt F) → (⟨S64x3x512x512, .f32⟩ : BufTy).Contents (Elt F)),
    nullary main_cst_15 (constant S_ .f32 0x3C820821#32),
    unary main_cst_15 main_v65 (broadcastInDim S64x3x512x512 ![] bcast_S_S64x3x512x512 : (⟨S_, .f32⟩ : BufTy).Contents (Elt F) → (⟨S64x3x512x512, .f32⟩ : BufTy).Contents (Elt F)),
    binary main_v64 main_v65 main_v66 (mulf : (⟨S64x3x512x512, .f32⟩ : BufTy).Contents (Elt F) → (⟨S64x3x512x512, .f32⟩ : BufTy).Contents (Elt F) → (⟨S64x3x512x512, .f32⟩ : BufTy).Contents (Elt F)),
    nullary main_cst_16 (constant S_ .f32 0x00000000#32),
    unary main_cst_16 main_v67 (broadcastInDim S64x3x512x512 ![] bcast_S_S64x3x512x512 : (⟨S_, .f32⟩ : BufTy).Contents (Elt F) → (⟨S64x3x512x512, .f32⟩ : BufTy).Contents (Elt F)),
    binary main_v67 main_v66 main_v68 (addf : (⟨S64x3x512x512, .f32⟩ : BufTy).Contents (Elt F) → (⟨S64x3x512x512, .f32⟩ : BufTy).Contents (Elt F) → (⟨S64x3x512x512, .f32⟩ : BufTy).Contents (Elt F)),
    binary main_v56 main_v68 main_v69 (subf : (⟨S64x3x512x512, .f32⟩ : BufTy).Contents (Elt F) → (⟨S64x3x512x512, .f32⟩ : BufTy).Contents (Elt F) → (⟨S64x3x512x512, .f32⟩ : BufTy).Contents (Elt F)) ]
/-- The gathers and the cubic. -/
abbrev w4 : List (HloOp τ sig (Elt F)) :=
  [ nullary main_c_17 (constantI S_ 32 0#32),
    unary main_c_17 main_v70 (broadcastInDim S64x3x512x512 ![] bcast_S_S64x3x512x512 : (⟨S_, .i32⟩ : BufTy).Contents (Elt F) → (⟨S64x3x512x512, .i32⟩ : BufTy).Contents (Elt F)),
    binary main_v63 main_v70 main_v71 (cmpi .slt : (⟨S64x3x512x512, .i32⟩ : BufTy).Contents (Elt F) → (⟨S64x3x512x512, .i32⟩ : BufTy).Contents (Elt F) → (⟨S64x3x512x512, .i1⟩ : BufTy).Contents (Elt F)),
    nullary main_c_18 (constantI S_ 32 64#32),
    unary main_c_18 main_v72 (broadcastInDim S64x3x512x512 ![] bcast_S_S64x3x512x512 : (⟨S_, .i32⟩ : BufTy).Contents (Elt F) → (⟨S64x3x512x512, .i32⟩ : BufTy).Contents (Elt F)),
    binary main_v63 main_v72 main_v73 (addi : (⟨S64x3x512x512, .i32⟩ : BufTy).Contents (Elt F) → (⟨S64x3x512x512, .i32⟩ : BufTy).Contents (Elt F) → (⟨S64x3x512x512, .i32⟩ : BufTy).Contents (Elt F)),
    ternary main_v71 main_v73 main_v63 main_v74 (select : (⟨S64x3x512x512, .i1⟩ : BufTy).Contents (Elt F) → (⟨S64x3x512x512, .i32⟩ : BufTy).Contents (Elt F) → (⟨S64x3x512x512, .i32⟩ : BufTy).Contents (Elt F) → (⟨S64x3x512x512, .i32⟩ : BufTy).Contents (Elt F)),
    unary main_v74 main_v75 (broadcastInDim S64x3x512x512x1 ![0, 1, 2, 3] bcast_S64x3x512x512_S64x3x512x512x1_0_1_2_3 : (⟨S64x3x512x512, .i32⟩ : BufTy).Contents (Elt F) → (⟨S64x3x512x512x1, .i32⟩ : BufTy).Contents (Elt F)),
    binary main_arg1 main_v75 main_v76 ((fun x i => Host.gather gather_S64_S64x3x512x512x1_S64x3x512x512_n_0_n_n_0_4_1 x i) : (⟨S64, .f32⟩ : BufTy).Contents (Elt F) → (⟨S64x3x512x512x1, .i32⟩ : BufTy).Contents (Elt F) → (⟨S64x3x512x512, .f32⟩ : BufTy).Contents (Elt F)),
    nullary main_c_19 (constantI S_ 32 0#32),
    unary main_c_19 main_v77 (broadcastInDim S64x3x512x512 ![] bcast_S_S64x3x512x512 : (⟨S_, .i32⟩ : BufTy).Contents (Elt F) → (⟨S64x3x512x512, .i32⟩ : BufTy).Contents (Elt F)),
    binary main_v63 main_v77 main_v78 (cmpi .slt : (⟨S64x3x512x512, .i32⟩ : BufTy).Contents (Elt F) → (⟨S64x3x512x512, .i32⟩ : BufTy).Contents (Elt F) → (⟨S64x3x512x512, .i1⟩ : BufTy).Contents (Elt F)),
    nullary main_c_20 (constantI S_ 32 64#32),
    unary main_c_20 main_v79 (broadcastInDim S64x3x512x512 ![] bcast_S_S64x3x512x512 : (⟨S_, .i32⟩ : BufTy).Contents (Elt F) → (⟨S64x3x512x512, .i32⟩ : BufTy).Contents (Elt F)),
    binary main_v63 main_v79 main_v80 (addi : (⟨S64x3x512x512, .i32⟩ : BufTy).Contents (Elt F) → (⟨S64x3x512x512, .i32⟩ : BufTy).Contents (Elt F) → (⟨S64x3x512x512, .i32⟩ : BufTy).Contents (Elt F)),
    ternary main_v78 main_v80 main_v63 main_v81 (select : (⟨S64x3x512x512, .i1⟩ : BufTy).Contents (Elt F) → (⟨S64x3x512x512, .i32⟩ : BufTy).Contents (Elt F) → (⟨S64x3x512x512, .i32⟩ : BufTy).Contents (Elt F) → (⟨S64x3x512x512, .i32⟩ : BufTy).Contents (Elt F)),
    unary main_v81 main_v82 (broadcastInDim S64x3x512x512x1 ![0, 1, 2, 3] bcast_S64x3x512x512_S64x3x512x512x1_0_1_2_3 : (⟨S64x3x512x512, .i32⟩ : BufTy).Contents (Elt F) → (⟨S64x3x512x512x1, .i32⟩ : BufTy).Contents (Elt F)),
    binary main_v55 main_v82 main_v83 ((fun x i => Host.gather gather_S64_S64x3x512x512x1_S64x3x512x512_n_0_n_n_0_4_1 x i) : (⟨S64, .f32⟩ : BufTy).Contents (Elt F) → (⟨S64x3x512x512x1, .i32⟩ : BufTy).Contents (Elt F) → (⟨S64x3x512x512, .f32⟩ : BufTy).Contents (Elt F)),
    nullary main_c_21 (constantI S_ 32 1#32),
    unary main_c_21 main_v84 (broadcastInDim S64x3x512x512 ![] bcast_S_S64x3x512x512 : (⟨S_, .i32⟩ : BufTy).Contents (Elt F) → (⟨S64x3x512x512, .i32⟩ : BufTy).Contents (Elt F)),
    binary main_v63 main_v84 main_v85 (addi : (⟨S64x3x512x512, .i32⟩ : BufTy).Contents (Elt F) → (⟨S64x3x512x512, .i32⟩ : BufTy).Contents (Elt F) → (⟨S64x3x512x512, .i32⟩ : BufTy).Contents (Elt F)),
    nullary main_c_22 (constantI S_ 32 0#32),
    unary main_c_22 main_v86 (broadcastInDim S64x3x512x512 ![] bcast_S_S64x3x512x512 : (⟨S_, .i32⟩ : BufTy).Contents (Elt F) → (⟨S64x3x512x512, .i32⟩ : BufTy).Contents (Elt F)),
    binary main_v85 main_v86 main_v87 (cmpi .slt : (⟨S64x3x512x512, .i32⟩ : BufTy).Contents (Elt F) → (⟨S64x3x512x512, .i32⟩ : BufTy).Contents (Elt F) → (⟨S64x3x512x512, .i1⟩ : BufTy).Contents (Elt F)),
    nullary main_c_23 (constantI S_ 32 64#32),
    unary main_c_23 main_v88 (broadcastInDim S64x3x512x512 ![] bcast_S_S64x3x512x512 : (⟨S_, .i32⟩ : BufTy).Contents (Elt F) → (⟨S64x3x512x512, .i32⟩ : BufTy).Contents (Elt F)),
    binary main_v85 main_v88 main_v89 (addi : (⟨S64x3x512x512, .i32⟩ : BufTy).Contents (Elt F) → (⟨S64x3x512x512, .i32⟩ : BufTy).Contents (Elt F) → (⟨S64x3x512x512, .i32⟩ : BufTy).Contents (Elt F)),
    ternary main_v87 main_v89 main_v85 main_v90 (select : (⟨S64x3x512x512, .i1⟩ : BufTy).Contents (Elt F) → (⟨S64x3x512x512, .i32⟩ : BufTy).Contents (Elt F) → (⟨S64x3x512x512, .i32⟩ : BufTy).Contents (Elt F) → (⟨S64x3x512x512, .i32⟩ : BufTy).Contents (Elt F)),
    unary main_v90 main_v91 (broadcastInDim S64x3x512x512x1 ![0, 1, 2, 3] bcast_S64x3x512x512_S64x3x512x512x1_0_1_2_3 : (⟨S64x3x512x512, .i32⟩ : BufTy).Contents (Elt F) → (⟨S64x3x512x512x1, .i32⟩ : BufTy).Contents (Elt F)),
    binary main_v55 main_v91 main_v92 ((fun x i => Host.gather gather_S64_S64x3x512x512x1_S64x3x512x512_n_0_n_n_0_4_1 x i) : (⟨S64, .f32⟩ : BufTy).Contents (Elt F) → (⟨S64x3x512x512x1, .i32⟩ : BufTy).Contents (Elt F) → (⟨S64x3x512x512, .f32⟩ : BufTy).Contents (Elt F)),
    nullary main_c_24 (constantI S_ 32 0#32),
    unary main_c_24 main_v93 (broadcastInDim S64x3x512x512 ![] bcast_S_S64x3x512x512 : (⟨S_, .i32⟩ : BufTy).Contents (Elt F) → (⟨S64x3x512x512, .i32⟩ : BufTy).Contents (Elt F)),
    binary main_v63 main_v93 main_v94 (cmpi .slt : (⟨S64x3x512x512, .i32⟩ : BufTy).Contents (Elt F) → (⟨S64x3x512x512, .i32⟩ : BufTy).Contents (Elt F) → (⟨S64x3x512x512, .i1⟩ : BufTy).Contents (Elt F)),
    nullary main_c_25 (constantI S_ 32 63#32),
    unary main_c_25 main_v95 (broadcastInDim S64x3x512x512 ![] bcast_S_S64x3x512x512 : (⟨S_, .i32⟩ : BufTy).Contents (Elt F) → (⟨S64x3x512x512, .i32⟩ : BufTy).Contents (Elt F)),
    binary main_v63 main_v95 main_v96 (addi : (⟨S64x3x512x512, .i32⟩ : BufTy).Contents (Elt F) → (⟨S64x3x512x512, .i32⟩ : BufTy).Contents (Elt F) → (⟨S64x3x512x512, .i32⟩ : BufTy).Contents (Elt F)),
    ternary main_v94 main_v96 main_v63 main_v97 (select : (⟨S64x3x512x512, .i1⟩ : BufTy).Contents (Elt F) → (⟨S64x3x512x512, .i32⟩ : BufTy).Contents (Elt F) → (⟨S64x3x512x512, .i32⟩ : BufTy).Contents (Elt F) → (⟨S64x3x512x512, .i32⟩ : BufTy).Contents (Elt F)),
    unary main_v97 main_v98 (broadcastInDim S64x3x512x512x1 ![0, 1, 2, 3] bcast_S64x3x512x512_S64x3x512x512x1_0_1_2_3 : (⟨S64x3x512x512, .i32⟩ : BufTy).Contents (Elt F) → (⟨S64x3x512x512x1, .i32⟩ : BufTy).Contents (Elt F)),
    binary main_v2 main_v98 main_v99 ((fun x i => Host.gather gather_S63_S64x3x512x512x1_S64x3x512x512_n_0_n_n_0_4_1 x i) : (⟨S63, .f32⟩ : BufTy).Contents (Elt F) → (⟨S64x3x512x512x1, .i32⟩ : BufTy).Contents (Elt F) → (⟨S64x3x512x512, .f32⟩ : BufTy).Contents (Elt F)),
    nullary main_cst_26 (constant S_ .f32 0x40400000#32),
    unary main_cst_26 main_v100 (broadcastInDim S64x3x512x512 ![] bcast_S_S64x3x512x512 : (⟨S_, .f32⟩ : BufTy).Contents (Elt F) → (⟨S64x3x512x512, .f32⟩ : BufTy).Contents (Elt F)),
    binary main_v100 main_v99 main_v101 (mulf : (⟨S64x3x512x512, .f32⟩ : BufTy).Contents (Elt F) → (⟨S64x3x512x512, .f32⟩ : BufTy).Contents (Elt F) → (⟨S64x3x512x512, .f32⟩ : BufTy).Contents (Elt F)),
    nullary main_cst_27 (constant S_ .f32 0x40000000#32),
    unary main_cst_27 main_v102 (broadcastInDim S64x3x512x512 ![] bcast_S_S64x3x512x512 : (⟨S_, .f32⟩ : BufTy).Contents (Elt F) → (⟨S64x3x512x512, .f32⟩ : BufTy).Contents (Elt F)),
    binary main_v102 main_v83 main_v103 (mulf : (⟨S64x3x512x512, .f32⟩ : BufTy).Contents (Elt F) → (⟨S64x3x512x512, .f32⟩ : BufTy).Contents (Elt F) → (⟨S64x3x512x512, .f32⟩ : BufTy).Contents (Elt F)),
    binary main_v101 main_v103 main_v104 (subf : (⟨S64x3x512x512, .f32⟩ : BufTy).Contents (Elt F) → (⟨S64x3x512x512, .f32⟩ : BufTy).Contents (Elt F) → (⟨S64x3x512x512, .f32⟩ : BufTy).Contents (Elt F)),
    binary main_v104 main_v92 main_v105 (subf : (⟨S64x3x512x512, .f32⟩ : BufTy).Contents (Elt F) → (⟨S64x3x512x512, .f32⟩ : BufTy).Contents (Elt F) → (⟨S64x3x512x512, .f32⟩ : BufTy).Contents (Elt F)),
    nullary main_cst_28 (constant S_ .f32 0x3C820821#32),
    unary main_cst_28 main_v106 (broadcastInDim S64x3x512x512 ![] bcast_S_S64x3x512x512 : (⟨S_, .f32⟩ : BufTy).Contents (Elt F) → (⟨S64x3x512x512, .f32⟩ : BufTy).Contents (Elt F)),
    binary main_v105 main_v106 main_v107 (Host.divf : (⟨S64x3x512x512, .f32⟩ : BufTy).Contents (Elt F) → (⟨S64x3x512x512, .f32⟩ : BufTy).Contents (Elt F) → (⟨S64x3x512x512, .f32⟩ : BufTy).Contents (Elt F)),
    binary main_v83 main_v92 main_v108 (addf : (⟨S64x3x512x512, .f32⟩ : BufTy).Contents (Elt F) → (⟨S64x3x512x512, .f32⟩ : BufTy).Contents (Elt F) → (⟨S64x3x512x512, .f32⟩ : BufTy).Contents (Elt F)),
    nullary main_cst_29 (constant S_ .f32 0x40000000#32),
    unary main_cst_29 main_v109 (broadcastInDim S64x3x512x512 ![] bcast_S_S64x3x512x512 : (⟨S_, .f32⟩ : BufTy).Contents (Elt F) → (⟨S64x3x512x512, .f32⟩ : BufTy).Contents (Elt F)),
    binary main_v109 main_v99 main_v110 (mulf : (⟨S64x3x512x512, .f32⟩ : BufTy).Contents (Elt F) → (⟨S64x3x512x512, .f32⟩ : BufTy).Contents (Elt F) → (⟨S64x3x512x512, .f32⟩ : BufTy).Contents (Elt F)),
    binary main_v108 main_v110 main_v111 (subf : (⟨S64x3x512x512, .f32⟩ : BufTy).Contents (Elt F) → (⟨S64x3x512x512, .f32⟩ : BufTy).Contents (Elt F) → (⟨S64x3x512x512, .f32⟩ : BufTy).Contents (Elt F)),
    nullary main_cst_30 (constant S_ .f32 0x39841883#32),
    unary main_cst_30 main_v112 (broadcastInDim S64x3x512x512 ![] bcast_S_S64x3x512x512 : (⟨S_, .f32⟩ : BufTy).Contents (Elt F) → (⟨S64x3x512x512, .f32⟩ : BufTy).Contents (Elt F)),
    binary main_v111 main_v112 main_v113 (Host.divf : (⟨S64x3x512x512, .f32⟩ : BufTy).Contents (Elt F) → (⟨S64x3x512x512, .f32⟩ : BufTy).Contents (Elt F) → (⟨S64x3x512x512, .f32⟩ : BufTy).Contents (Elt F)),
    binary main_v69 main_v113 main_v114 (mulf : (⟨S64x3x512x512, .f32⟩ : BufTy).Contents (Elt F) → (⟨S64x3x512x512, .f32⟩ : BufTy).Contents (Elt F) → (⟨S64x3x512x512, .f32⟩ : BufTy).Contents (Elt F)),
    binary main_v107 main_v114 main_v115 (addf : (⟨S64x3x512x512, .f32⟩ : BufTy).Contents (Elt F) → (⟨S64x3x512x512, .f32⟩ : BufTy).Contents (Elt F) → (⟨S64x3x512x512, .f32⟩ : BufTy).Contents (Elt F)),
    binary main_v69 main_v115 main_v116 (mulf : (⟨S64x3x512x512, .f32⟩ : BufTy).Contents (Elt F) → (⟨S64x3x512x512, .f32⟩ : BufTy).Contents (Elt F) → (⟨S64x3x512x512, .f32⟩ : BufTy).Contents (Elt F)),
    binary main_v83 main_v116 main_v117 (addf : (⟨S64x3x512x512, .f32⟩ : BufTy).Contents (Elt F) → (⟨S64x3x512x512, .f32⟩ : BufTy).Contents (Elt F) → (⟨S64x3x512x512, .f32⟩ : BufTy).Contents (Elt F)),
    binary main_v69 main_v117 main_v118 (mulf : (⟨S64x3x512x512, .f32⟩ : BufTy).Contents (Elt F) → (⟨S64x3x512x512, .f32⟩ : BufTy).Contents (Elt F) → (⟨S64x3x512x512, .f32⟩ : BufTy).Contents (Elt F)),
    binary main_v76 main_v118 main_v119 (addf : (⟨S64x3x512x512, .f32⟩ : BufTy).Contents (Elt F) → (⟨S64x3x512x512, .f32⟩ : BufTy).Contents (Elt F) → (⟨S64x3x512x512, .f32⟩ : BufTy).Contents (Elt F)) ]

/-- @main's operations, in order. -/
abbrev ops : List (HloOp τ sig (Elt F)) := w1 ++ (w2 ++ (w3 ++ w4))

set_option maxRecDepth 8192 in
set_option maxHeartbeats 8000000 in
theorem main_eq (c : Dev nD) : main (F := F) c = seq (ops (F := F)) := rfl
theorem scopedRefs_eq : (Finset.univ.filter fun b : Ref sig .tc => b.isScoped) = ∅ := by decide
theorem scopedSems_eq : (Finset.univ.filter fun sm : SemLoc sig => sm.isScoped .tc) = ∅ := by decide

theorem w1_sub : (w1 : List (HloOp τ sig (Elt F))).Forall fun op => op.bufs ⊆ tcRefs τ sig := ⟨unary_bufs_sub .., unary_bufs_sub .., binary_bufs_sub .., nullary_bufs_sub .., unary_bufs_sub .., binary_bufs_sub .., unary_bufs_sub .., reshape_bufs_sub .., nullary_bufs_sub .., binary_bufs_sub .., unary_bufs_sub .., reshape_bufs_sub .., nullary_bufs_sub .., binary_bufs_sub .., binary_bufs_sub .., unary_bufs_sub .., reshape_bufs_sub .., nullary_bufs_sub .., binary_bufs_sub .., unary_bufs_sub .., reshape_bufs_sub .., binary_bufs_sub .., unary_bufs_sub .., unary_bufs_sub .., binary_bufs_sub .., unary_bufs_sub .., reshape_bufs_sub .., nullary_bufs_sub .., binary_bufs_sub .., unary_bufs_sub .., reshape_bufs_sub .., binary_bufs_sub .., unary_bufs_sub .., reshape_bufs_sub .., nullary_bufs_sub .., binary_bufs_sub .., unary_bufs_sub .., reshape_bufs_sub .., nullary_bufs_sub .., binary_bufs_sub .., binary_bufs_sub .., unary_bufs_sub .., unary_bufs_sub .., binary_bufs_sub .., nary_bufs_sub ..⟩
theorem w2_sub : (w2 : List (HloOp τ sig (Elt F))).Forall fun op => op.bufs ⊆ tcRefs τ sig := ⟨unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., ternary_bufs_sub ..⟩
theorem w3_sub : (w3 : List (HloOp τ sig (Elt F))).Forall fun op => op.bufs ⊆ tcRefs τ sig := ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩
theorem w4_sub : (w4 : List (HloOp τ sig (Elt F))).Forall fun op => op.bufs ⊆ tcRefs τ sig := ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub ..⟩

theorem ops_sub : (ops : List (HloOp τ sig (Elt F))).Forall fun op => op.bufs ⊆ tcRefs τ sig :=
  List.forall_iff_forall_mem.mpr fun op hop => by
    rcases List.mem_append.mp hop with h | hop
    · exact List.forall_iff_forall_mem.mp w1_sub op h
    rcases List.mem_append.mp hop with h | hop
    · exact List.forall_iff_forall_mem.mp w2_sub op h
    rcases List.mem_append.mp hop with h | h
    · exact List.forall_iff_forall_mem.mp w3_sub op h
    · exact List.forall_iff_forall_mem.mp w4_sub op h

/-- Running two lists of host operations one after the other is running the first, then the second. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => simp only [List.cons_append, StableHlo.after_cons, ih]

section Stretches
variable (W : Valuation τ sig (Elt F))

/-! ### The first stretch: the slopes and their extension -/
set_option maxHeartbeats 8000000 in
theorem w1_v35 : StableHlo.after w1 W (Proc.devRef .tc main_v35) = val_main_v35 (F := F) (W (Proc.devRef .tc main_arg1)) := by
  simp only [w1]; after_results_simp; rfl
set_option maxHeartbeats 8000000 in
theorem w1_v2 : StableHlo.after w1 W (Proc.devRef .tc main_v2) = val_main_v2 (F := F) (W (Proc.devRef .tc main_arg1)) := by
  simp only [w1]; after_results_simp; rfl
set_option maxHeartbeats 8000000 in
theorem w1_arg0 : StableHlo.after w1 W (Proc.devRef .tc main_arg0) = W (Proc.devRef .tc main_arg0) := by
  simp only [w1]; after_results_simp
set_option maxHeartbeats 8000000 in
theorem w1_arg1 : StableHlo.after w1 W (Proc.devRef .tc main_arg1) = W (Proc.devRef .tc main_arg1) := by
  simp only [w1]; after_results_simp

/-! ### The second stretch: the node derivatives, over the extended slopes -/
section S2
variable (x1 : (⟨S64, .f32⟩ : BufTy).Contents (Elt F))
set_option maxHeartbeats 8000000 in
theorem w2_v55 (h35 : W (Proc.devRef .tc main_v35) = val_main_v35 (F := F) x1) :
    StableHlo.after w2 W (Proc.devRef .tc main_v55) = val_main_v55 (F := F) x1 := by
  simp only [w2]; after_results_simp; rw [h35]; rfl
set_option maxHeartbeats 8000000 in
theorem w2_v2 : StableHlo.after w2 W (Proc.devRef .tc main_v2) = W (Proc.devRef .tc main_v2) := by
  simp only [w2]; after_results_simp
set_option maxHeartbeats 8000000 in
theorem w2_arg0 : StableHlo.after w2 W (Proc.devRef .tc main_arg0) = W (Proc.devRef .tc main_arg0) := by
  simp only [w2]; after_results_simp
set_option maxHeartbeats 8000000 in
theorem w2_arg1 : StableHlo.after w2 W (Proc.devRef .tc main_arg1) = W (Proc.devRef .tc main_arg1) := by
  simp only [w2]; after_results_simp
end S2

/-! ### The third stretch: the segment word and the local coordinate of every element -/
set_option maxHeartbeats 8000000 in
theorem w3_v63 : StableHlo.after w3 W (Proc.devRef .tc main_v63) = val_main_v63 (F := F) (W (Proc.devRef .tc main_arg0)) := by
  simp only [w3]; after_results_simp; rfl
set_option maxHeartbeats 8000000 in
theorem w3_v69 : StableHlo.after w3 W (Proc.devRef .tc main_v69) = val_main_v69 (F := F) (W (Proc.devRef .tc main_arg0)) := by
  simp only [w3]; after_results_simp; rfl
set_option maxHeartbeats 8000000 in
theorem w3_v55 : StableHlo.after w3 W (Proc.devRef .tc main_v55) = W (Proc.devRef .tc main_v55) := by
  simp only [w3]; after_results_simp
set_option maxHeartbeats 8000000 in
theorem w3_v2 : StableHlo.after w3 W (Proc.devRef .tc main_v2) = W (Proc.devRef .tc main_v2) := by
  simp only [w3]; after_results_simp
set_option maxHeartbeats 8000000 in
theorem w3_arg0 : StableHlo.after w3 W (Proc.devRef .tc main_arg0) = W (Proc.devRef .tc main_arg0) := by
  simp only [w3]; after_results_simp
set_option maxHeartbeats 8000000 in
theorem w3_arg1 : StableHlo.after w3 W (Proc.devRef .tc main_arg1) = W (Proc.devRef .tc main_arg1) := by
  simp only [w3]; after_results_simp

/-! ### The fourth stretch: the gathers and the cubic, over the node derivatives, the slopes, the segment words
    and the local coordinates -/
section S4
variable (x0 : (⟨S64x3x512x512, .f32⟩ : BufTy).Contents (Elt F)) (x1 : (⟨S64, .f32⟩ : BufTy).Contents (Elt F))
set_option maxHeartbeats 16000000 in
theorem w4_v119 (h63 : W (Proc.devRef .tc main_v63) = val_main_v63 (F := F) x0) (h69 : W (Proc.devRef .tc main_v69) = val_main_v69 (F := F) x0)
    (h55 : W (Proc.devRef .tc main_v55) = val_main_v55 (F := F) x1) (h2 : W (Proc.devRef .tc main_v2) = val_main_v2 (F := F) x1)
    (h1 : W (Proc.devRef .tc main_arg1) = x1) :
    StableHlo.after w4 W (Proc.devRef .tc main_v119) = val_main_v119 (F := F) x0 x1 := by
  simp only [w4]; after_results_simp; rw [h63, h69, h55, h2, h1]; rfl
set_option maxHeartbeats 8000000 in
theorem w4_arg0 : StableHlo.after w4 W (Proc.devRef .tc main_arg0) = W (Proc.devRef .tc main_arg0) := by
  simp only [w4]; after_results_simp
set_option maxHeartbeats 8000000 in
theorem w4_arg1 : StableHlo.after w4 W (Proc.devRef .tc main_arg1) = W (Proc.devRef .tc main_arg1) := by
  simp only [w4]; after_results_simp
end S4

end Stretches

section Compose
variable (M : Valuation τ sig (Elt F))

/-- The whole program at its result: the last stage of the arguments. -/
theorem ops_v119 : StableHlo.after (ops (F := F)) M (Proc.devRef .tc main_v119)
    = val_main_v119 (F := F) (M (Proc.devRef .tc main_arg0)) (M (Proc.devRef .tc main_arg1)) := by
  show StableHlo.after (w1 ++ (w2 ++ (w3 ++ w4))) M (Proc.devRef .tc main_v119) = _
  rw [after_append, after_append, after_append]
  refine w4_v119 _ _ _ ?_ ?_ ?_ ?_ ?_
  · rw [w3_v63, w2_arg0, w1_arg0]
  · rw [w3_v69, w2_arg0, w1_arg0]
  · rw [w3_v55]; exact w2_v55 _ _ (w1_v35 M)
  · rw [w3_v2, w2_v2]; exact w1_v2 M
  · rw [w3_arg1, w2_arg1, w1_arg1]

/-- No operation writes an argument. -/
theorem ops_arg0 : StableHlo.after (ops (F := F)) M (Proc.devRef .tc main_arg0) = M (Proc.devRef .tc main_arg0) := by
  show StableHlo.after (w1 ++ (w2 ++ (w3 ++ w4))) M (Proc.devRef .tc main_arg0) = _
  rw [after_append, after_append, after_append, w4_arg0, w3_arg0, w2_arg0, w1_arg0]
theorem ops_arg1 : StableHlo.after (ops (F := F)) M (Proc.devRef .tc main_arg1) = M (Proc.devRef .tc main_arg1) := by
  show StableHlo.after (w1 ++ (w2 ++ (w3 ++ w4))) M (Proc.devRef .tc main_arg1) = _
  rw [after_append, after_append, after_append, w4_arg1, w3_arg1, w2_arg1, w1_arg1]

end Compose

/-- On every device, from any memory with zero counters: every weakly fair execution of @main terminates with the
    result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119)
        = val_main_v119 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v119).trans (ops_v119 _), (h c main_arg0).trans (ops_arg0 _), (h c main_arg1).trans (ops_arg1 _)⟩)
    (run_seq scopedRefs_eq scopedSems_eq defs main (fun _ => ops) main_eq (fun _ => ops_sub) m ρ)

end Cert.ReferenceIdeal.HandRun

namespace Cert.Proof.RefSide

open Idealize.ShloMosaic Idealize.SL.Sem

/-- The reference's frame: its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.HandRun.run (F := Ideal) m ρ)

end Cert.Proof.RefSide

end
-- ==== Proof.LibGather1.lean ====
/-
  A `stablehlo.gather` of a flat array at a four-dimensional array of positions, read at one result index.

  `x[idx]` for a flat array `x` of `N` entries and a four-dimensional array `idx` of positions lowers to a gather
  whose start indices carry a trailing axis of extent one: operand `[N]`, start indices `[A, B, C, D, 1]`, result
  `[A, B, C, D]`; no offset axes, the operand's one axis collapsed, the start index map naming that axis, the index
  vector on axis 4, slices of one entry. Its element at `(a, b, c, d)` is the operand's at the position
  `idx[a, b, c, d, 0]`, read as a signed integer and kept inside `0 … N − 1` (the gather clamps every start index so
  that the slice fits).
-/
import Idealize.ShloMosaic.Lib.ValueIdx

noncomputable section

namespace Cert.Gather1

open Idealize.ShloMosaic Idealize.ShloMosaic.ValueIdx

section Take4
variable {α : Type}

/-- The dimension numbers of `x[idx]` for an operand `[N]`, start indices `[A, B, C, D, 1]` and result `[A, B, C, D]`;
    their conditions `wf` are decided on a program's literal shapes. -/
abbrev take4Dims (N A B C D : Nat)
    (wf : GatherDims.WF ⟨1, ![N]⟩ ⟨5, ![A, B, C, D, 1]⟩ ⟨4, ![A, B, C, D]⟩ [] [0] [] [0] [] 4 ![1]) :
    GatherDims ⟨1, ![N]⟩ ⟨5, ![A, B, C, D, 1]⟩ ⟨4, ![A, B, C, D]⟩ where
  offsetDims := []
  collapsedSliceDims := [0]
  operandBatchingDims := []
  startIndicesBatchingDims := []
  startIndexMap := [0]
  indexVectorDim := 4
  sliceSizes := ![1]
  wf := wf

/-- The start-indices index `[a, b, c, d, 0]` of the result index `(a, b, c, d)`. -/
abbrev take4Idx {A B C D : Nat} (y : (⟨4, ![A, B, C, D]⟩ : Shape).Idx) : (⟨5, ![A, B, C, D, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨(y 3).val, (y 3).isLt⟩
    | ⟨4, _⟩ => ⟨0, Nat.one_pos⟩

/-- THE GATHER READ AT `(a, b, c, d)`: the operand at the start index `idx[a, b, c, d, 0]`, read signed and kept inside
    `0 … N − 1`. -/
theorem gather_take4_apply {N A B C D w : Nat} (hN : 0 < N)
    (wf : GatherDims.WF ⟨1, ![N]⟩ ⟨5, ![A, B, C, D, 1]⟩ ⟨4, ![A, B, C, D]⟩ [] [0] [] [0] [] 4 ![1])
    (x : (⟨1, ![N]⟩ : Shape).Idx → α) (idx : IVec ⟨5, ![A, B, C, D, 1]⟩ w) (y : (⟨4, ![A, B, C, D]⟩ : Shape).Idx) :
    Host.gather (take4Dims N A B C D wf) x idx y
      = x (ix1 ⟨min (idx (take4Idx y)).toInt.toNat (N - 1), by omega⟩) := by
  unfold Host.gather
  congr 1
  funext a
  obtain rfl : a = 0 := Subsingleton.elim _ _
  refine Fin.ext ?_
  show (take4Dims N A B C D wf).start y idx 0 + (take4Dims N A B C D wf).batchCoord y 0
    + (take4Dims N A B C D wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take4Dims N A B C D wf).startIndexMap from List.mem_singleton.mpr rfl)]
  have hsi : (take4Dims N A B C D wf).siIdx y ⟨List.idxOf (0 : Fin 1) (take4Dims N A B C D wf).startIndexMap,
      List.idxOf_lt_length_iff.2 (List.mem_singleton.mpr rfl)⟩ = take4Idx y := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

end Take4

end Cert.Gather1

end
-- ==== Proof.RefValue.lean ====
/-
  The reference program's result at one index is the Akima spline at that index's abscissa.

  The reference clips the abscissa to [0, 1], takes the floor of the clipped abscissa over the node spacing, converts it
  to a 32-bit word and keeps the word inside 0 … 62: that word is the segment number `seg`. It subtracts the segment's
  left node from the clipped abscissa: the local coordinate `loc`. It then reads the node values and the node
  derivatives at the segment number, the node derivatives at the segment number plus one, and the segment slopes at
  the segment number; each read first replaces a negative position by the position counted from the end, which never
  happens here (the positions are between 0 and 63), and then keeps the position inside the array, which is the read
  `rd` of the specification. From those four numbers it forms the quadratic and cubic coefficients and evaluates the
  cubic in Horner form: the specification's `spline`, operation for operation.
-/
import proofs.«161124_j66623532696299_2_alg».proof.Proof.RefReadP
import proofs.«161124_j66623532696299_2_alg».proof.Proof.Spec
import proofs.«161124_j66623532696299_2_alg».proof.Proof.LibGather1
import proofs.«161124_j66623532696299_2_alg».proof.Proof.LibSegment

noncomputable section

namespace Cert.ReferenceIdeal.RefValue

open Cert.ReferenceIdeal Cert.ReferenceIdeal.Gen Idealize.ShloMosaic Idealize.ShloMosaic.ValueIdx Cert.Akima Cert.Gather1

/-! ## Small words: a 32-bit word at most 63 is its own signed reading, and so is its successor -/

/-- A word at most 63 reads the same signed and unsigned. -/
theorem word_toInt (s : BitVec 32) (h : s.toNat ≤ 63) : s.toInt = (s.toNat : Int) := by
  rw [BitVec.toInt_eq_toNat_cond]
  split
  · rfl
  · omega

/-- Its signed reading, as a natural number, is its unsigned one. -/
theorem word_toInt_toNat (s : BitVec 32) (h : s.toNat ≤ 63) : s.toInt.toNat = s.toNat := by
  rw [word_toInt s h]; exact Int.toNat_natCast _

/-- It is not negative. -/
theorem word_not_neg (s : BitVec 32) (h : s.toNat ≤ 63) : IntOp.cmpi .slt s 0#32 = 0#1 := by
  have hs : s.slt 0#32 = false := by
    unfold BitVec.slt
    rw [word_toInt s h]
    simp
  show BitVec.ofBool (s.slt 0#32) = 0#1
  rw [hs]; rfl

/-- Adding one to a word at most 62 does not wrap. -/
theorem word_succ_toNat (s : BitVec 32) (h : s.toNat ≤ 62) : (s + 1#32).toNat = s.toNat + 1 := by
  rw [BitVec.toNat_add]
  show (s.toNat + 1) % 2 ^ 32 = s.toNat + 1
  omega

/-- "If the position is negative, count it from the end": a position at most 63 is not negative and is kept. -/
theorem select_not_neg (s a : BitVec 32) (h : s.toNat ≤ 63) :
    Scalar.select (IntOp.cmpi .slt s 0#32) a s = s := by
  rw [word_not_neg s h]; rfl

/-- A read of a vector at an entry number kept at most `N`, whatever natural number names the entry. -/
theorem rd_of_eq (N : ℕ) (f : (⟨1, ![N + 1]⟩ : Shape).Idx → EReal) (a b : ℕ) (ha : min a N < N + 1) (h : a = b) :
    f (ix1 ⟨min a N, ha⟩) = rd N f b := by
  subst h; rfl

/-! ## The start-index arrays read back at a result index -/

theorem drop_take_v75 (I : S64x3x512x512.Idx) : ReadP.idx_main_v75 (take4Idx I) = I := by
  funext a
  match a with
  | ⟨0, _⟩ => rfl
  | ⟨1, _⟩ => rfl
  | ⟨2, _⟩ => rfl
  | ⟨3, _⟩ => rfl
theorem drop_take_v82 (I : S64x3x512x512.Idx) : ReadP.idx_main_v82 (take4Idx I) = I := by
  funext a
  match a with
  | ⟨0, _⟩ => rfl
  | ⟨1, _⟩ => rfl
  | ⟨2, _⟩ => rfl
  | ⟨3, _⟩ => rfl
theorem drop_take_v91 (I : S64x3x512x512.Idx) : ReadP.idx_main_v91 (take4Idx I) = I := by
  funext a
  match a with
  | ⟨0, _⟩ => rfl
  | ⟨1, _⟩ => rfl
  | ⟨2, _⟩ => rfl
  | ⟨3, _⟩ => rfl
theorem drop_take_v98 (I : S64x3x512x512.Idx) : ReadP.idx_main_v98 (take4Idx I) = I := by
  funext a
  match a with
  | ⟨0, _⟩ => rfl
  | ⟨1, _⟩ => rfl
  | ⟨2, _⟩ => rfl
  | ⟨3, _⟩ => rfl

section
variable (x0 : (⟨S64x3x512x512, .f32⟩ : BufTy).Contents (Elt Ideal)) (x1 : (⟨S64, .f32⟩ : BufTy).Contents (Elt Ideal))
  (I : S64x3x512x512.Idx)

/-! ## The abscissa's clip, quotient, segment number and local coordinate -/

/-- The clipped abscissa. -/
theorem v56_at : ReadP.val_main_v56 (F := Ideal) x0 I = xc (x0 I) := by
  rw [ReadP.val_main_v56_apply, ReadP.val_main_call4_v4_apply, ReadP.val_main_call4_v3_apply, ReadP.val_main_cst_11_apply,
    ReadP.val_main_call4_v2_apply, ReadP.val_main_call4_v1_apply, ReadP.val_main_call4_v0_apply, ReadP.val_main_cst_10_apply]
  rfl

/-- The floor of the clipped abscissa over the spacing. -/
theorem v61_at : ReadP.val_main_v61 (F := Ideal) x0 I = quo (x0 I) := by
  rw [ReadP.val_main_v61_apply, ReadP.val_main_v60_apply, ReadP.val_main_v58_apply, v56_at, ReadP.val_main_v57_apply,
    ReadP.val_main_cst_12_apply, ReadP.val_main_v59_apply, ReadP.val_main_cst_13_apply]
  rfl

/-- The segment number: converting the quotient to a word and then keeping it inside 0 … 62 is keeping it inside
    0 … 62 and then converting. -/
theorem v63_at : ReadP.val_main_v63 (F := Ideal) x0 I = seg (x0 I) := by
  rw [ReadP.val_main_v63_apply, ReadP.val_main_call5_v4_apply, ReadP.val_main_call5_v3_apply, ReadP.val_main_c_14_apply,
    ReadP.val_main_call5_v2_apply, ReadP.val_main_call5_v1_apply, ReadP.val_main_call5_v0_apply, ReadP.val_main_c_apply,
    ReadP.val_main_v62_apply, v61_at]
  exact seg_eq_convert_clamp (x0 I)

/-- The local coordinate. -/
theorem v69_at : ReadP.val_main_v69 (F := Ideal) x0 I = loc (x0 I) := by
  rw [ReadP.val_main_v69_apply, v56_at, ReadP.val_main_v68_apply, ReadP.val_main_v67_apply, ReadP.val_main_cst_16_apply,
    ReadP.val_main_v66_apply, ReadP.val_main_v64_apply, v63_at, ReadP.val_main_v65_apply, ReadP.val_main_cst_15_apply]
  rfl

/-! ## The four positions: the segment number (three times) and its successor, none of them negative -/

theorem v74_at : ReadP.val_main_v74 (F := Ideal) x0 I = seg (x0 I) := by
  rw [ReadP.val_main_v74_apply, ReadP.val_main_v71_apply, v63_at, ReadP.val_main_v70_apply, ReadP.val_main_c_17_apply]
  exact select_not_neg _ _ (Nat.le_succ_of_le (seg_toNat_le (x0 I)))

theorem v81_at : ReadP.val_main_v81 (F := Ideal) x0 I = seg (x0 I) := by
  rw [ReadP.val_main_v81_apply, ReadP.val_main_v78_apply, v63_at, ReadP.val_main_v77_apply, ReadP.val_main_c_19_apply]
  exact select_not_neg _ _ (Nat.le_succ_of_le (seg_toNat_le (x0 I)))

theorem v97_at : ReadP.val_main_v97 (F := Ideal) x0 I = seg (x0 I) := by
  rw [ReadP.val_main_v97_apply, ReadP.val_main_v94_apply, v63_at, ReadP.val_main_v93_apply, ReadP.val_main_c_24_apply]
  exact select_not_neg _ _ (Nat.le_succ_of_le (seg_toNat_le (x0 I)))

theorem v90_at : ReadP.val_main_v90 (F := Ideal) x0 I = seg (x0 I) + 1#32 := by
  rw [ReadP.val_main_v90_apply, ReadP.val_main_v87_apply, ReadP.val_main_v85_apply, v63_at, ReadP.val_main_v84_apply,
    ReadP.val_main_c_21_apply, ReadP.val_main_v86_apply, ReadP.val_main_c_22_apply]
  refine select_not_neg (seg (x0 I) + 1#32) _ ?_
  rw [word_succ_toNat _ (seg_toNat_le (x0 I))]
  exact Nat.succ_le_succ (seg_toNat_le (x0 I))

/-! ## The four gathers: node value, the two node derivatives, the segment slope -/

/-- The node value at the segment's left node. -/
theorem v76_at : ReadP.val_main_v76 (F := Ideal) x0 x1 I = rd 63 x1 (seg (x0 I)).toNat := by
  unfold ReadP.val_main_v76
  refine (gather_take4_apply (N := 64) (by decide) _ x1 (ReadP.val_main_v75 (F := Ideal) x0) I).trans ?_
  refine rd_of_eq 63 x1 _ _ _ ?_
  rw [ReadP.val_main_v75_apply, drop_take_v75, v74_at, word_toInt_toNat _ (Nat.le_succ_of_le (seg_toNat_le (x0 I)))]

/-- The node derivative at the segment's left node. -/
theorem v83_at : ReadP.val_main_v83 (F := Ideal) x0 x1 I
    = rd 63 (ReadP.val_main_v55 (F := Ideal) x1) (seg (x0 I)).toNat := by
  unfold ReadP.val_main_v83
  refine (gather_take4_apply (N := 64) (by decide) _ (ReadP.val_main_v55 (F := Ideal) x1)
    (ReadP.val_main_v82 (F := Ideal) x0) I).trans ?_
  refine rd_of_eq 63 (ReadP.val_main_v55 (F := Ideal) x1) _ _ _ ?_
  rw [ReadP.val_main_v82_apply, drop_take_v82, v81_at, word_toInt_toNat _ (Nat.le_succ_of_le (seg_toNat_le (x0 I)))]

/-- The node derivative at the segment's right node. -/
theorem v92_at : ReadP.val_main_v92 (F := Ideal) x0 x1 I
    = rd 63 (ReadP.val_main_v55 (F := Ideal) x1) ((seg (x0 I)).toNat + 1) := by
  unfold ReadP.val_main_v92
  refine (gather_take4_apply (N := 64) (by decide) _ (ReadP.val_main_v55 (F := Ideal) x1)
    (ReadP.val_main_v91 (F := Ideal) x0) I).trans ?_
  refine rd_of_eq 63 (ReadP.val_main_v55 (F := Ideal) x1) _ _ _ ?_
  have h1 : (seg (x0 I) + 1#32).toNat = (seg (x0 I)).toNat + 1 := word_succ_toNat _ (seg_toNat_le (x0 I))
  rw [ReadP.val_main_v91_apply, drop_take_v91, v90_at,
    word_toInt_toNat _ (by rw [h1]; exact Nat.succ_le_succ (seg_toNat_le (x0 I))), h1]

/-- The slope of the segment. -/
theorem v99_at : ReadP.val_main_v99 (F := Ideal) x0 x1 I
    = rd 62 (ReadP.val_main_v2 (F := Ideal) x1) (seg (x0 I)).toNat := by
  unfold ReadP.val_main_v99
  refine (gather_take4_apply (N := 63) (by decide) _ (ReadP.val_main_v2 (F := Ideal) x1)
    (ReadP.val_main_v98 (F := Ideal) x0) I).trans ?_
  refine rd_of_eq 62 (ReadP.val_main_v2 (F := Ideal) x1) _ _ _ ?_
  rw [ReadP.val_main_v98_apply, drop_take_v98, v97_at, word_toInt_toNat _ (Nat.le_succ_of_le (seg_toNat_le (x0 I)))]

/-! ## The reference's result at an index is the spline at that abscissa -/

/-- THE REFERENCE AT AN INDEX: the cubic of the abscissa's segment at its local coordinate, from the node values,
    the node derivatives and the segment slopes. -/
theorem ref_at :
    ReadP.val_main_v119 (F := Ideal) x0 x1 I
      = Cert.Akima.spline x1 (ReadP.val_main_v55 (F := Ideal) x1) (ReadP.val_main_v2 (F := Ideal) x1) (x0 I) := by
  simp only [ReadP.val_main_v119_apply, ReadP.val_main_v118_apply, ReadP.val_main_v117_apply, ReadP.val_main_v116_apply,
    ReadP.val_main_v115_apply, ReadP.val_main_v114_apply, ReadP.val_main_v113_apply, ReadP.val_main_v112_apply,
    ReadP.val_main_cst_30_apply, ReadP.val_main_v111_apply, ReadP.val_main_v110_apply, ReadP.val_main_v109_apply,
    ReadP.val_main_cst_29_apply, ReadP.val_main_v108_apply, ReadP.val_main_v107_apply, ReadP.val_main_v106_apply,
    ReadP.val_main_cst_28_apply, ReadP.val_main_v105_apply, ReadP.val_main_v104_apply, ReadP.val_main_v103_apply,
    ReadP.val_main_v102_apply, ReadP.val_main_cst_27_apply, ReadP.val_main_v101_apply, ReadP.val_main_v100_apply,
    ReadP.val_main_cst_26_apply, v69_at, v76_at, v83_at, v92_at, v99_at]
  rfl

end

end Cert.ReferenceIdeal.RefValue

end
-- ==== Proof.lean ====
/-
  An Akima spline through 64 equispaced node values, evaluated at every element of a [64, 3, 512, 512] array: a
  kernel that looks its per-segment cubic coefficients up in a 4×64 table by a one-hot contraction, against a
  reference that gathers node values, node derivatives and slopes at the segment number and forms the coefficients
  per element. Over the extended reals both are the same cubic of the same segment at the same local coordinate:
  the segment number is the same word whether the quotient is clamped before or after its conversion to an
  integer; the one-hot contraction of a table row is the row's entry at that word; the table's entries are the
  reference's coefficients of that segment. No arithmetic law that needs finiteness is used, so the precondition
  is never opened.
  The three frames: both kernel programs run their host lines, the pipelined region (eight row loops per grid
  point, each storing 16 strips that tile the output block) and the final regrouping without fault and leave
  both arguments as launched; the reference's frame is its run with the result dropped. The kernel's idealization
  rewrote nothing, so nothing is to preserve.
-/
import proofs.«161124_j66623532696299_2_alg».proof.Defs
import proofs.«161124_j66623532696299_2_alg».proof.Proof.KernelFrame
import proofs.«161124_j66623532696299_2_alg».proof.Proof.KernelIdealResult
import proofs.«161124_j66623532696299_2_alg».proof.Proof.RefRun
import proofs.«161124_j66623532696299_2_alg».proof.Proof.RefValue
import Idealize.ShloMosaic.Adequacy
import Idealize.ShloMosaic.Init

noncomputable section

namespace Cert.Proof

open Idealize.ShloMosaic Idealize.SL.Sem

/-- Both kernel programs run to the end, fault nowhere and leave their arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- Over the extended reals the kernel's result array and the reference's are one function of arguments that
    agree: at every element the spline of the shared specification. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  funext I
  rw [Cert.ReferenceIdeal.RefValue.ref_at, Cert.KernelIdeal.Hand.kres_apply]

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, trivial, algebraic⟩

end Cert.Proof

end
